-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S8192 : Shape := ⟨1, ![8192]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x10 .f32) (main_arg8 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x10 .f32 := Host.absf main_arg7
  let main_cst_10 : FVec F S_ .f32 := constant S_ .f32 0x7F800000#32
  let main_v30 : FVec F S64x10 .f32 := broadcastInDim S64x10 ![] bcast_S_S64x10 main_cst_10
  let main_v31 : IVec S64x10 1 := cmpf .olt main_v29 main_v30
  let main_c_11 : IVec S_ 1 := constantI S_ 1 1#1
  let main_v32 : IVec S_ 1 := (fun x v => Host.reduce IntOp.andi x v reducesTo_S64x10_S_d0_1 h_S_) main_v31 main_c_11
  let main_v33 : IVec S_ 1 := andi main_v28 main_v32
  fn_part2 (F := F) main_arg8 main_v33

def fn {F : FTy → Type} [FloatOps F] (main_arg0 : FVec F S8192x64 .f32) (main_arg1 : FVec F S8192x8192 .f32) (main_arg2 : IVec S8192 32) (main_arg3 : FVec F S64x64 .f32) (main_arg4 : FVec F S64 .f32) (main_arg5 : FVec F S64x64 .f32) (main_arg6 : FVec F S64 .f32) (main_arg7 : FVec F S64x10 .f32) (main_arg8 : FVec F S10 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S8192x64 : Shape := ⟨2, ![8192, 64]⟩
abbrev S8192x8192 : Shape := ⟨2, ![8192, 8192]⟩
abbrev S8192 : Shape := ⟨1, ![8192]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x64 : Shape := ⟨2, ![1, 64]⟩
abbrev S256x8192 : Shape := ⟨2, ![256, 8192]⟩
abbrev S256x64 : Shape := ⟨2, ![256, 64]⟩
abbrev S_ : Shape := ⟨0, ![]⟩
abbrev S8192x1 : Shape := ⟨2, ![8192, 1]⟩
abbrev S64x1 : Shape := ⟨2, ![64, 1]⟩
abbrev S1x10 : Shape := ⟨2, ![1, 10]⟩

abbrev nBuf : Space → Nat
  | .hbm => 215
  | .vmem => 18
  | .smem => 0
  | _ => 0

abbrev hbmTy0_0 (i : Nat) : BufTy := match i % 128 with
  | 0 => ⟨S8192x64, .f32⟩
  | 1 => ⟨S8192x8192, .f32⟩
  | 2 => ⟨S8192, .i32⟩
  | 3 => ⟨S64x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S1x64, .f32⟩
  | 10 => ⟨S8192x64, .f32⟩
  | 11 => ⟨S1x64, .f32⟩
  | 12 => ⟨S8192x64, .f32⟩
  | 13 => ⟨S_, .f32⟩
  | 14 => ⟨S64x64, .f32⟩
  | 15 => ⟨S8192x1, .i32⟩
  | 16 => ⟨S64x64, .f32⟩
  | 17 => ⟨S64x64, .f32⟩
  | 18 => ⟨S_, .f32⟩
  | 19 => ⟨S64, .f32⟩
  | 20 => ⟨S64x1, .f32⟩
  | 21 => ⟨S64x1, .f32⟩
  | 22 => ⟨S_, .f32⟩
  | 23 => ⟨S64x1, .f32⟩
  | 24 => ⟨S64x1, .f32⟩
  | 25 => ⟨S64x64, .f32⟩
  | 26 => ⟨S64x64, .f32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192x64, .f32⟩
  | 36 => ⟨S8192x64, .f32⟩
  | 37 => ⟨S_, .f32⟩
  | 38 => ⟨S8192, .f32⟩
  | 39 => ⟨S8192x1, .f32⟩
  | 40 => ⟨S8192x64, .f32⟩
  | 41 => ⟨S8192x64, .f32⟩
  | 42 => ⟨S_, .f32⟩
  | 43 => ⟨S64x64, .f32⟩
  | 44 => ⟨S8192x1, .i32⟩
  | 45 => ⟨S64x64, .f32⟩
  | 46 => ⟨S64x64, .f32⟩
  | 47 => ⟨S_, .f32⟩
  | 48 => ⟨S64, .f32⟩
  | 49 => ⟨S64x1, .f32⟩
  | 50 => ⟨S64x1, .f32⟩
  | 51 => ⟨S_, .f32⟩
  | 52 => ⟨S64x1, .f32⟩
  | 53 => ⟨S64x1, .f32⟩
  | 54 => ⟨S64x64, .f32⟩
  | 55 => ⟨S64x64, .f32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S8192x64, .f32⟩
  | 65 => ⟨S8192x64, .f32⟩
  | 66 => ⟨S_, .f32⟩
  | 67 => ⟨S8192, .f32⟩
  | 68 => ⟨S8192x1, .f32⟩
  | 69 => ⟨S8192x64, .f32⟩
  | 70 => ⟨S8192x64, .f32⟩
  | 71 => ⟨S_, .f32⟩
  | 72 => ⟨S64x64, .f32⟩
  | 73 => ⟨S8192x1, .i32⟩
  | 74 => ⟨S64x64, .f32⟩
  | 75 => ⟨S64x64, .f32⟩
  | 76 => ⟨S_, .f32⟩
  | 77 => ⟨S64, .f32⟩
  | 78 => ⟨S64x1, .f32⟩
  | 79 => ⟨S64x1, .f32⟩
  | 80 => ⟨S_, .f32⟩
  | 81 => ⟨S64x1, .f32⟩
  | 82 => ⟨S64x1, .f32⟩
  | 83 => ⟨S64x64, .f32⟩
  | 84 => ⟨S64x64, .f32⟩
  | 85 => ⟨S_, .i32⟩
  | 86 => ⟨S8192, .i32⟩
  | 87 => ⟨S8192, .i1⟩
  | 88 => ⟨S_, .i32⟩
  | 89 => ⟨S8192, .i32⟩
  | 90 => ⟨S8192, .i32⟩
  | 91 => ⟨S8192, .i32⟩
  | 92 => ⟨S8192x1, .i32⟩
  | 93 => ⟨S8192x64, .f32⟩
  | 94 => ⟨S8192x64, .f32⟩
  | 95 => ⟨S_, .f32⟩
  | 96 => ⟨S8192, .f32⟩
  | 97 => ⟨S8192x1, .f32⟩
  | 98 => ⟨S8192x64, .f32⟩
  | 99 => ⟨S8192x64, .f32⟩
  | 100 => ⟨S_, .f32⟩
  | 101 => ⟨S64x64, .f32⟩
  | 102 => ⟨S8192x1, .i32⟩
  | 103 => ⟨S64x64, .f32⟩
  | 104 => ⟨S64x64, .f32⟩
  | 105 => ⟨S_, .f32⟩
  | 106 => ⟨S64, .f32⟩
  | 107 => ⟨S64x1, .f32⟩
  | 108 => ⟨S64x1, .f32⟩
  | 109 => ⟨S_, .f32⟩
  | 110 => ⟨S64x1, .f32⟩
  | 111 => ⟨S64x1, .f32⟩
  | 112 => ⟨S64x64, .f32⟩
  | 113 => ⟨S64x64, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x64, .f32⟩
  | 123 => ⟨S8192x64, .f32⟩
  | 124 => ⟨S_, .f32⟩
  | 125 => ⟨S8192, .f32⟩
  | 126 => ⟨S8192x1, .f32⟩
  | 127 => ⟨S8192x64, .f32⟩
  | _ => ⟨S8192x64, .f32⟩

abbrev hbmTy0_1 (i : Nat) : BufTy := match i % 128 with
  | 0 => ⟨S8192x64, .f32⟩
  | 1 => ⟨S_, .f32⟩
  | 2 => ⟨S64x64, .f32⟩
  | 3 => ⟨S8192x1, .i32⟩
  | 4 => ⟨S64x64, .f32⟩
  | 5 => ⟨S64x64, .f32⟩
  | 6 => ⟨S_, .f32⟩
  | 7 => ⟨S64, .f32⟩
  | 8 => ⟨S64x1, .f32⟩
  | 9 => ⟨S64x1, .f32⟩
  | 10 => ⟨S_, .f32⟩
  | 11 => ⟨S64x1, .f32⟩
  | 12 => ⟨S64x1, .f32⟩
  | 13 => ⟨S64x64, .f32⟩
  | 14 => ⟨S64x64, .f32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S8192x1, .i32⟩
  | 23 => ⟨S8192x64, .f32⟩
  | 24 => ⟨S8192x64, .f32⟩
  | 25 => ⟨S_, .f32⟩
  | 26 => ⟨S8192, .f32⟩
  | 27 => ⟨S8192x1, .f32⟩
  | 28 => ⟨S8192x64, .f32⟩
  | 29 => ⟨S8192x64, .f32⟩
  | 30 => ⟨S_, .f32⟩
  | 31 => ⟨S64x64, .f32⟩
  | 32 => ⟨S8192x1, .i32⟩
  | 33 => ⟨S64x64, .f32⟩
  | 34 => ⟨S64x64, .f32⟩
  | 35 => ⟨S_, .f32⟩
  | 36 => ⟨S64, .f32⟩
  | 37 => ⟨S64x1, .f32⟩
  | 38 => ⟨S64x1, .f32⟩
  | 39 => ⟨S_, .f32⟩
  | 40 => ⟨S64x1, .f32⟩
  | 41 => ⟨S64x1, .f32⟩
  | 42 => ⟨S64x64, .f32⟩
  | 43 => ⟨S64x64, .f32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192x64, .f32⟩
  | 53 => ⟨S8192x64, .f32⟩
  | 54 => ⟨S_, .f32⟩
  | 55 => ⟨S8192, .f32⟩
  | 56 => ⟨S8192, .f32⟩
  | 57 => ⟨S_, .f32⟩
  | 58 => ⟨S64, .f32⟩
  | 59 => ⟨S8192x1, .i32⟩
  | 60 => ⟨S64, .f32⟩
  | 61 => ⟨S64, .f32⟩
  | 62 => ⟨S_, .f32⟩
  | 63 => ⟨S64, .f32⟩
  | 64 => ⟨S64, .f32⟩
  | 65 => ⟨S64x1, .f32⟩
  | 66 => ⟨S64x64, .f32⟩
  | 67 => ⟨S64x64, .f32⟩
  | 68 => ⟨S64x10, .f32⟩
  | 69 => ⟨S1x10, .f32⟩
  | 70 => ⟨S64x10, .f32⟩
  | 71 => ⟨S64x10, .f32⟩
  | 72 => ⟨S_, .f32⟩
  | 73 => ⟨S64, .f32⟩
  | 74 => ⟨S_, .f32⟩
  | 75 => ⟨S64, .f32⟩
  | 76 => ⟨S64, .f32⟩
  | 77 => ⟨S64x1, .f32⟩
  | 78 => ⟨S64x10, .f32⟩
  | 79 => ⟨S64x10, .f32⟩
  | 80 => ⟨S64x10, .f32⟩
  | 81 => ⟨S_, .f32⟩
  | 82 => ⟨S64, .f32⟩
  | 83 => ⟨S64x1, .f32⟩
  | 84 => ⟨S64x1, .f32⟩
  | 85 => ⟨S64x10, .f32⟩
  | 86 => ⟨S64x10, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | .local _ .vmem, ⟨0, _⟩ => ⟨S256x8192, .f32⟩
  | .local _ .vmem, ⟨1, _⟩ => ⟨S256x8192, .f32⟩
  | .local _ .vmem, ⟨2, _⟩ => ⟨S8192x64, .f32⟩
  | .local _ .vmem, ⟨3, _⟩ => ⟨S256x64, .f32⟩
  | .local _ .vmem, ⟨4, _⟩ => ⟨S256x64, .f32⟩
  | .local _ .vmem, ⟨5, _⟩ => ⟨S64x64, .f32⟩
  | .local _ .vmem, ⟨6, _⟩ => ⟨S1x64, .f32⟩
  | .local _ .vmem, ⟨7, _⟩ => ⟨S256x64, .f32⟩
  | .local _ .vmem, ⟨8, _⟩ => ⟨S256x64, .f32⟩
  | .local _ .vmem, ⟨9, _⟩ => ⟨S256x8192, .f32⟩
  | .local _ .vmem, ⟨10, _⟩ => ⟨S256x8192, .f32⟩
  | .local _ .vmem, ⟨11, _⟩ => ⟨S8192x64, .f32⟩
  | .local _ .vmem, ⟨12, _⟩ => ⟨S256x64, .f32⟩
  | .local _ .vmem, ⟨13, _⟩ => ⟨S256x64, .f32⟩
  | .local _ .vmem, ⟨14, _⟩ => ⟨S64x64, .f32⟩
  | .local _ .vmem, ⟨15, _⟩ => ⟨S1x64, .f32⟩
  | .local _ .vmem, ⟨16, _⟩ => ⟨S256x64, .f32⟩
  | .local _ .vmem, ⟨17, _⟩ => ⟨S256x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_v0 : Ref sig .tc := ⟨.hbm, 46, rfl⟩
abbrev main_call1_cst : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call2_v0 : Ref sig .tc := ⟨.hbm, 75, rfl⟩
abbrev main_call2_cst : Ref sig .tc := ⟨.hbm, 76, rfl⟩
abbrev main_call2_v1 : Ref sig .tc := ⟨.hbm, 77, rfl⟩
abbrev main_call2_v2 : Ref sig .tc := ⟨.hbm, 78, rfl⟩
abbrev main_v47 : Ref sig .tc := ⟨.hbm, 79, rfl⟩
abbrev main_cst_9 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_10 : Ref sig .tc := ⟨.hbm, 85, rfl⟩
abbrev main_v52 : Ref sig .tc := ⟨.hbm, 86, rfl⟩
abbrev main_v53 : Ref sig .tc := ⟨.hbm, 87, rfl⟩
abbrev main_c_11 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_13 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call3_v0 : Ref sig .tc := ⟨.hbm, 104, rfl⟩
abbrev main_call3_cst : Ref sig .tc := ⟨.hbm, 105, rfl⟩
abbrev main_call3_v1 : Ref sig .tc := ⟨.hbm, 106, rfl⟩
abbrev main_call3_v2 : Ref sig .tc := ⟨.hbm, 107, rfl⟩
abbrev main_v67 : Ref sig .tc := ⟨.hbm, 108, rfl⟩
abbrev main_cst_14 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_15 : Ref sig .tc := ⟨.hbm, 114, rfl⟩
abbrev main_v72 : Ref sig .tc := ⟨.hbm, 115, rfl⟩
abbrev main_v73 : Ref sig .tc := ⟨.hbm, 116, rfl⟩
abbrev main_c_16 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_17 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_18 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_call4_v0 : Ref sig .tc := ⟨.hbm, 133, rfl⟩
abbrev main_call4_cst : Ref sig .tc := ⟨.hbm, 134, rfl⟩
abbrev main_call4_v1 : Ref sig .tc := ⟨.hbm, 135, rfl⟩
abbrev main_call4_v2 : Ref sig .tc := ⟨.hbm, 136, rfl⟩
abbrev main_v87 : Ref sig .tc := ⟨.hbm, 137, rfl⟩
abbrev main_cst_19 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_c_20 : Ref sig .tc := ⟨.hbm, 143, rfl⟩
abbrev main_v92 : Ref sig .tc := ⟨.hbm, 144, rfl⟩
abbrev main_v93 : Ref sig .tc := ⟨.hbm, 145, rfl⟩
abbrev main_c_21 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_22 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_23 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_call5_v0 : Ref sig .tc := ⟨.hbm, 162, rfl⟩
abbrev main_call5_cst : Ref sig .tc := ⟨.hbm, 163, rfl⟩
abbrev main_call5_v1 : Ref sig .tc := ⟨.hbm, 164, rfl⟩
abbrev main_call5_v2 : Ref sig .tc := ⟨.hbm, 165, rfl⟩
abbrev main_v107 : Ref sig .tc := ⟨.hbm, 166, rfl⟩
abbrev main_cst_24 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_c_25 : Ref sig .tc := ⟨.hbm, 172, rfl⟩
abbrev main_v112 : Ref sig .tc := ⟨.hbm, 173, rfl⟩
abbrev main_v113 : Ref sig .tc := ⟨.hbm, 174, rfl⟩
abbrev main_c_26 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_cst_27 : Ref sig .tc := ⟨.hbm, 182, rfl⟩
abbrev main_v120 : Ref sig .tc := ⟨.hbm, 183, rfl⟩
abbrev main_v121 : Ref sig .tc := ⟨.hbm, 184, rfl⟩
abbrev main_cst_28 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_29 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_call6_cst : Ref sig .tc := ⟨.hbm, 200, rfl⟩
abbrev main_call6_v0 : Ref sig .tc := ⟨.hbm, 201, rfl⟩
abbrev main_call6_cst_0 : Ref sig .tc := ⟨.hbm, 202, rfl⟩
abbrev main_call6_v1 : Ref sig .tc := ⟨.hbm, 203, rfl⟩
abbrev main_call6_v2 : Ref sig .tc := ⟨.hbm, 204, rfl⟩
abbrev main_call6_v3 : Ref sig .tc := ⟨.hbm, 205, rfl⟩
abbrev main_call6_v4 : Ref sig .tc := ⟨.hbm, 206, rfl⟩
abbrev main_call6_v5 : Ref sig .tc := ⟨.hbm, 207, rfl⟩
abbrev main_call6_v6 : Ref sig .tc := ⟨.hbm, 208, rfl⟩
abbrev main_call6_cst_1 : Ref sig .tc := ⟨.hbm, 209, rfl⟩
abbrev main_call6_v7 : Ref sig .tc := ⟨.hbm, 210, rfl⟩
abbrev main_call6_v8 : Ref sig .tc := ⟨.hbm, 211, rfl⟩
abbrev main_call6_v9 : Ref sig .tc := ⟨.hbm, 212, rfl⟩
abbrev main_call6_v10 : Ref sig .tc := ⟨.hbm, 213, rfl⟩
abbrev main_v135 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64_S1x64 : S64.ShapeCasts S1x64
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  inb_S256x64_S256x64_0_0 : ∀ a, (![0, 0] : Fin 2 → Nat) a + S256x64.size a ≤ S256x64.size a
  h_S256x64 : 0 < S256x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  shapeCasts_S8192x64_S8192x64 : S8192x64.ShapeCasts S8192x64
  shapeCasts_S256x64_S256x64 : S256x64.ShapeCasts S256x64
  bcast_S_S64x64 : S_.BroadcastsInDim S64x64 (![] : Fin 0 → Fin S64x64.rank)
  bcast_S8192_S8192x1_0 : S8192.BroadcastsInDim S8192x1 (![0] : Fin 1 → Fin S8192x1.rank)
  reducesTo_S64x64_S64_d1 : S64x64.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S_S8192 : S_.BroadcastsInDim S8192 (![] : Fin 0 → Fin S8192.rank)
  reducesTo_S8192x64_S8192_d1 : S8192x64.ReducesTo [1] S8192
  bcast_S8192x1_S8192x64_0_1 : S8192x1.BroadcastsInDim S8192x64 (![0, 1] : Fin 2 → Fin S8192x64.rank)
  bcast_S_S64 : S_.BroadcastsInDim S64 (![] : Fin 0 → Fin S64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  bcast_S64x1_S64x10_0_1 : S64x1.BroadcastsInDim S64x10 (![0, 1] : Fin 2 → Fin S64x10.rank)
  dot_S256x8192_S8192x64_S256x64_1_0_0_1_n_n_wf : DotDims.WF S256x8192 S8192x64 S256x64 [1] [0] [0] [1] [] []
  dot_S256x64_S64x64_S256x64_1_0_0_1_n_n_wf : DotDims.WF S256x64 S64x64 S256x64 [1] [0] [0] [1] [] []
  scatter_S64x64_S8192x1_S8192x64_1_0_0_1_wf : ScatterDims.WF S64x64 S8192x1 S8192x64 [1] [0] [0] 1
  gather_S64x64_S8192x1_S8192x64_1_0_n_n_0_1_164_wf : GatherDims.WF S64x64 S8192x1 S8192x64 [1] [0] [] [0] [] 1 ![1, 64]
  scatter_S64_S8192x1_S8192_n_0_0_1_wf : ScatterDims.WF S64 S8192x1 S8192 [] [0] [0] 1
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S8192x64.size a
  hwx0_5 : ∀ i : grid0.Coords, EltTy.bits .f32 = 32 ∨ (Rect.block (s := S8192x64) S256x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S8192x64.size a
  hwx1_2 : ∀ i : grid1.Coords, EltTy.bits .f32 = 32 ∨ (Rect.block (s := S8192x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S8192x64.size a
  hwx1_5 : ∀ i : grid1.Coords, EltTy.bits .f32 = 32 ∨ (Rect.block (s := S8192x64) S256x64.size (cc1_transform_5 i) (hinb1_5 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def scatter_S64x64_S8192x1_S8192x64_1_0_0_1 : ScatterDims S64x64 S8192x1 S8192x64 where
  updateWindowDims := [1]
  insertedWindowDims := [0]
  scatterDimsToOperandDims := [0]
  indexVectorDim := 1
  wf := scatter_S64x64_S8192x1_S8192x64_1_0_0_1_wf
def gather_S64x64_S8192x1_S8192x64_1_0_n_n_0_1_164 : GatherDims S64x64 S8192x1 S8192x64 where
  offsetDims := [1]
  collapsedSliceDims := [0]
  operandBatchingDims := []
  startIndicesBatchingDims := []
  startIndexMap := [0]
  indexVectorDim := 1
  sliceSizes := ![1, 64]
  wf := gather_S64x64_S8192x1_S8192x64_1_0_n_n_0_1_164_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S256x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S8192 : Shape := ⟨1, ![8192]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩
abbrev S1x64 : Shape := ⟨2, ![1, 64]⟩
abbrev S8192x1 : Shape := ⟨2, ![8192, 1]⟩
abbrev S64x1 : Shape := ⟨2, ![64, 1]⟩
abbrev S1x10 : Shape := ⟨2, ![1, 10]⟩

abbrev nBuf : Space → Nat
  | .hbm => 243
  | .vmem => 0
  | .smem => 0
  | _ => 0

abbrev hbmTy0_0 (i : Nat) : BufTy := match i % 128 with
  | 0 => ⟨S8192x64, .f32⟩
  | 1 => ⟨S8192x8192, .f32⟩
  | 2 => ⟨S8192, .i32⟩
  | 3 => ⟨S64x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S8192x8192, .i32⟩
  | 10 => ⟨S8192x8192, .i32⟩
  | 11 => ⟨S_, .i32⟩
  | 12 => ⟨S8192x8192, .i32⟩
  | 13 => ⟨S8192x8192, .i32⟩
  | 14 => ⟨S8192x8192, .i1⟩
  | 15 => ⟨S8192x8192, .f32⟩
  | 16 => ⟨S8192x8192, .f32⟩
  | 17 => ⟨S8192x64, .f32⟩
  | 18 => ⟨S_, .f32⟩
  | 19 => ⟨S8192x64, .f32⟩
  | 20 => ⟨S8192x64, .f32⟩
  | 21 => ⟨S8192x64, .f32⟩
  | 22 => ⟨S8192x64, .f32⟩
  | 23 => ⟨S1x64, .f32⟩
  | 24 => ⟨S8192x64, .f32⟩
  | 25 => ⟨S8192x64, .f32⟩
  | 26 => ⟨S_, .f32⟩
  | 27 => ⟨S8192x64, .f32⟩
  | 28 => ⟨S8192x64, .f32⟩
  | 29 => ⟨S8192x64, .f32⟩
  | 30 => ⟨S_, .f32⟩
  | 31 => ⟨S8192x64, .f32⟩
  | 32 => ⟨S8192x64, .f32⟩
  | 33 => ⟨S8192x64, .f32⟩
  | 34 => ⟨S8192x64, .f32⟩
  | 35 => ⟨S1x64, .f32⟩
  | 36 => ⟨S8192x64, .f32⟩
  | 37 => ⟨S8192x64, .f32⟩
  | 38 => ⟨S_, .f32⟩
  | 39 => ⟨S8192x64, .f32⟩
  | 40 => ⟨S8192x64, .f32⟩
  | 41 => ⟨S_, .f32⟩
  | 42 => ⟨S64x64, .f32⟩
  | 43 => ⟨S8192x1, .i32⟩
  | 44 => ⟨S64x64, .f32⟩
  | 45 => ⟨S64x64, .f32⟩
  | 46 => ⟨S_, .f32⟩
  | 47 => ⟨S64, .f32⟩
  | 48 => ⟨S64x1, .f32⟩
  | 49 => ⟨S64x1, .f32⟩
  | 50 => ⟨S_, .f32⟩
  | 51 => ⟨S64x1, .f32⟩
  | 52 => ⟨S64x1, .f32⟩
  | 53 => ⟨S64x64, .f32⟩
  | 54 => ⟨S64x64, .f32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192x64, .f32⟩
  | 64 => ⟨S8192x64, .f32⟩
  | 65 => ⟨S_, .f32⟩
  | 66 => ⟨S8192, .f32⟩
  | 67 => ⟨S8192x1, .f32⟩
  | 68 => ⟨S8192x64, .f32⟩
  | 69 => ⟨S8192x64, .f32⟩
  | 70 => ⟨S_, .f32⟩
  | 71 => ⟨S64x64, .f32⟩
  | 72 => ⟨S8192x1, .i32⟩
  | 73 => ⟨S64x64, .f32⟩
  | 74 => ⟨S64x64, .f32⟩
  | 75 => ⟨S_, .f32⟩
  | 76 => ⟨S64, .f32⟩
  | 77 => ⟨S64x1, .f32⟩
  | 78 => ⟨S64x1, .f32⟩
  | 79 => ⟨S_, .f32⟩
  | 80 => ⟨S64x1, .f32⟩
  | 81 => ⟨S64x1, .f32⟩
  | 82 => ⟨S64x64, .f32⟩
  | 83 => ⟨S64x64, .f32⟩
  | 84 => ⟨S_, .i32⟩
  | 85 => ⟨S8192, .i32⟩
  | 86 => ⟨S8192, .i1⟩
  | 87 => ⟨S_, .i32⟩
  | 88 => ⟨S8192, .i32⟩
  | 89 => ⟨S8192, .i32⟩
  | 90 => ⟨S8192, .i32⟩
  | 91 => ⟨S8192x1, .i32⟩
  | 92 => ⟨S8192x64, .f32⟩
  | 93 => ⟨S8192x64, .f32⟩
  | 94 => ⟨S_, .f32⟩
  | 95 => ⟨S8192, .f32⟩
  | 96 => ⟨S8192x1, .f32⟩
  | 97 => ⟨S8192x64, .f32⟩
  | 98 => ⟨S8192x64, .f32⟩
  | 99 => ⟨S_, .f32⟩
  | 100 => ⟨S64x64, .f32⟩
  | 101 => ⟨S8192x1, .i32⟩
  | 102 => ⟨S64x64, .f32⟩
  | 103 => ⟨S64x64, .f32⟩
  | 104 => ⟨S_, .f32⟩
  | 105 => ⟨S64, .f32⟩
  | 106 => ⟨S64x1, .f32⟩
  | 107 => ⟨S64x1, .f32⟩
  | 108 => ⟨S_, .f32⟩
  | 109 => ⟨S64x1, .f32⟩
  | 110 => ⟨S64x1, .f32⟩
  | 111 => ⟨S64x64, .f32⟩
  | 112 => ⟨S64x64, .f32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S8192x64, .f32⟩
  | 122 => ⟨S8192x64, .f32⟩
  | 123 => ⟨S_, .f32⟩
  | 124 => ⟨S8192, .f32⟩
  | 125 => ⟨S8192x1, .f32⟩
  | 126 => ⟨S8192x64, .f32⟩
  | 127 => ⟨S8192x64, .f32⟩
  | _ => ⟨S8192x64, .f32⟩

abbrev hbmTy0_1 (i : Nat) : BufTy := match i % 128 with
  | 0 => ⟨S_, .f32⟩
  | 1 => ⟨S64x64, .f32⟩
  | 2 => ⟨S8192x1, .i32⟩
  | 3 => ⟨S64x64, .f32⟩
  | 4 => ⟨S64x64, .f32⟩
  | 5 => ⟨S_, .f32⟩
  | 6 => ⟨S64, .f32⟩
  | 7 => ⟨S64x1, .f32⟩
  | 8 => ⟨S64x1, .f32⟩
  | 9 => ⟨S_, .f32⟩
  | 10 => ⟨S64x1, .f32⟩
  | 11 => ⟨S64x1, .f32⟩
  | 12 => ⟨S64x64, .f32⟩
  | 13 => ⟨S64x64, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x64, .f32⟩
  | 23 => ⟨S8192x64, .f32⟩
  | 24 => ⟨S_, .f32⟩
  | 25 => ⟨S8192, .f32⟩
  | 26 => ⟨S8192x1, .f32⟩
  | 27 => ⟨S8192x64, .f32⟩
  | 28 => ⟨S8192x64, .f32⟩
  | 29 => ⟨S_, .f32⟩
  | 30 => ⟨S64x64, .f32⟩
  | 31 => ⟨S8192x1, .i32⟩
  | 32 => ⟨S64x64, .f32⟩
  | 33 => ⟨S64x64, .f32⟩
  | 34 => ⟨S_, .f32⟩
  | 35 => ⟨S64, .f32⟩
  | 36 => ⟨S64x1, .f32⟩
  | 37 => ⟨S64x1, .f32⟩
  | 38 => ⟨S_, .f32⟩
  | 39 => ⟨S64x1, .f32⟩
  | 40 => ⟨S64x1, .f32⟩
  | 41 => ⟨S64x64, .f32⟩
  | 42 => ⟨S64x64, .f32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x64, .f32⟩
  | 52 => ⟨S8192x64, .f32⟩
  | 53 => ⟨S_, .f32⟩
  | 54 => ⟨S8192, .f32⟩
  | 55 => ⟨S8192x1, .f32⟩
  | 56 => ⟨S8192x64, .f32⟩
  | 57 => ⟨S8192x64, .f32⟩
  | 58 => ⟨S_, .f32⟩
  | 59 => ⟨S64x64, .f32⟩
  | 60 => ⟨S8192x1, .i32⟩
  | 61 => ⟨S64x64, .f32⟩
  | 62 => ⟨S64x64, .f32⟩
  | 63 => ⟨S_, .f32⟩
  | 64 => ⟨S64, .f32⟩
  | 65 => ⟨S64x1, .f32⟩
  | 66 => ⟨S64x1, .f32⟩
  | 67 => ⟨S_, .f32⟩
  | 68 => ⟨S64x1, .f32⟩
  | 69 => ⟨S64x1, .f32⟩
  | 70 => ⟨S64x64, .f32⟩
  | 71 => ⟨S64x64, .f32⟩
  | 72 => ⟨S_, .i32⟩
  | 73 => ⟨S8192, .i32⟩
  | 74 => ⟨S8192, .i1⟩
  | 75 => ⟨S_, .i32⟩
  | 76 => ⟨S8192, .i32⟩
  | 77 => ⟨S8192, .i32⟩
  | 78 => ⟨S8192, .i32⟩
  | 79 => ⟨S8192x1, .i32⟩
  | 80 => ⟨S8192x64, .f32⟩
  | 81 => ⟨S8192x64, .f32⟩
  | 82 => ⟨S_, .f32⟩
  | 83 => ⟨S8192, .f32⟩
  | 84 => ⟨S8192, .f32⟩
  | 85 => ⟨S_, .f32⟩
  | 86 => ⟨S64, .f32⟩
  | 87 => ⟨S8192x1, .i32⟩
  | 88 => ⟨S64, .f32⟩
  | 89 => ⟨S64, .f32⟩
  | 90 => ⟨S_, .f32⟩
  | 91 => ⟨S64, .f32⟩
  | 92 => ⟨S64, .f32⟩
  | 93 => ⟨S64x1, .f32⟩
  | 94 => ⟨S64x64, .f32⟩
  | 95 => ⟨S64x64, .f32⟩
  | 96 => ⟨S64x10, .f32⟩
  | 97 => ⟨S1x10, .f32⟩
  | 98 => ⟨S64x10, .f32⟩
  | 99 => ⟨S64x10, .f32⟩
  | 100 => ⟨S_, .f32⟩
  | 101 => ⟨S64, .f32⟩
  | 102 => ⟨S_, .f32⟩
  | 103 => ⟨S64, .f32⟩
  | 104 => ⟨S64, .f32⟩
  | 105 => ⟨S64x1, .f32⟩
  | 106 => ⟨S64x10, .f32⟩
  | 107 => ⟨S64x10, .f32⟩
  | 108 => ⟨S64x10, .f32⟩
  | 109 => ⟨S_, .f32⟩
  | 110 => ⟨S64, .f32⟩
  | 111 => ⟨S64x1, .f32⟩
  | 112 => ⟨S64x1, .f32⟩
  | 113 => ⟨S64x10, .f32⟩
  | 114 => ⟨S64x10, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_cst : Ref sig .tc := ⟨.hbm, 38, rfl⟩
abbrev main_call1_v0 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call2_v0 : Ref sig .tc := ⟨.hbm, 45, rfl⟩
abbrev main_call2_cst : Ref sig .tc := ⟨.hbm, 46, rfl⟩
abbrev main_call2_v1 : Ref sig .tc := ⟨.hbm, 47, rfl⟩
abbrev main_call2_v2 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_3 : Ref sig .tc := ⟨.hbm, 55, rfl⟩
abbrev main_v33 : Ref sig .tc := ⟨.hbm, 56, rfl⟩
abbrev main_v34 : Ref sig .tc := ⟨.hbm, 57, rfl⟩
abbrev main_c_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call3_v0 : Ref sig .tc := ⟨.hbm, 74, rfl⟩
abbrev main_call3_cst : Ref sig .tc := ⟨.hbm, 75, rfl⟩
abbrev main_call3_v1 : Ref sig .tc := ⟨.hbm, 76, rfl⟩
abbrev main_call3_v2 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_8 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_call4_v0 : Ref sig .tc := ⟨.hbm, 103, rfl⟩
abbrev main_call4_cst : Ref sig .tc := ⟨.hbm, 104, rfl⟩
abbrev main_call4_v1 : Ref sig .tc := ⟨.hbm, 105, rfl⟩
abbrev main_call4_v2 : Ref sig .tc := ⟨.hbm, 106, rfl⟩
abbrev main_v68 : Ref sig .tc := ⟨.hbm, 107, rfl⟩
abbrev main_cst_12 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_13 : Ref sig .tc := ⟨.hbm, 113, rfl⟩
abbrev main_v73 : Ref sig .tc := ⟨.hbm, 114, rfl⟩
abbrev main_v74 : Ref sig .tc := ⟨.hbm, 115, rfl⟩
abbrev main_c_14 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_15 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_16 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_call5_v0 : Ref sig .tc := ⟨.hbm, 132, rfl⟩
abbrev main_call5_cst : Ref sig .tc := ⟨.hbm, 133, rfl⟩
abbrev main_call5_v1 : Ref sig .tc := ⟨.hbm, 134, rfl⟩
abbrev main_call5_v2 : Ref sig .tc := ⟨.hbm, 135, rfl⟩
abbrev main_v88 : Ref sig .tc := ⟨.hbm, 136, rfl⟩
abbrev main_cst_17 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_c_18 : Ref sig .tc := ⟨.hbm, 142, rfl⟩
abbrev main_v93 : Ref sig .tc := ⟨.hbm, 143, rfl⟩
abbrev main_v94 : Ref sig .tc := ⟨.hbm, 144, rfl⟩
abbrev main_c_19 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_20 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_21 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_call6_v0 : Ref sig .tc := ⟨.hbm, 161, rfl⟩
abbrev main_call6_cst : Ref sig .tc := ⟨.hbm, 162, rfl⟩
abbrev main_call6_v1 : Ref sig .tc := ⟨.hbm, 163, rfl⟩
abbrev main_call6_v2 : Ref sig .tc := ⟨.hbm, 164, rfl⟩
abbrev main_v108 : Ref sig .tc := ⟨.hbm, 165, rfl⟩
abbrev main_cst_22 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_c_23 : Ref sig .tc := ⟨.hbm, 171, rfl⟩
abbrev main_v113 : Ref sig .tc := ⟨.hbm, 172, rfl⟩
abbrev main_v114 : Ref sig .tc := ⟨.hbm, 173, rfl⟩
abbrev main_c_24 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_cst_25 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_26 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_call7_v0 : Ref sig .tc := ⟨.hbm, 190, rfl⟩
abbrev main_call7_cst : Ref sig .tc := ⟨.hbm, 191, rfl⟩
abbrev main_call7_v1 : Ref sig .tc := ⟨.hbm, 192, rfl⟩
abbrev main_call7_v2 : Ref sig .tc := ⟨.hbm, 193, rfl⟩
abbrev main_v128 : Ref sig .tc := ⟨.hbm, 194, rfl⟩
abbrev main_cst_27 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_c_28 : Ref sig .tc := ⟨.hbm, 200, rfl⟩
abbrev main_v133 : Ref sig .tc := ⟨.hbm, 201, rfl⟩
abbrev main_v134 : Ref sig .tc := ⟨.hbm, 202, rfl⟩
abbrev main_c_29 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_cst_30 : Ref sig .tc := ⟨.hbm, 210, rfl⟩
abbrev main_v141 : Ref sig .tc := ⟨.hbm, 211, rfl⟩
abbrev main_v142 : Ref sig .tc := ⟨.hbm, 212, rfl⟩
abbrev main_cst_31 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_cst_32 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_call8_cst : Ref sig .tc := ⟨.hbm, 228, rfl⟩
abbrev main_call8_v0 : Ref sig .tc := ⟨.hbm, 229, rfl⟩
abbrev main_call8_cst_0 : Ref sig .tc := ⟨.hbm, 230, rfl⟩
abbrev main_call8_v1 : Ref sig .tc := ⟨.hbm, 231, rfl⟩
abbrev main_call8_v2 : Ref sig .tc := ⟨.hbm, 232, rfl⟩
abbrev main_call8_v3 : Ref sig .tc := ⟨.hbm, 233, rfl⟩
abbrev main_call8_v4 : Ref sig .tc := ⟨.hbm, 234, rfl⟩
abbrev main_call8_v5 : Ref sig .tc := ⟨.hbm, 235, rfl⟩
abbrev main_call8_v6 : Ref sig .tc := ⟨.hbm, 236, rfl⟩
abbrev main_call8_cst_1 : Ref sig .tc := ⟨.hbm, 237, rfl⟩
abbrev main_call8_v7 : Ref sig .tc := ⟨.hbm, 238, rfl⟩
abbrev main_call8_v8 : Ref sig .tc := ⟨.hbm, 239, rfl⟩
abbrev main_call8_v9 : Ref sig .tc := ⟨.hbm, 240, rfl⟩
abbrev main_call8_v10 : Ref sig .tc := ⟨.hbm, 241, rfl⟩
abbrev main_v156 : Ref sig .tc := ⟨.hbm, 242, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S64x64 : S_.BroadcastsInDim S64x64 (![] : Fin 0 → Fin S64x64.rank)
  bcast_S8192_S8192x1_0 : S8192.BroadcastsInDim S8192x1 (![0] : Fin 1 → Fin S8192x1.rank)
  reducesTo_S64x64_S64_d1 : S64x64.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S_S8192 : S_.BroadcastsInDim S8192 (![] : Fin 0 → Fin S8192.rank)
  reducesTo_S8192x64_S8192_d1 : S8192x64.ReducesTo [1] S8192
  bcast_S8192x1_S8192x64_0_1 : S8192x1.BroadcastsInDim S8192x64 (![0, 1] : Fin 2 → Fin S8192x64.rank)
  bcast_S_S64 : S_.BroadcastsInDim S64 (![] : Fin 0 → Fin S64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  bcast_S64x1_S64x10_0_1 : S64x1.BroadcastsInDim S64x10 (![0, 1] : Fin 2 → Fin S64x10.rank)
  dot_S8192x8192_S8192x64_S8192x64_1_0_0_1_n_n_wf : DotDims.WF S8192x8192 S8192x64 S8192x64 [1] [0] [0] [1] [] []
  dot_S8192x64_S64x64_S8192x64_1_0_0_1_n_n_wf : DotDims.WF S8192x64 S64x64 S8192x64 [1] [0] [0] [1] [] []
  scatter_S64x64_S8192x1_S8192x64_1_0_0_1_wf : ScatterDims.WF S64x64 S8192x1 S8192x64 [1] [0] [0] 1
  gather_S64x64_S8192x1_S8192x64_1_0_n_n_0_1_164_wf : GatherDims.WF S64x64 S8192x1 S8192x64 [1] [0] [] [0] [] 1 ![1, 64]
  scatter_S64_S8192x1_S8192_n_0_0_1_wf : ScatterDims.WF S64 S8192x1 S8192 [] [0] [0] 1
  dot_S64x64_S64x10_S64x10_1_0_0_1_n_n_wf : DotDims.WF S64x64 S64x10 S64x10 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S64x64_S8192x1_S8192x64_1_0_0_1 : ScatterDims S64x64 S8192x1 S8192x64 where
  updateWindowDims := [1]
  insertedWindowDims := [0]
  scatterDimsToOperandDims := [0]
  indexVectorDim := 1
  wf := scatter_S64x64_S8192x1_S8192x64_1_0_0_1_wf
def gather_S64x64_S8192x1_S8192x64_1_0_n_n_0_1_164 : GatherDims S64x64 S8192x1 S8192x64 where
  offsetDims := [1]
  collapsedSliceDims := [0]
  operandBatchingDims := []
  startIndicesBatchingDims := []
  startIndexMap := [0]
  indexVectorDim := 1
  sliceSizes := ![1, 64]
  wf := gather_S64x64_S8192x1_S8192x64_1_0_n_n_0_1_164_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.IdealLayers.lean ====
import proofs.«182046_j72232759984565_1_alg».proof.Proof.Gen.KernelIdeal.Launch
import proofs.«182046_j72232759984565_1_alg».proof.Proof.Gen.KernelIdeal.Skeleton
import proofs.«182046_j72232759984565_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two graph-convolution regions, one at a time

Each region runs one layer, relu ((adj x + x) W + b), over a grid of 32 row tiles of 256 rows.  A tile reads
its 256 rows of the adjacency matrix, ALL of the feature matrix x (window 1), its own 256 rows of x again
(window 2: the self loop), the weights and the bias row, and writes its 256 rows of the result (window 5).
Windows 1 and 2 stand on one and the same array.

This file says, for arbitrary contents V of the core's buffers at a region's entry: which block of its array each
window holds at a grid point, what the body leaves in the output tile (one store of the body's one value), that
the body run on those blocks does leave it, and the per-point record of that for the pipeline.  Nothing here
depends on the float instance.
-/

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or the block
    index has not moved since the last fetch (windows 0 to 4 in turn). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer: the rectangles the body loads and stores through. -/
abbrev rA : Rect S256x8192 := Rect.unit (s := S256x8192) ![0, 0] S256x8192.size inb_S256x8192_S256x8192_0_0
abbrev rX : Rect S8192x64 := Rect.unit (s := S8192x64) ![0, 0] S8192x64.size inb_S8192x64_S8192x64_0_0
abbrev rT : Rect S256x64 := Rect.unit (s := S256x64) ![0, 0] S256x64.size inb_S256x64_S256x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- What the body leaves in the output tile's buffer: its one store, of the layer's value on the five blocks. -/
def tile0 (a : Vec F S256x8192 .f32) (x : Vec F S8192x64 .f32) (xs : Vec F S256x64 .f32) (w : Vec F S64x64 .f32) (b : Vec F S1x64 .f32) :
    Vec F S256x64 .f32 :=
  View.canon [⟨rT, k0_pay1 (View.ld a rA) (View.ld x rX) (View.ld xs rT) (View.ld w rW) (View.ld b rB)⟩]

/-- The one store covers the tile. -/
theorem tile_cover (p0 : Vec F S256x64 .f32) (y : S256x64.Idx) :
    ∃ pc ∈ ([⟨rT, p0⟩] : List (View.Piece (Elt F) S256x64 .f32)), y ∈ pc.1.set :=
  View.cover_of_tiled [⟨rT, p0⟩] S256x64.size (by rfl) y

set_option maxHeartbeats 2000000 in
/-- The body on whole staging memrefs: the five inputs at contents it only reads, the output's at anything; it
    ends with the inputs as they were and the output at tile0 of them. -/
theorem body0_run (c : Dev nD) (E : Set ℕ) (i : grid0.Coords)
    (arg1 : Memref sig .tc .vmem S256x8192 .f32) (harg1 : arg1.IsWhole) (arg2 : Memref sig .tc .vmem S8192x64 .f32) (harg2 : arg2.IsWhole)
    (arg3 : Memref sig .tc .vmem S256x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S256x64 .f32) (harg6 : arg6.IsWhole)
    (a : Vec F S256x8192 .f32) (x : Vec F S8192x64 .f32) (xs : Vec F S256x64 .f32) (w : Vec F S64x64 .f32) (b : Vec F S1x64 .f32)
    (K : PUnit → sProp 𝕄) :
    iprop(owns (c : Thread nD τ) arg1 fullShare a ∗ owns (c : Thread nD τ) arg2 fullShare x ∗ owns (c : Thread nD τ) arg3 fullShare xs
        ∗ owns (c : Thread nD τ) arg4 fullShare w ∗ owns (c : Thread nD τ) arg5 fullShare b ∗ (∃ d, owns (c : Thread nD τ) arg6 fullShare d)
        ∗ (iprop(owns (c : Thread nD τ) arg1 fullShare a ∗ owns (c : Thread nD τ) arg2 fullShare x ∗ owns (c : Thread nD τ) arg3 fullShare xs
            ∗ owns (c : Thread nD τ) arg4 fullShare w ∗ owns (c : Thread nD τ) arg5 fullShare b
            ∗ owns (c : Thread nD τ) arg6 fullShare (tile0 a x xs w b)) -∗ K ⟨⟩))
      ⊢ wp frame (wpE (defs₀ (F := F)) Variants.none c none) E (cc0__gin_layer_kernel i arg1 harg1 arg2 harg2 arg3 harg3 arg4 harg4 arg5 harg5 arg6 harg6) K := by
  simp only [cc0__gin_layer_kernel_eq_skeleton]; unfold cc0__gin_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tile_cover _)

/-- The per-point record of region 0 on core c: the arrays as the region finds them; after the body each input's
    buffer still at its block and the output's at tile0 of the blocks; the invariant is the untouched rest of the
    core's scoped memory and its generator register; nothing is owed.  The feature matrix is read through two
    windows, so each of the two holds half of it; every other input is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => tile0 (iblk0 V c 0 t) (iblk0 V c 1 t) (iblk0 V c 2 t) (iblk0 V c 3 t) (iblk0 V c 4 t)
  Φ _ := Pipeline.ΦA spec0 c
  q w := match w with
    | ⟨1, _⟩ => fullShare.left
    | ⟨2, _⟩ => fullShare.right
    | _ => fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = iblk0 V c 0 t := by dsimp only [dat0]
theorem dat0_after_1 (c : Dev nD) (t : Fin cfg0.N) : (dat0 V c).after 1 t = iblk0 V c 1 t := by dsimp only [dat0]
theorem dat0_after_2 (c : Dev nD) (t : Fin cfg0.N) : (dat0 V c).after 2 t = iblk0 V c 2 t := by dsimp only [dat0]
theorem dat0_after_3 (c : Dev nD) (t : Fin cfg0.N) : (dat0 V c).after 3 t = iblk0 V c 3 t := by dsimp only [dat0]
theorem dat0_after_4 (c : Dev nD) (t : Fin cfg0.N) : (dat0 V c).after 4 t = iblk0 V c 4 t := by dsimp only [dat0]
theorem dat0_after_5 (c : Dev nD) (t : Fin cfg0.N) :
    (dat0 V c).after 5 t = tile0 (iblk0 V c 0 t) (iblk0 V c 1 t) (iblk0 V c 2 t) (iblk0 V c 3 t) (iblk0 V c 4 t) := by dsimp only [dat0]

theorem dat0_before_0 (c : Dev nD) (t : Fin cfg0.N) (d) : (dat0 V c).before 0 t d = iblk0 V c 0 t :=
  before0_0_of V (dat0 V c) (dat0_A V c 0) (dat0_after_0 V c) t d
theorem dat0_before_1 (c : Dev nD) (t : Fin cfg0.N) (d) : (dat0 V c).before 1 t d = iblk0 V c 1 t :=
  before0_1_of V (dat0 V c) (dat0_A V c 1) (dat0_after_1 V c) t d
theorem dat0_before_2 (c : Dev nD) (t : Fin cfg0.N) (d) : (dat0 V c).before 2 t d = iblk0 V c 2 t :=
  before0_2_of V (dat0 V c) (dat0_A V c 2) (dat0_after_2 V c) t d
theorem dat0_before_3 (c : Dev nD) (t : Fin cfg0.N) (d) : (dat0 V c).before 3 t d = iblk0 V c 3 t :=
  before0_3_of V (dat0 V c) (dat0_A V c 3) (dat0_after_3 V c) t d
theorem dat0_before_4 (c : Dev nD) (t : Fin cfg0.N) (d) : (dat0 V c).before 4 t d = iblk0 V c 4 t :=
  before0_4_of V (dat0 V c) (dat0_A V c 4) (dat0_after_4 V c) t d

/-- What the body is called with at point t, the windows one by one, -/
def pointPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def pointPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so body0_run applies; the invariant and what the
    core owes pass through unread. -/
theorem point0_run (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [dat0_before_0, dat0_before_1, dat0_before_2, dat0_before_3, dat0_before_4]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4, dat0_after_5]
  iintro ⟨HΦ, Ho, ⟨%d0, H0⟩, ⟨%d1, H1⟩, ⟨%d2, H2⟩, ⟨%d3, H3⟩, ⟨%d4, H4⟩, ⟨%d5, H5⟩⟩
  iapply (body0_run c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation for the body, at every point. -/
theorem point0_obligation (c : Dev nD) : BodyObligation (dat0 (F := F) V c) (defs₀ (F := F)) Variants.none () Set.univ := fun t => by
  rw [bigSep_W0, bigSep_W0]
  exact point0_run V c t

/-! ## Region 1 -/

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or the block
    index has not moved since the last fetch (windows 0 to 4 in turn). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output tile's buffer: its one store, of the layer's value on the five blocks. -/
def tile1 (a : Vec F S256x8192 .f32) (x : Vec F S8192x64 .f32) (xs : Vec F S256x64 .f32) (w : Vec F S64x64 .f32) (b : Vec F S1x64 .f32) :
    Vec F S256x64 .f32 :=
  View.canon [⟨rT, k1_pay1 (View.ld a rA) (View.ld x rX) (View.ld xs rT) (View.ld w rW) (View.ld b rB)⟩]

set_option maxHeartbeats 2000000 in
/-- The body on whole staging memrefs: the five inputs at contents it only reads, the output's at anything; it
    ends with the inputs as they were and the output at tile1 of them. -/
theorem body1_run (c : Dev nD) (E : Set ℕ) (i : grid1.Coords)
    (arg1 : Memref sig .tc .vmem S256x8192 .f32) (harg1 : arg1.IsWhole) (arg2 : Memref sig .tc .vmem S8192x64 .f32) (harg2 : arg2.IsWhole)
    (arg3 : Memref sig .tc .vmem S256x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S256x64 .f32) (harg6 : arg6.IsWhole)
    (a : Vec F S256x8192 .f32) (x : Vec F S8192x64 .f32) (xs : Vec F S256x64 .f32) (w : Vec F S64x64 .f32) (b : Vec F S1x64 .f32)
    (K : PUnit → sProp 𝕄) :
    iprop(owns (c : Thread nD τ) arg1 fullShare a ∗ owns (c : Thread nD τ) arg2 fullShare x ∗ owns (c : Thread nD τ) arg3 fullShare xs
        ∗ owns (c : Thread nD τ) arg4 fullShare w ∗ owns (c : Thread nD τ) arg5 fullShare b ∗ (∃ d, owns (c : Thread nD τ) arg6 fullShare d)
        ∗ (iprop(owns (c : Thread nD τ) arg1 fullShare a ∗ owns (c : Thread nD τ) arg2 fullShare x ∗ owns (c : Thread nD τ) arg3 fullShare xs
            ∗ owns (c : Thread nD τ) arg4 fullShare w ∗ owns (c : Thread nD τ) arg5 fullShare b
            ∗ owns (c : Thread nD τ) arg6 fullShare (tile1 a x xs w b)) -∗ K ⟨⟩))
      ⊢ wp frame (wpE (defs₀ (F := F)) Variants.none c none) E (cc1__gin_layer_kernel i arg1 harg1 arg2 harg2 arg3 harg3 arg4 harg4 arg5 harg5 arg6 harg6) K := by
  simp only [cc1__gin_layer_kernel_eq_skeleton]; unfold cc1__gin_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tile_cover _)

/-- The per-point record of region 1 on core c: the arrays as the region finds them; after the body each input's
    buffer still at its block and the output's at tile1 of the blocks; the invariant is the untouched rest of the
    core's scoped memory and its generator register; nothing is owed.  The feature matrix is read through two
    windows, so each of the two holds half of it; every other input is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => tile1 (iblk1 V c 0 t) (iblk1 V c 1 t) (iblk1 V c 2 t) (iblk1 V c 3 t) (iblk1 V c 4 t)
  Φ _ := Pipeline.ΦA spec1 c
  q w := match w with
    | ⟨1, _⟩ => fullShare.left
    | ⟨2, _⟩ => fullShare.right
    | _ => fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = iblk1 V c 0 t := by dsimp only [dat1]
theorem dat1_after_1 (c : Dev nD) (t : Fin cfg1.N) : (dat1 V c).after 1 t = iblk1 V c 1 t := by dsimp only [dat1]
theorem dat1_after_2 (c : Dev nD) (t : Fin cfg1.N) : (dat1 V c).after 2 t = iblk1 V c 2 t := by dsimp only [dat1]
theorem dat1_after_3 (c : Dev nD) (t : Fin cfg1.N) : (dat1 V c).after 3 t = iblk1 V c 3 t := by dsimp only [dat1]
theorem dat1_after_4 (c : Dev nD) (t : Fin cfg1.N) : (dat1 V c).after 4 t = iblk1 V c 4 t := by dsimp only [dat1]
theorem dat1_after_5 (c : Dev nD) (t : Fin cfg1.N) :
    (dat1 V c).after 5 t = tile1 (iblk1 V c 0 t) (iblk1 V c 1 t) (iblk1 V c 2 t) (iblk1 V c 3 t) (iblk1 V c 4 t) := by dsimp only [dat1]

theorem dat1_before_0 (c : Dev nD) (t : Fin cfg1.N) (d) : (dat1 V c).before 0 t d = iblk1 V c 0 t :=
  before1_0_of V (dat1 V c) (dat1_A V c 0) (dat1_after_0 V c) t d
theorem dat1_before_1 (c : Dev nD) (t : Fin cfg1.N) (d) : (dat1 V c).before 1 t d = iblk1 V c 1 t :=
  before1_1_of V (dat1 V c) (dat1_A V c 1) (dat1_after_1 V c) t d
theorem dat1_before_2 (c : Dev nD) (t : Fin cfg1.N) (d) : (dat1 V c).before 2 t d = iblk1 V c 2 t :=
  before1_2_of V (dat1 V c) (dat1_A V c 2) (dat1_after_2 V c) t d
theorem dat1_before_3 (c : Dev nD) (t : Fin cfg1.N) (d) : (dat1 V c).before 3 t d = iblk1 V c 3 t :=
  before1_3_of V (dat1 V c) (dat1_A V c 3) (dat1_after_3 V c) t d
theorem dat1_before_4 (c : Dev nD) (t : Fin cfg1.N) (d) : (dat1 V c).before 4 t d = iblk1 V c 4 t :=
  before1_4_of V (dat1 V c) (dat1_A V c 4) (dat1_after_4 V c) t d

/-- What the body is called with at point t, the windows one by one, -/
def pointPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def pointPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so body1_run applies; the invariant and what the
    core owes pass through unread. -/
theorem point1_run (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [dat1_before_0, dat1_before_1, dat1_before_2, dat1_before_3, dat1_before_4]
  rw [show (dat1 V c).Φ t.succ = (dat1 V c).Φ t.castSucc from rfl,
    show (dat1 V c).owesAt () t.succ = (dat1 V c).owesAt () t.castSucc from rfl,
    dat1_after_0, dat1_after_1, dat1_after_2, dat1_after_3, dat1_after_4, dat1_after_5]
  iintro ⟨HΦ, Ho, ⟨%d0, H0⟩, ⟨%d1, H1⟩, ⟨%d2, H2⟩, ⟨%d3, H3⟩, ⟨%d4, H4⟩, ⟨%d5, H5⟩⟩
  iapply (body1_run c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation for the body, at every point. -/
theorem point1_obligation (c : Dev nD) : BodyObligation (dat1 (F := F) V c) (defs₀ (F := F)) Variants.none () Set.univ := fun t => by
  rw [bigSep_W1, bigSep_W1]
  exact point1_run V c t

end Cert.KernelIdeal.Layers

end
-- ==== Proof.IdealRun.lean ====
import proofs.«182046_j72232759984565_1_alg».proof.Proof.IdealLayers
import proofs.«182046_j72232759984565_1_alg».proof.Proof.Gen.KernelIdeal.Regions

/-!
# The whole program: two regions among host operations

The program is: reshape the first bias, region 0, reshape the second bias, region 1, then the pooling tail on the
host.  This file builds the two regions' records for the several-region launch.  The one point that is not routine:
each region hands the feature matrix to two windows, so at a region's entry the matrix's buffer, held whole, is
split into two halves, one per window, and at the exit the two halves, still at the contents they were read at,
are joined again.
-/

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 0's six windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_arg3) ↦{fullShare} W main_arg3) ∗ (((c : Thread nD τ).loc main_v0) ↦{fullShare} W main_v0)
          ∗ (((c : Thread nD τ).loc main_v1) ↦{fullShare} W main_v1)) := by
  unfold Pipeline.arrBufs
  exact bigSep_eq_bigSepL_of_eq [main_arg1, main_arg0, main_arg3, main_v0, main_v1] (by decide) (by decide) _

/-- Region 0's windowed arrays at contents G, one by one: the feature matrix twice, at the two halves. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_arg0) ↦{fullShare.left} G 1)
          ∗ (((c : Thread nD τ).loc main_arg0) ↦{fullShare.right} G 2) ∗ (((c : Thread nD τ).loc main_arg3) ↦{fullShare} G 3)
          ∗ (((c : Thread nD τ).loc main_v0) ↦{fullShare} G 4) ∗ (((c : Thread nD τ).loc main_v1) ↦{fullShare} G 5)) := by
  unfold Dat.arrays
  rw [bigSep_congr (fun w _ => by rw [(arr_whole0 w).set_eq_univ] : ∀ w ∈ (Finset.univ : Finset (Fin cfg0.W)),
    (((cfg0.win w).arr.view.loc (c : Thread nD τ)) ↦[(cfg0.win w).arr.view.set]{(dat0 V c).share w} G w : sProp 𝕄)
      = (((cfg0.win w).arr.view.loc (c : Thread nD τ)) ↦{(dat0 V c).share w} G w : sProp 𝕄))]
  rw [bigSep_W0]
  rfl

/-- A core's unscoped buffers are the buffers behind region 0's windows and the rest. -/
theorem held0_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b)
          ∗ Pipeline.unscopedRest (Ix := Unit) (Name := ℕ) (U := UR sig nD τ) (Lvl := ℕ) spec0 c (fun b => W b)) := by
  rw [← Pipeline.unscopedBufs_held]
  exact Pipeline.unscopedBufs_split₀ cfgs 0 winFacts₀0.arr_unscoped c _

/-- Entry of region 0: the buffers behind the windows, each held whole at W, are the windows' arrays at W, the
    feature matrix split into its two halves. -/
theorem arrays0_enter (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  rw [arrBufs0_eq, arrays0_eq, hG 0, hG 1, hG 2, hG 3, hG 4, hG 5]
  iintro ⟨Ha, Hx, Hw, Hb, Ho⟩
  ihave Hs := (pointsTo_share (PosShare.mem_left_op_right fullShare)).1 $$ Hx
  icases Hs with ⟨Hl, Hr⟩
  isplitl [Ha]; · iexact Ha
  isplitl [Hl]; · iexact Hl
  isplitl [Hr]; · iexact Hr
  isplitl [Hw]; · iexact Hw
  isplitl [Hb]; · iexact Hb
  iexact Ho

/-- Exit of region 0: the windows' arrays, the two halves of the feature matrix at one contents, are the buffers
    behind the windows held whole. -/
theorem arrays0_leave (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    ((dat0 V c).arrays G : sProp 𝕄) ⊢ Pipeline.arrBufs (Ix := Unit) (Name := ℕ) (U := UR sig nD τ) (Lvl := ℕ) spec0 c W := by
  rw [arrBufs0_eq, arrays0_eq, hG 0, hG 1, hG 2, hG 3, hG 4, hG 5]
  iintro ⟨Ha, Hl, Hr, Hw, Hb, Ho⟩
  ihave Hx := (pointsTo_share (PosShare.mem_left_op_right fullShare)).2 $$ [Hl Hr]
  · isplitl [Hl]; · iexact Hl
    iexact Hr
  isplitl [Ha]; · iexact Ha
  isplitl [Hx]; · iexact Hx
  isplitl [Hw]; · iexact Hw
  isplitl [Hb]; · iexact Hb
  iexact Ho

/-- The distinct buffers behind region 1's six windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v1) ↦{fullShare} W main_v1)
          ∗ (((c : Thread nD τ).loc main_arg5) ↦{fullShare} W main_arg5) ∗ (((c : Thread nD τ).loc main_v2) ↦{fullShare} W main_v2)
          ∗ (((c : Thread nD τ).loc main_v3) ↦{fullShare} W main_v3)) := by
  unfold Pipeline.arrBufs
  exact bigSep_eq_bigSepL_of_eq [main_arg1, main_v1, main_arg5, main_v2, main_v3] (by decide) (by decide) _

/-- Region 1's windowed arrays at contents G, one by one: the feature matrix twice, at the two halves. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v1) ↦{fullShare.left} G 1)
          ∗ (((c : Thread nD τ).loc main_v1) ↦{fullShare.right} G 2) ∗ (((c : Thread nD τ).loc main_arg5) ↦{fullShare} G 3)
          ∗ (((c : Thread nD τ).loc main_v2) ↦{fullShare} G 4) ∗ (((c : Thread nD τ).loc main_v3) ↦{fullShare} G 5)) := by
  unfold Dat.arrays
  rw [bigSep_congr (fun w _ => by rw [(arr_whole1 w).set_eq_univ] : ∀ w ∈ (Finset.univ : Finset (Fin cfg1.W)),
    (((cfg1.win w).arr.view.loc (c : Thread nD τ)) ↦[(cfg1.win w).arr.view.set]{(dat1 V c).share w} G w : sProp 𝕄)
      = (((cfg1.win w).arr.view.loc (c : Thread nD τ)) ↦{(dat1 V c).share w} G w : sProp 𝕄))]
  rw [bigSep_W1]
  rfl

/-- A core's unscoped buffers are the buffers behind region 1's windows and the rest. -/
theorem held1_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) := by
  rw [← Pipeline.unscopedBufs_held]
  exact Pipeline.unscopedBufs_split₀ cfgs 1 winFacts₀1.arr_unscoped c _

/-- Entry of region 1: the buffers behind the windows, each held whole at W, are the windows' arrays at W, the
    feature matrix split into its two halves. -/
theorem arrays1_enter (c : Dev nD) (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  rw [arrBufs1_eq, arrays1_eq, hG 0, hG 1, hG 2, hG 3, hG 4, hG 5]
  iintro ⟨Ha, Hx, Hw, Hb, Ho⟩
  ihave Hs := (pointsTo_share (PosShare.mem_left_op_right fullShare)).1 $$ Hx
  icases Hs with ⟨Hl, Hr⟩
  isplitl [Ha]; · iexact Ha
  isplitl [Hl]; · iexact Hl
  isplitl [Hr]; · iexact Hr
  isplitl [Hw]; · iexact Hw
  isplitl [Hb]; · iexact Hb
  iexact Ho

/-- Exit of region 1: the windows' arrays, the two halves of the feature matrix at one contents, are the buffers
    behind the windows held whole. -/
theorem arrays1_leave (c : Dev nD) (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    ((dat1 V c).arrays G : sProp 𝕄) ⊢ Pipeline.arrBufs (Ix := Unit) (Name := ℕ) (U := UR sig nD τ) (Lvl := ℕ) spec1 c W := by
  rw [arrBufs1_eq, arrays1_eq, hG 0, hG 1, hG 2, hG 3, hG 4, hG 5]
  iintro ⟨Ha, Hl, Hr, Hw, Hb, Ho⟩
  ihave Hx := (pointsTo_share (PosShare.mem_left_op_right fullShare)).2 $$ [Hl Hr]
  · isplitl [Hl]; · iexact Hl
    iexact Hr
  isplitl [Ha]; · iexact Ha
  isplitl [Hx]; · iexact Hx
  isplitl [Hw]; · iexact Hw
  isplitl [Hb]; · iexact Hb
  iexact Ho

/-! ## The contents between the program's items, and the regions' records -/

variable (m : (ℓ : Loc nD τ sig) → Buf (Elt F) ℓ)

abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every item: the core's generator register at some state, and that it owes
    nothing. -/
abbrev Rest (c : Dev nD) : sProp 𝕄 := iprop((∃ r, prngReg c r) ∗ ∃ W, owes (c : Thread nD τ) (0 : CellTallies nD τ sig Unit) W)

/-- The buffers as region 0 finds them: the launch contents after the first bias is reshaped. -/
abbrev In0 : (c : Dev nD) → (b : Ref sig .tc) → Buf (Elt F) ((c : Thread nD τ).loc b) := fun c b => V1 m c b
/-- What region 0 leaves in its result array: its 32 tiles written back. -/
def res0 (c : Dev nD) : Buf (Elt F) ((c : Thread nD τ).loc main_v1) := (dat0 (In0 m) c).arrAt 5 cfg0.N
/-- The contents the regions leave, region 0's known. -/
def outs0 : Outs (F := F) := fun _ r c => Function.update (V1 m c) main_v1 (res0 m c) r
/-- The buffers as region 1 finds them. -/
abbrev In1 : (c : Dev nD) → (b : Ref sig .tc) → Buf (Elt F) ((c : Thread nD τ).loc b) := fun c b => V3 m (outs0 m) c b
/-- What region 1 leaves in its result array. -/
def res1 (c : Dev nD) : Buf (Elt F) ((c : Thread nD τ).loc main_v3) := (dat1 (In1 m) c).arrAt 5 cfg1.N
/-- The contents the regions leave, both known. -/
def outs : Outs (F := F) := fun J r c => match J with
  | 2 => outs0 m 2 r c
  | _ => Function.update (V3 m (outs0 m) c) main_v3 (res1 m c) r

theorem outs_2 (c : Dev nD) : outs m 2 main_v1 c = res0 m c := by
  show Function.update (V1 m c) main_v1 (res0 m c) main_v1 = _
  exact Function.update_self ..
theorem outs_4 (c : Dev nD) : outs m 4 main_v3 c = res1 m c := by
  show Function.update (V3 m (outs0 m) c) main_v3 (res1 m c) main_v3 = _
  exact Function.update_self ..
theorem V3_outs (c : Dev nD) : V3 m (outs m) c = V3 m (outs0 m) c := rfl

/-- Every pipeline's per-point record, each at its region's entry contents. -/
def pdats : (p : Fin 2) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c

/-- At region 0's exit each window's array holds what the program's next item finds: the inputs as they were, the
    result array the tiles written back. -/
theorem exit0 (c : Dev nD) (w : Fin cfg0.W) : (dat0 (In0 m) c).arrAt w cfg0.N = V2 m (outs m) c (Pipeline.arrRef spec0 w) :=
  match w with
  | ⟨0, _⟩ => ((dat0 (In0 m) c).arrAt_in 0 rfl _).trans ((dat0_A (In0 m) c 0).trans (V2_of m (outs m) c main_arg1 (by decide)).symm)
  | ⟨1, _⟩ => ((dat0 (In0 m) c).arrAt_in 1 rfl _).trans ((dat0_A (In0 m) c 1).trans (V2_of m (outs m) c main_arg0 (by decide)).symm)
  | ⟨2, _⟩ => ((dat0 (In0 m) c).arrAt_in 2 rfl _).trans ((dat0_A (In0 m) c 2).trans (V2_of m (outs m) c main_arg0 (by decide)).symm)
  | ⟨3, _⟩ => ((dat0 (In0 m) c).arrAt_in 3 rfl _).trans ((dat0_A (In0 m) c 3).trans (V2_of m (outs m) c main_arg3 (by decide)).symm)
  | ⟨4, _⟩ => ((dat0 (In0 m) c).arrAt_in 4 rfl _).trans ((dat0_A (In0 m) c 4).trans (V2_of m (outs m) c main_v0 (by decide)).symm)
  | ⟨5, _⟩ => by
    show res0 m c = Function.update (V1 m c) main_v1 (outs m 2 main_v1 c) main_v1
    rw [Function.update_self, outs_2]

/-- Off the windows' arrays region 0 changes nothing. -/
theorem rest0_eq (c : Dev nD) :
    (Pipeline.unscopedRest (Ix := Unit) (Name := ℕ) (U := UR sig nD τ) (Lvl := ℕ) spec0 c (fun b => V2 m (outs m) c b) : sProp 𝕄)
      = Pipeline.unscopedRest (Ix := Unit) (Name := ℕ) (U := UR sig nD τ) (Lvl := ℕ) spec0 c (In0 m c) := by
  unfold Pipeline.unscopedRest
  exact bigSep_congr fun b hb => by
    beta_reduce
    rw [V2_of m (outs m) c b (List.mem_singleton.not.mpr fun e =>
      (Finset.mem_sdiff.mp hb).2 (Finset.mem_image.mpr ⟨5, Finset.mem_univ _, e.symm⟩))]

set_option backward.isDefEq.respectTransparency.types false in
/-- REGION 0 as an item of the program: entered with every unscoped buffer at the contents after the first reshape,
    left with the result array at its tiles and everything else as it was. -/
def reg0 : Pipeline.RegionSeg (pcfgs (F := F)) adm (pdats m) () defs₀ noVariants noLevels levelZero 0 where
  win := winFacts₀0
  block_pos := block_pos0
  stage_whole := stage_whole0
  K := PEmpty
  osem k := k.elim
  ho := Pipeline.OwnSemFacts.none _
  hbody c := (point0_obligation (In0 m) c).loose
  hwaits := Pipeline.hwaits_of_owed_zero _ _ _ _ noLevels levelZero 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none, held0_split]
    iintro ⟨⟨⟨Hb, Hrest⟩, Hp, HO⟩, -, -⟩
    ihave Ha := (arrays0_enter (In0 m) c (In0 m c) ((pdats m 0 c).arrAt · 0) (fun _ => rfl)) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held0_split, rest0_eq]
    refine (sep_mono (arrays0_leave (In0 m) c (fun b => V2 m (outs m) c b) _ (exit0 m c)) .rfl).trans ?_
    iintro ⟨Hb, HO, HY, Hrest⟩
    imodintro
    isplitl [Hb Hrest]
    · isplitl [Hb]; · iexact Hb
      iexact Hrest
    isplitl [HY]; · iexact HY
    unfold Pipeline.Dat.owesAt Pipeline.owesWithin
    icases HO with ⟨%W, -, HO⟩; iexists W; iexact HO

/-- At region 1's exit each window's array holds what the program's next item finds: the inputs as they were, the
    result array the tiles written back. -/
theorem exit1 (c : Dev nD) (w : Fin cfg1.W) : (dat1 (In1 m) c).arrAt w cfg1.N = V4 m (outs m) c (Pipeline.arrRef spec1 w) :=
  match w with
  | ⟨0, _⟩ => ((dat1 (In1 m) c).arrAt_in 0 rfl _).trans ((dat1_A (In1 m) c 0).trans (V4_of m (outs m) c main_arg1 (by decide)).symm)
  | ⟨1, _⟩ => ((dat1 (In1 m) c).arrAt_in 1 rfl _).trans ((dat1_A (In1 m) c 1).trans (V4_of m (outs m) c main_v1 (by decide)).symm)
  | ⟨2, _⟩ => ((dat1 (In1 m) c).arrAt_in 2 rfl _).trans ((dat1_A (In1 m) c 2).trans (V4_of m (outs m) c main_v1 (by decide)).symm)
  | ⟨3, _⟩ => ((dat1 (In1 m) c).arrAt_in 3 rfl _).trans ((dat1_A (In1 m) c 3).trans (V4_of m (outs m) c main_arg5 (by decide)).symm)
  | ⟨4, _⟩ => ((dat1 (In1 m) c).arrAt_in 4 rfl _).trans ((dat1_A (In1 m) c 4).trans (V4_of m (outs m) c main_v2 (by decide)).symm)
  | ⟨5, _⟩ => by
    show res1 m c = Function.update (V3 m (outs m) c) main_v3 (outs m 4 main_v3 c) main_v3
    rw [Function.update_self, outs_4]

/-- Off the windows' arrays region 1 changes nothing. -/
theorem rest1_eq (c : Dev nD) :
    (Pipeline.unscopedRest (Ix := Unit) (Name := ℕ) (U := UR sig nD τ) (Lvl := ℕ) spec1 c (fun b => V4 m (outs m) c b) : sProp 𝕄)
      = Pipeline.unscopedRest (Ix := Unit) (Name := ℕ) (U := UR sig nD τ) (Lvl := ℕ) spec1 c (fun b => V3 m (outs m) c b) := by
  unfold Pipeline.unscopedRest
  exact bigSep_congr fun b hb => by
    beta_reduce
    rw [V4_of m (outs m) c b (List.mem_singleton.not.mpr fun e =>
      (Finset.mem_sdiff.mp hb).2 (Finset.mem_image.mpr ⟨5, Finset.mem_univ _, e.symm⟩))]

set_option backward.isDefEq.respectTransparency.types false in
/-- REGION 1 as an item of the program: entered with every unscoped buffer at the contents after the second reshape,
    left with the result array at its tiles and everything else as it was. -/
def reg1 : Pipeline.RegionSeg (pcfgs (F := F)) adm (pdats m) () defs₀ noVariants noLevels levelZero 1 where
  win := winFacts₀1
  block_pos := block_pos1
  stage_whole := stage_whole1
  K := PEmpty
  osem k := k.elim
  ho := Pipeline.OwnSemFacts.none _
  hbody c := (point1_obligation (In1 m) c).loose
  hwaits := Pipeline.hwaits_of_owed_zero _ _ _ _ noLevels levelZero 1 fun _ _ => rfl
  pre c := iprop(StableHlo.held (c : Thread nD τ) (Pipeline.ucRefs τ sig) (V3 m (outs m) c) ∗ Rest c)
  post c := iprop(StableHlo.held (c : Thread nD τ) (Pipeline.ucRefs τ sig) (V4 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none, held1_split]
    iintro ⟨⟨⟨Hb, Hrest⟩, Hp, HO⟩, -, -⟩
    ihave Ha := (arrays1_enter (In1 m) c (fun b => V3 m (outs m) c b) ((pdats m 1 c).arrAt · 0) (fun _ => rfl)) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [held1_split, rest1_eq]
    refine (sep_mono (arrays1_leave (In1 m) c (fun b => V4 m (outs m) c b) _ (exit1 m c)) .rfl).trans ?_
    iintro ⟨Hb, HO, HY, Hrest⟩
    imodintro
    isplitl [Hb Hrest]
    · isplitl [Hb]; · iexact Hb
      iexact Hrest
    isplitl [HY]; · iexact HY
    unfold Pipeline.Dat.owesAt Pipeline.owesWithin
    icases HO with ⟨%W, -, HO⟩; iexists W; iexact HO

/-! ## The run -/

/-- The program's items in order: the host stretches between the contents named above, the two regions' records. -/
abbrev items : Dev nD → List (Pipeline.Seg (pcfgs (F := F)) adm (pdats m) () defs₀ noVariants noLevels levelZero) :=
  segs m (outs m) noVariants noLevels levelZero (fun _ => Rest) () (pdats m) (reg0 m) (reg1 m)

/-- The items' programs, in order: the program's own chain of host stretches and region calls. -/
theorem items_progs (c : Dev nD) : (items m c).map Pipeline.Seg.prog = [
      StableHlo.seq hostOps0, Prog.lift (.customCall (Pipeline.entry 0) ()),
      StableHlo.seq hostOps1, Prog.lift (.customCall (Pipeline.entry 1) ()),
      StableHlo.seq hostOps2, StableHlo.seq hostOps2_1, StableHlo.seq hostOps2_2, StableHlo.seq hostOps2_3, StableHlo.seq hostOps2_4,
      StableHlo.seq hostOps2_5, StableHlo.seq hostOps2_6, StableHlo.seq hostOps2_7, StableHlo.seq hostOps2_8, StableHlo.seq hostOps2_9,
      StableHlo.seq hostOps2_10, StableHlo.seq hostOps2_11, StableHlo.seq hostOps2_12, StableHlo.seq hostOps2_13 ] := rfl

set_option backward.isDefEq.respectTransparency.types false in
/-- THE RUN.  From any memory with zero counters every weakly fair execution of the program terminates, nothing
    faulting, and every unscoped buffer of every core ends at the contents the items leave one after the other: the
    arguments never written, the two regions' results at their tiles, the tail's values computed from them. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = V18 m (outs m) c b) :=
  Pipeline.θ_run_regions_kit_dev (pcfgs (F := F)) adm (pdats m) () cellOf_inj emb₁ defs₀ noVariants noLevels levelZero m ρ main
    (items m)
    (fun c Q => by rewrite [main_chain c, Pipeline.Seg.run_eq_chain, items_progs m c]; exact .rfl)
    (fun c => by simp only [items, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V18 m (outs m) c))
    (hch := fun c => ⟨.rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach noLevels levelZero fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V18 m (outs m) c b)
    (hfin := fun c s' => by
      iintro ⟨Hh, HSI⟩
      unfold StableHlo.held
      imodintro
      iapply (pointsTo_read_all (Pipeline.ucRefs τ sig) (fun b => (((c : Thread nD τ)).1, b)) (V18 m (outs m) c) s')
      isplitl [Hh] <;> iassumption)
    (hQ := fun s h c => h c)

/-- An unscoped reference of the TensorCore is among those the run speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Layers

end
-- ==== Proof.BitsLayers.lean ====
import proofs.«182046_j72232759984565_1_alg».proof.Proof.Gen.Kernel.Launch
import proofs.«182046_j72232759984565_1_alg».proof.Proof.Gen.Kernel.Skeleton
import proofs.«182046_j72232759984565_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two graph-convolution regions, one at a time

Each region runs one layer, relu ((adj x + x) W + b), over a grid of 32 row tiles of 256 rows.  A tile reads
its 256 rows of the adjacency matrix, ALL of the feature matrix x (window 1), its own 256 rows of x again
(window 2: the self loop), the weights and the bias row, and writes its 256 rows of the result (window 5).
Windows 1 and 2 stand on one and the same array.

This file says, for arbitrary contents V of the core's buffers at a region's entry: which block of its array each
window holds at a grid point, what the body leaves in the output tile (one store of the body's one value), that
the body run on those blocks does leave it, and the per-point record of that for the pipeline.  Nothing here
depends on the float instance.
-/

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or the block
    index has not moved since the last fetch (windows 0 to 4 in turn). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer: the rectangles the body loads and stores through. -/
abbrev rA : Rect S256x8192 := Rect.unit (s := S256x8192) ![0, 0] S256x8192.size inb_S256x8192_S256x8192_0_0
abbrev rX : Rect S8192x64 := Rect.unit (s := S8192x64) ![0, 0] S8192x64.size inb_S8192x64_S8192x64_0_0
abbrev rT : Rect S256x64 := Rect.unit (s := S256x64) ![0, 0] S256x64.size inb_S256x64_S256x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- What the body leaves in the output tile's buffer: its one store, of the layer's value on the five blocks. -/
def tile0 (a : Vec F S256x8192 .f32) (x : Vec F S8192x64 .f32) (xs : Vec F S256x64 .f32) (w : Vec F S64x64 .f32) (b : Vec F S1x64 .f32) :
    Vec F S256x64 .f32 :=
  View.canon [⟨rT, k0_pay1 (View.ld a rA) (View.ld x rX) (View.ld xs rT) (View.ld w rW) (View.ld b rB)⟩]

/-- The one store covers the tile. -/
theorem tile_cover (p0 : Vec F S256x64 .f32) (y : S256x64.Idx) :
    ∃ pc ∈ ([⟨rT, p0⟩] : List (View.Piece (Elt F) S256x64 .f32)), y ∈ pc.1.set :=
  View.cover_of_tiled [⟨rT, p0⟩] S256x64.size (by rfl) y

set_option maxHeartbeats 2000000 in
/-- The body on whole staging memrefs: the five inputs at contents it only reads, the output's at anything; it
    ends with the inputs as they were and the output at tile0 of them. -/
theorem body0_run (c : Dev nD) (E : Set ℕ) (i : grid0.Coords)
    (arg1 : Memref sig .tc .vmem S256x8192 .f32) (harg1 : arg1.IsWhole) (arg2 : Memref sig .tc .vmem S8192x64 .f32) (harg2 : arg2.IsWhole)
    (arg3 : Memref sig .tc .vmem S256x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S256x64 .f32) (harg6 : arg6.IsWhole)
    (a : Vec F S256x8192 .f32) (x : Vec F S8192x64 .f32) (xs : Vec F S256x64 .f32) (w : Vec F S64x64 .f32) (b : Vec F S1x64 .f32)
    (K : PUnit → sProp 𝕄) :
    iprop(owns (c : Thread nD τ) arg1 fullShare a ∗ owns (c : Thread nD τ) arg2 fullShare x ∗ owns (c : Thread nD τ) arg3 fullShare xs
        ∗ owns (c : Thread nD τ) arg4 fullShare w ∗ owns (c : Thread nD τ) arg5 fullShare b ∗ (∃ d, owns (c : Thread nD τ) arg6 fullShare d)
        ∗ (iprop(owns (c : Thread nD τ) arg1 fullShare a ∗ owns (c : Thread nD τ) arg2 fullShare x ∗ owns (c : Thread nD τ) arg3 fullShare xs
            ∗ owns (c : Thread nD τ) arg4 fullShare w ∗ owns (c : Thread nD τ) arg5 fullShare b
            ∗ owns (c : Thread nD τ) arg6 fullShare (tile0 a x xs w b)) -∗ K ⟨⟩))
      ⊢ wp frame (wpE (defs₀ (F := F)) Variants.none c none) E (cc0__gin_layer_kernel i arg1 harg1 arg2 harg2 arg3 harg3 arg4 harg4 arg5 harg5 arg6 harg6) K := by
  simp only [cc0__gin_layer_kernel_eq_skeleton]; unfold cc0__gin_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tile_cover _)

/-- The per-point record of region 0 on core c: the arrays as the region finds them; after the body each input's
    buffer still at its block and the output's at tile0 of the blocks; the invariant is the untouched rest of the
    core's scoped memory and its generator register; nothing is owed.  The feature matrix is read through two
    windows, so each of the two holds half of it; every other input is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => tile0 (iblk0 V c 0 t) (iblk0 V c 1 t) (iblk0 V c 2 t) (iblk0 V c 3 t) (iblk0 V c 4 t)
  Φ _ := Pipeline.ΦA spec0 c
  q w := match w with
    | ⟨1, _⟩ => fullShare.left
    | ⟨2, _⟩ => fullShare.right
    | _ => fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = iblk0 V c 0 t := by dsimp only [dat0]
theorem dat0_after_1 (c : Dev nD) (t : Fin cfg0.N) : (dat0 V c).after 1 t = iblk0 V c 1 t := by dsimp only [dat0]
theorem dat0_after_2 (c : Dev nD) (t : Fin cfg0.N) : (dat0 V c).after 2 t = iblk0 V c 2 t := by dsimp only [dat0]
theorem dat0_after_3 (c : Dev nD) (t : Fin cfg0.N) : (dat0 V c).after 3 t = iblk0 V c 3 t := by dsimp only [dat0]
theorem dat0_after_4 (c : Dev nD) (t : Fin cfg0.N) : (dat0 V c).after 4 t = iblk0 V c 4 t := by dsimp only [dat0]
theorem dat0_after_5 (c : Dev nD) (t : Fin cfg0.N) :
    (dat0 V c).after 5 t = tile0 (iblk0 V c 0 t) (iblk0 V c 1 t) (iblk0 V c 2 t) (iblk0 V c 3 t) (iblk0 V c 4 t) := by dsimp only [dat0]

theorem dat0_before_0 (c : Dev nD) (t : Fin cfg0.N) (d) : (dat0 V c).before 0 t d = iblk0 V c 0 t :=
  before0_0_of V (dat0 V c) (dat0_A V c 0) (dat0_after_0 V c) t d
theorem dat0_before_1 (c : Dev nD) (t : Fin cfg0.N) (d) : (dat0 V c).before 1 t d = iblk0 V c 1 t :=
  before0_1_of V (dat0 V c) (dat0_A V c 1) (dat0_after_1 V c) t d
theorem dat0_before_2 (c : Dev nD) (t : Fin cfg0.N) (d) : (dat0 V c).before 2 t d = iblk0 V c 2 t :=
  before0_2_of V (dat0 V c) (dat0_A V c 2) (dat0_after_2 V c) t d
theorem dat0_before_3 (c : Dev nD) (t : Fin cfg0.N) (d) : (dat0 V c).before 3 t d = iblk0 V c 3 t :=
  before0_3_of V (dat0 V c) (dat0_A V c 3) (dat0_after_3 V c) t d
theorem dat0_before_4 (c : Dev nD) (t : Fin cfg0.N) (d) : (dat0 V c).before 4 t d = iblk0 V c 4 t :=
  before0_4_of V (dat0 V c) (dat0_A V c 4) (dat0_after_4 V c) t d

/-- What the body is called with at point t, the windows one by one, -/
def pointPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def pointPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so body0_run applies; the invariant and what the
    core owes pass through unread. -/
theorem point0_run (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [dat0_before_0, dat0_before_1, dat0_before_2, dat0_before_3, dat0_before_4]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4, dat0_after_5]
  iintro ⟨HΦ, Ho, ⟨%d0, H0⟩, ⟨%d1, H1⟩, ⟨%d2, H2⟩, ⟨%d3, H3⟩, ⟨%d4, H4⟩, ⟨%d5, H5⟩⟩
  iapply (body0_run c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation for the body, at every point. -/
theorem point0_obligation (c : Dev nD) : BodyObligation (dat0 (F := F) V c) (defs₀ (F := F)) Variants.none () Set.univ := fun t => by
  rw [bigSep_W0, bigSep_W0]
  exact point0_run V c t

/-! ## Region 1 -/

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or the block
    index has not moved since the last fetch (windows 0 to 4 in turn). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output tile's buffer: its one store, of the layer's value on the five blocks. -/
def tile1 (a : Vec F S256x8192 .f32) (x : Vec F S8192x64 .f32) (xs : Vec F S256x64 .f32) (w : Vec F S64x64 .f32) (b : Vec F S1x64 .f32) :
    Vec F S256x64 .f32 :=
  View.canon [⟨rT, k1_pay1 (View.ld a rA) (View.ld x rX) (View.ld xs rT) (View.ld w rW) (View.ld b rB)⟩]

set_option maxHeartbeats 2000000 in
/-- The body on whole staging memrefs: the five inputs at contents it only reads, the output's at anything; it
    ends with the inputs as they were and the output at tile1 of them. -/
theorem body1_run (c : Dev nD) (E : Set ℕ) (i : grid1.Coords)
    (arg1 : Memref sig .tc .vmem S256x8192 .f32) (harg1 : arg1.IsWhole) (arg2 : Memref sig .tc .vmem S8192x64 .f32) (harg2 : arg2.IsWhole)
    (arg3 : Memref sig .tc .vmem S256x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S256x64 .f32) (harg6 : arg6.IsWhole)
    (a : Vec F S256x8192 .f32) (x : Vec F S8192x64 .f32) (xs : Vec F S256x64 .f32) (w : Vec F S64x64 .f32) (b : Vec F S1x64 .f32)
    (K : PUnit → sProp 𝕄) :
    iprop(owns (c : Thread nD τ) arg1 fullShare a ∗ owns (c : Thread nD τ) arg2 fullShare x ∗ owns (c : Thread nD τ) arg3 fullShare xs
        ∗ owns (c : Thread nD τ) arg4 fullShare w ∗ owns (c : Thread nD τ) arg5 fullShare b ∗ (∃ d, owns (c : Thread nD τ) arg6 fullShare d)
        ∗ (iprop(owns (c : Thread nD τ) arg1 fullShare a ∗ owns (c : Thread nD τ) arg2 fullShare x ∗ owns (c : Thread nD τ) arg3 fullShare xs
            ∗ owns (c : Thread nD τ) arg4 fullShare w ∗ owns (c : Thread nD τ) arg5 fullShare b
            ∗ owns (c : Thread nD τ) arg6 fullShare (tile1 a x xs w b)) -∗ K ⟨⟩))
      ⊢ wp frame (wpE (defs₀ (F := F)) Variants.none c none) E (cc1__gin_layer_kernel i arg1 harg1 arg2 harg2 arg3 harg3 arg4 harg4 arg5 harg5 arg6 harg6) K := by
  simp only [cc1__gin_layer_kernel_eq_skeleton]; unfold cc1__gin_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tile_cover _)

/-- The per-point record of region 1 on core c: the arrays as the region finds them; after the body each input's
    buffer still at its block and the output's at tile1 of the blocks; the invariant is the untouched rest of the
    core's scoped memory and its generator register; nothing is owed.  The feature matrix is read through two
    windows, so each of the two holds half of it; every other input is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => tile1 (iblk1 V c 0 t) (iblk1 V c 1 t) (iblk1 V c 2 t) (iblk1 V c 3 t) (iblk1 V c 4 t)
  Φ _ := Pipeline.ΦA spec1 c
  q w := match w with
    | ⟨1, _⟩ => fullShare.left
    | ⟨2, _⟩ => fullShare.right
    | _ => fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = iblk1 V c 0 t := by dsimp only [dat1]
theorem dat1_after_1 (c : Dev nD) (t : Fin cfg1.N) : (dat1 V c).after 1 t = iblk1 V c 1 t := by dsimp only [dat1]
theorem dat1_after_2 (c : Dev nD) (t : Fin cfg1.N) : (dat1 V c).after 2 t = iblk1 V c 2 t := by dsimp only [dat1]
theorem dat1_after_3 (c : Dev nD) (t : Fin cfg1.N) : (dat1 V c).after 3 t = iblk1 V c 3 t := by dsimp only [dat1]
theorem dat1_after_4 (c : Dev nD) (t : Fin cfg1.N) : (dat1 V c).after 4 t = iblk1 V c 4 t := by dsimp only [dat1]
theorem dat1_after_5 (c : Dev nD) (t : Fin cfg1.N) :
    (dat1 V c).after 5 t = tile1 (iblk1 V c 0 t) (iblk1 V c 1 t) (iblk1 V c 2 t) (iblk1 V c 3 t) (iblk1 V c 4 t) := by dsimp only [dat1]

theorem dat1_before_0 (c : Dev nD) (t : Fin cfg1.N) (d) : (dat1 V c).before 0 t d = iblk1 V c 0 t :=
  before1_0_of V (dat1 V c) (dat1_A V c 0) (dat1_after_0 V c) t d
theorem dat1_before_1 (c : Dev nD) (t : Fin cfg1.N) (d) : (dat1 V c).before 1 t d = iblk1 V c 1 t :=
  before1_1_of V (dat1 V c) (dat1_A V c 1) (dat1_after_1 V c) t d
theorem dat1_before_2 (c : Dev nD) (t : Fin cfg1.N) (d) : (dat1 V c).before 2 t d = iblk1 V c 2 t :=
  before1_2_of V (dat1 V c) (dat1_A V c 2) (dat1_after_2 V c) t d
theorem dat1_before_3 (c : Dev nD) (t : Fin cfg1.N) (d) : (dat1 V c).before 3 t d = iblk1 V c 3 t :=
  before1_3_of V (dat1 V c) (dat1_A V c 3) (dat1_after_3 V c) t d
theorem dat1_before_4 (c : Dev nD) (t : Fin cfg1.N) (d) : (dat1 V c).before 4 t d = iblk1 V c 4 t :=
  before1_4_of V (dat1 V c) (dat1_A V c 4) (dat1_after_4 V c) t d

/-- What the body is called with at point t, the windows one by one, -/
def pointPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def pointPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so body1_run applies; the invariant and what the
    core owes pass through unread. -/
theorem point1_run (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [dat1_before_0, dat1_before_1, dat1_before_2, dat1_before_3, dat1_before_4]
  rw [show (dat1 V c).Φ t.succ = (dat1 V c).Φ t.castSucc from rfl,
    show (dat1 V c).owesAt () t.succ = (dat1 V c).owesAt () t.castSucc from rfl,
    dat1_after_0, dat1_after_1, dat1_after_2, dat1_after_3, dat1_after_4, dat1_after_5]
  iintro ⟨HΦ, Ho, ⟨%d0, H0⟩, ⟨%d1, H1⟩, ⟨%d2, H2⟩, ⟨%d3, H3⟩, ⟨%d4, H4⟩, ⟨%d5, H5⟩⟩
  iapply (body1_run c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation for the body, at every point. -/
theorem point1_obligation (c : Dev nD) : BodyObligation (dat1 (F := F) V c) (defs₀ (F := F)) Variants.none () Set.univ := fun t => by
  rw [bigSep_W1, bigSep_W1]
  exact point1_run V c t

end Cert.Kernel.Layers

end
-- ==== Proof.BitsRun.lean ====
import proofs.«182046_j72232759984565_1_alg».proof.Proof.BitsLayers
import proofs.«182046_j72232759984565_1_alg».proof.Proof.Gen.Kernel.Regions

/-!
# The whole program: two regions among host operations

The program is: reshape the first bias, region 0, reshape the second bias, region 1, then the pooling tail on the
host.  This file builds the two regions' records for the several-region launch.  The one point that is not routine:
each region hands the feature matrix to two windows, so at a region's entry the matrix's buffer, held whole, is
split into two halves, one per window, and at the exit the two halves, still at the contents they were read at,
are joined again.
-/

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 0's six windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_arg3) ↦{fullShare} W main_arg3) ∗ (((c : Thread nD τ).loc main_v0) ↦{fullShare} W main_v0)
          ∗ (((c : Thread nD τ).loc main_v1) ↦{fullShare} W main_v1)) := by
  unfold Pipeline.arrBufs
  exact bigSep_eq_bigSepL_of_eq [main_arg1, main_arg0, main_arg3, main_v0, main_v1] (by decide) (by decide) _

/-- Region 0's windowed arrays at contents G, one by one: the feature matrix twice, at the two halves. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_arg0) ↦{fullShare.left} G 1)
          ∗ (((c : Thread nD τ).loc main_arg0) ↦{fullShare.right} G 2) ∗ (((c : Thread nD τ).loc main_arg3) ↦{fullShare} G 3)
          ∗ (((c : Thread nD τ).loc main_v0) ↦{fullShare} G 4) ∗ (((c : Thread nD τ).loc main_v1) ↦{fullShare} G 5)) := by
  unfold Dat.arrays
  rw [bigSep_congr (fun w _ => by rw [(arr_whole0 w).set_eq_univ] : ∀ w ∈ (Finset.univ : Finset (Fin cfg0.W)),
    (((cfg0.win w).arr.view.loc (c : Thread nD τ)) ↦[(cfg0.win w).arr.view.set]{(dat0 V c).share w} G w : sProp 𝕄)
      = (((cfg0.win w).arr.view.loc (c : Thread nD τ)) ↦{(dat0 V c).share w} G w : sProp 𝕄))]
  rw [bigSep_W0]
  rfl

/-- A core's unscoped buffers are the buffers behind region 0's windows and the rest. -/
theorem held0_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b)
          ∗ Pipeline.unscopedRest (Ix := Unit) (Name := ℕ) (U := UR sig nD τ) (Lvl := ℕ) spec0 c (fun b => W b)) := by
  rw [← Pipeline.unscopedBufs_held]
  exact Pipeline.unscopedBufs_split₀ cfgs 0 winFacts₀0.arr_unscoped c _

/-- Entry of region 0: the buffers behind the windows, each held whole at W, are the windows' arrays at W, the
    feature matrix split into its two halves. -/
theorem arrays0_enter (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  rw [arrBufs0_eq, arrays0_eq, hG 0, hG 1, hG 2, hG 3, hG 4, hG 5]
  iintro ⟨Ha, Hx, Hw, Hb, Ho⟩
  ihave Hs := (pointsTo_share (PosShare.mem_left_op_right fullShare)).1 $$ Hx
  icases Hs with ⟨Hl, Hr⟩
  isplitl [Ha]; · iexact Ha
  isplitl [Hl]; · iexact Hl
  isplitl [Hr]; · iexact Hr
  isplitl [Hw]; · iexact Hw
  isplitl [Hb]; · iexact Hb
  iexact Ho

/-- Exit of region 0: the windows' arrays, the two halves of the feature matrix at one contents, are the buffers
    behind the windows held whole. -/
theorem arrays0_leave (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    ((dat0 V c).arrays G : sProp 𝕄) ⊢ Pipeline.arrBufs (Ix := Unit) (Name := ℕ) (U := UR sig nD τ) (Lvl := ℕ) spec0 c W := by
  rw [arrBufs0_eq, arrays0_eq, hG 0, hG 1, hG 2, hG 3, hG 4, hG 5]
  iintro ⟨Ha, Hl, Hr, Hw, Hb, Ho⟩
  ihave Hx := (pointsTo_share (PosShare.mem_left_op_right fullShare)).2 $$ [Hl Hr]
  · isplitl [Hl]; · iexact Hl
    iexact Hr
  isplitl [Ha]; · iexact Ha
  isplitl [Hx]; · iexact Hx
  isplitl [Hw]; · iexact Hw
  isplitl [Hb]; · iexact Hb
  iexact Ho

/-- The distinct buffers behind region 1's six windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v1) ↦{fullShare} W main_v1)
          ∗ (((c : Thread nD τ).loc main_arg5) ↦{fullShare} W main_arg5) ∗ (((c : Thread nD τ).loc main_v2) ↦{fullShare} W main_v2)
          ∗ (((c : Thread nD τ).loc main_v3) ↦{fullShare} W main_v3)) := by
  unfold Pipeline.arrBufs
  exact bigSep_eq_bigSepL_of_eq [main_arg1, main_v1, main_arg5, main_v2, main_v3] (by decide) (by decide) _

/-- Region 1's windowed arrays at contents G, one by one: the feature matrix twice, at the two halves. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v1) ↦{fullShare.left} G 1)
          ∗ (((c : Thread nD τ).loc main_v1) ↦{fullShare.right} G 2) ∗ (((c : Thread nD τ).loc main_arg5) ↦{fullShare} G 3)
          ∗ (((c : Thread nD τ).loc main_v2) ↦{fullShare} G 4) ∗ (((c : Thread nD τ).loc main_v3) ↦{fullShare} G 5)) := by
  unfold Dat.arrays
  rw [bigSep_congr (fun w _ => by rw [(arr_whole1 w).set_eq_univ] : ∀ w ∈ (Finset.univ : Finset (Fin cfg1.W)),
    (((cfg1.win w).arr.view.loc (c : Thread nD τ)) ↦[(cfg1.win w).arr.view.set]{(dat1 V c).share w} G w : sProp 𝕄)
      = (((cfg1.win w).arr.view.loc (c : Thread nD τ)) ↦{(dat1 V c).share w} G w : sProp 𝕄))]
  rw [bigSep_W1]
  rfl

/-- A core's unscoped buffers are the buffers behind region 1's windows and the rest. -/
theorem held1_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) := by
  rw [← Pipeline.unscopedBufs_held]
  exact Pipeline.unscopedBufs_split₀ cfgs 1 winFacts₀1.arr_unscoped c _

/-- Entry of region 1: the buffers behind the windows, each held whole at W, are the windows' arrays at W, the
    feature matrix split into its two halves. -/
theorem arrays1_enter (c : Dev nD) (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  rw [arrBufs1_eq, arrays1_eq, hG 0, hG 1, hG 2, hG 3, hG 4, hG 5]
  iintro ⟨Ha, Hx, Hw, Hb, Ho⟩
  ihave Hs := (pointsTo_share (PosShare.mem_left_op_right fullShare)).1 $$ Hx
  icases Hs with ⟨Hl, Hr⟩
  isplitl [Ha]; · iexact Ha
  isplitl [Hl]; · iexact Hl
  isplitl [Hr]; · iexact Hr
  isplitl [Hw]; · iexact Hw
  isplitl [Hb]; · iexact Hb
  iexact Ho

/-- Exit of region 1: the windows' arrays, the two halves of the feature matrix at one contents, are the buffers
    behind the windows held whole. -/
theorem arrays1_leave (c : Dev nD) (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    ((dat1 V c).arrays G : sProp 𝕄) ⊢ Pipeline.arrBufs (Ix := Unit) (Name := ℕ) (U := UR sig nD τ) (Lvl := ℕ) spec1 c W := by
  rw [arrBufs1_eq, arrays1_eq, hG 0, hG 1, hG 2, hG 3, hG 4, hG 5]
  iintro ⟨Ha, Hl, Hr, Hw, Hb, Ho⟩
  ihave Hx := (pointsTo_share (PosShare.mem_left_op_right fullShare)).2 $$ [Hl Hr]
  · isplitl [Hl]; · iexact Hl
    iexact Hr
  isplitl [Ha]; · iexact Ha
  isplitl [Hx]; · iexact Hx
  isplitl [Hw]; · iexact Hw
  isplitl [Hb]; · iexact Hb
  iexact Ho

/-! ## The contents between the program's items, and the regions' records -/

variable (m : (ℓ : Loc nD τ sig) → Buf (Elt F) ℓ)

abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every item: the core's generator register at some state, and that it owes
    nothing. -/
abbrev Rest (c : Dev nD) : sProp 𝕄 := iprop((∃ r, prngReg c r) ∗ ∃ W, owes (c : Thread nD τ) (0 : CellTallies nD τ sig Unit) W)

/-- The buffers as region 0 finds them: the launch contents after the first bias is reshaped. -/
abbrev In0 : (c : Dev nD) → (b : Ref sig .tc) → Buf (Elt F) ((c : Thread nD τ).loc b) := fun c b => V1 m c b
/-- What region 0 leaves in its result array: its 32 tiles written back. -/
def res0 (c : Dev nD) : Buf (Elt F) ((c : Thread nD τ).loc main_v1) := (dat0 (In0 m) c).arrAt 5 cfg0.N
/-- The contents the regions leave, region 0's known. -/
def outs0 : Outs (F := F) := fun _ r c => Function.update (V1 m c) main_v1 (res0 m c) r
/-- The buffers as region 1 finds them. -/
abbrev In1 : (c : Dev nD) → (b : Ref sig .tc) → Buf (Elt F) ((c : Thread nD τ).loc b) := fun c b => V3 m (outs0 m) c b
/-- What region 1 leaves in its result array. -/
def res1 (c : Dev nD) : Buf (Elt F) ((c : Thread nD τ).loc main_v3) := (dat1 (In1 m) c).arrAt 5 cfg1.N
/-- The contents the regions leave, both known. -/
def outs : Outs (F := F) := fun J r c => match J with
  | 2 => outs0 m 2 r c
  | _ => Function.update (V3 m (outs0 m) c) main_v3 (res1 m c) r

theorem outs_2 (c : Dev nD) : outs m 2 main_v1 c = res0 m c := by
  show Function.update (V1 m c) main_v1 (res0 m c) main_v1 = _
  exact Function.update_self ..
theorem outs_4 (c : Dev nD) : outs m 4 main_v3 c = res1 m c := by
  show Function.update (V3 m (outs0 m) c) main_v3 (res1 m c) main_v3 = _
  exact Function.update_self ..
theorem V3_outs (c : Dev nD) : V3 m (outs m) c = V3 m (outs0 m) c := rfl

/-- Every pipeline's per-point record, each at its region's entry contents. -/
def pdats : (p : Fin 2) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c

/-- At region 0's exit each window's array holds what the program's next item finds: the inputs as they were, the
    result array the tiles written back. -/
theorem exit0 (c : Dev nD) (w : Fin cfg0.W) : (dat0 (In0 m) c).arrAt w cfg0.N = V2 m (outs m) c (Pipeline.arrRef spec0 w) :=
  match w with
  | ⟨0, _⟩ => ((dat0 (In0 m) c).arrAt_in 0 rfl _).trans ((dat0_A (In0 m) c 0).trans (V2_of m (outs m) c main_arg1 (by decide)).symm)
  | ⟨1, _⟩ => ((dat0 (In0 m) c).arrAt_in 1 rfl _).trans ((dat0_A (In0 m) c 1).trans (V2_of m (outs m) c main_arg0 (by decide)).symm)
  | ⟨2, _⟩ => ((dat0 (In0 m) c).arrAt_in 2 rfl _).trans ((dat0_A (In0 m) c 2).trans (V2_of m (outs m) c main_arg0 (by decide)).symm)
  | ⟨3, _⟩ => ((dat0 (In0 m) c).arrAt_in 3 rfl _).trans ((dat0_A (In0 m) c 3).trans (V2_of m (outs m) c main_arg3 (by decide)).symm)
  | ⟨4, _⟩ => ((dat0 (In0 m) c).arrAt_in 4 rfl _).trans ((dat0_A (In0 m) c 4).trans (V2_of m (outs m) c main_v0 (by decide)).symm)
  | ⟨5, _⟩ => by
    show res0 m c = Function.update (V1 m c) main_v1 (outs m 2 main_v1 c) main_v1
    rw [Function.update_self, outs_2]

/-- Off the windows' arrays region 0 changes nothing. -/
theorem rest0_eq (c : Dev nD) :
    (Pipeline.unscopedRest (Ix := Unit) (Name := ℕ) (U := UR sig nD τ) (Lvl := ℕ) spec0 c (fun b => V2 m (outs m) c b) : sProp 𝕄)
      = Pipeline.unscopedRest (Ix := Unit) (Name := ℕ) (U := UR sig nD τ) (Lvl := ℕ) spec0 c (In0 m c) := by
  unfold Pipeline.unscopedRest
  exact bigSep_congr fun b hb => by
    beta_reduce
    rw [V2_of m (outs m) c b (List.mem_singleton.not.mpr fun e =>
      (Finset.mem_sdiff.mp hb).2 (Finset.mem_image.mpr ⟨5, Finset.mem_univ _, e.symm⟩))]

set_option backward.isDefEq.respectTransparency.types false in
/-- REGION 0 as an item of the program: entered with every unscoped buffer at the contents after the first reshape,
    left with the result array at its tiles and everything else as it was. -/
def reg0 : Pipeline.RegionSeg (pcfgs (F := F)) adm (pdats m) () defs₀ noVariants noLevels levelZero 0 where
  win := winFacts₀0
  block_pos := block_pos0
  stage_whole := stage_whole0
  K := PEmpty
  osem k := k.elim
  ho := Pipeline.OwnSemFacts.none _
  hbody c := (point0_obligation (In0 m) c).loose
  hwaits := Pipeline.hwaits_of_owed_zero _ _ _ _ noLevels levelZero 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none, held0_split]
    iintro ⟨⟨⟨Hb, Hrest⟩, Hp, HO⟩, -, -⟩
    ihave Ha := (arrays0_enter (In0 m) c (In0 m c) ((pdats m 0 c).arrAt · 0) (fun _ => rfl)) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held0_split, rest0_eq]
    refine (sep_mono (arrays0_leave (In0 m) c (fun b => V2 m (outs m) c b) _ (exit0 m c)) .rfl).trans ?_
    iintro ⟨Hb, HO, HY, Hrest⟩
    imodintro
    isplitl [Hb Hrest]
    · isplitl [Hb]; · iexact Hb
      iexact Hrest
    isplitl [HY]; · iexact HY
    unfold Pipeline.Dat.owesAt Pipeline.owesWithin
    icases HO with ⟨%W, -, HO⟩; iexists W; iexact HO

/-- At region 1's exit each window's array holds what the program's next item finds: the inputs as they were, the
    result array the tiles written back. -/
theorem exit1 (c : Dev nD) (w : Fin cfg1.W) : (dat1 (In1 m) c).arrAt w cfg1.N = V4 m (outs m) c (Pipeline.arrRef spec1 w) :=
  match w with
  | ⟨0, _⟩ => ((dat1 (In1 m) c).arrAt_in 0 rfl _).trans ((dat1_A (In1 m) c 0).trans (V4_of m (outs m) c main_arg1 (by decide)).symm)
  | ⟨1, _⟩ => ((dat1 (In1 m) c).arrAt_in 1 rfl _).trans ((dat1_A (In1 m) c 1).trans (V4_of m (outs m) c main_v1 (by decide)).symm)
  | ⟨2, _⟩ => ((dat1 (In1 m) c).arrAt_in 2 rfl _).trans ((dat1_A (In1 m) c 2).trans (V4_of m (outs m) c main_v1 (by decide)).symm)
  | ⟨3, _⟩ => ((dat1 (In1 m) c).arrAt_in 3 rfl _).trans ((dat1_A (In1 m) c 3).trans (V4_of m (outs m) c main_arg5 (by decide)).symm)
  | ⟨4, _⟩ => ((dat1 (In1 m) c).arrAt_in 4 rfl _).trans ((dat1_A (In1 m) c 4).trans (V4_of m (outs m) c main_v2 (by decide)).symm)
  | ⟨5, _⟩ => by
    show res1 m c = Function.update (V3 m (outs m) c) main_v3 (outs m 4 main_v3 c) main_v3
    rw [Function.update_self, outs_4]

/-- Off the windows' arrays region 1 changes nothing. -/
theorem rest1_eq (c : Dev nD) :
    (Pipeline.unscopedRest (Ix := Unit) (Name := ℕ) (U := UR sig nD τ) (Lvl := ℕ) spec1 c (fun b => V4 m (outs m) c b) : sProp 𝕄)
      = Pipeline.unscopedRest (Ix := Unit) (Name := ℕ) (U := UR sig nD τ) (Lvl := ℕ) spec1 c (fun b => V3 m (outs m) c b) := by
  unfold Pipeline.unscopedRest
  exact bigSep_congr fun b hb => by
    beta_reduce
    rw [V4_of m (outs m) c b (List.mem_singleton.not.mpr fun e =>
      (Finset.mem_sdiff.mp hb).2 (Finset.mem_image.mpr ⟨5, Finset.mem_univ _, e.symm⟩))]

set_option backward.isDefEq.respectTransparency.types false in
/-- REGION 1 as an item of the program: entered with every unscoped buffer at the contents after the second reshape,
    left with the result array at its tiles and everything else as it was. -/
def reg1 : Pipeline.RegionSeg (pcfgs (F := F)) adm (pdats m) () defs₀ noVariants noLevels levelZero 1 where
  win := winFacts₀1
  block_pos := block_pos1
  stage_whole := stage_whole1
  K := PEmpty
  osem k := k.elim
  ho := Pipeline.OwnSemFacts.none _
  hbody c := (point1_obligation (In1 m) c).loose
  hwaits := Pipeline.hwaits_of_owed_zero _ _ _ _ noLevels levelZero 1 fun _ _ => rfl
  pre c := iprop(StableHlo.held (c : Thread nD τ) (Pipeline.ucRefs τ sig) (V3 m (outs m) c) ∗ Rest c)
  post c := iprop(StableHlo.held (c : Thread nD τ) (Pipeline.ucRefs τ sig) (V4 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none, held1_split]
    iintro ⟨⟨⟨Hb, Hrest⟩, Hp, HO⟩, -, -⟩
    ihave Ha := (arrays1_enter (In1 m) c (fun b => V3 m (outs m) c b) ((pdats m 1 c).arrAt · 0) (fun _ => rfl)) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [held1_split, rest1_eq]
    refine (sep_mono (arrays1_leave (In1 m) c (fun b => V4 m (outs m) c b) _ (exit1 m c)) .rfl).trans ?_
    iintro ⟨Hb, HO, HY, Hrest⟩
    imodintro
    isplitl [Hb Hrest]
    · isplitl [Hb]; · iexact Hb
      iexact Hrest
    isplitl [HY]; · iexact HY
    unfold Pipeline.Dat.owesAt Pipeline.owesWithin
    icases HO with ⟨%W, -, HO⟩; iexists W; iexact HO

/-! ## The run -/

/-- The program's items in order: the host stretches between the contents named above, the two regions' records. -/
abbrev items : Dev nD → List (Pipeline.Seg (pcfgs (F := F)) adm (pdats m) () defs₀ noVariants noLevels levelZero) :=
  segs m (outs m) noVariants noLevels levelZero (fun _ => Rest) () (pdats m) (reg0 m) (reg1 m)

/-- The items' programs, in order: the program's own chain of host stretches and region calls. -/
theorem items_progs (c : Dev nD) : (items m c).map Pipeline.Seg.prog = [
      StableHlo.seq hostOps0, Prog.lift (.customCall (Pipeline.entry 0) ()),
      StableHlo.seq hostOps1, Prog.lift (.customCall (Pipeline.entry 1) ()),
      StableHlo.seq hostOps2, StableHlo.seq hostOps2_1, StableHlo.seq hostOps2_2, StableHlo.seq hostOps2_3, StableHlo.seq hostOps2_4,
      StableHlo.seq hostOps2_5, StableHlo.seq hostOps2_6, StableHlo.seq hostOps2_7, StableHlo.seq hostOps2_8, StableHlo.seq hostOps2_9,
      StableHlo.seq hostOps2_10, StableHlo.seq hostOps2_11, StableHlo.seq hostOps2_12, StableHlo.seq hostOps2_13 ] := rfl

set_option backward.isDefEq.respectTransparency.types false in
/-- THE RUN.  From any memory with zero counters every weakly fair execution of the program terminates, nothing
    faulting, and every unscoped buffer of every core ends at the contents the items leave one after the other: the
    arguments never written, the two regions' results at their tiles, the tail's values computed from them. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = V18 m (outs m) c b) :=
  Pipeline.θ_run_regions_kit_dev (pcfgs (F := F)) adm (pdats m) () cellOf_inj emb₁ defs₀ noVariants noLevels levelZero m ρ main
    (items m)
    (fun c Q => by rewrite [main_chain c, Pipeline.Seg.run_eq_chain, items_progs m c]; exact .rfl)
    (fun c => by simp only [items, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V18 m (outs m) c))
    (hch := fun c => ⟨.rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach noLevels levelZero fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V18 m (outs m) c b)
    (hfin := fun c s' => by
      iintro ⟨Hh, HSI⟩
      unfold StableHlo.held
      imodintro
      iapply (pointsTo_read_all (Pipeline.ucRefs τ sig) (fun b => (((c : Thread nD τ)).1, b)) (V18 m (outs m) c) s')
      isplitl [Hh] <;> iassumption)
    (hQ := fun s h c => h c)

/-- An unscoped reference of the TensorCore is among those the run speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Layers

end
-- ==== Proof.RefValue.lean ====
import proofs.«182046_j72232759984565_1_alg».proof.Proof.RunP
import proofs.«182046_j72232759984565_1_alg».proof.Proof.ReadP

/-!
# The reference's result, stage by stage

The fold of the reference's operations over the launch memory, read at the result buffer, is the last of the
reference's stage functions applied to the nine arguments: each operation's result is its stage of its operands'
stages.
-/

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 100000000 in
theorem ref_value (m : (ℓ : Loc nD τ sig) → Buf (Elt F) ℓ) (c : Dev nD) :
    after (RunP.ops (F := F)) (launchContents m c) (Proc.devRef .tc main_v156)
      = ReadP.val_main_v156 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  after_results_simp <;> rfl

/-! No operation writes an argument: the fold leaves each at its launch contents. -/

set_option maxHeartbeats 8000000 in
theorem ref_arg0 (m : (ℓ : Loc nD τ sig) → Buf (Elt F) ℓ) (c : Dev nD) :
    after (RunP.ops (F := F)) (launchContents m c) (Proc.devRef .tc main_arg0) = m ((c.tc : Thread nD τ).loc main_arg0) := by
  after_results_simp <;> rfl
set_option maxHeartbeats 8000000 in
theorem ref_arg1 (m : (ℓ : Loc nD τ sig) → Buf (Elt F) ℓ) (c : Dev nD) :
    after (RunP.ops (F := F)) (launchContents m c) (Proc.devRef .tc main_arg1) = m ((c.tc : Thread nD τ).loc main_arg1) := by
  after_results_simp <;> rfl
set_option maxHeartbeats 8000000 in
theorem ref_arg2 (m : (ℓ : Loc nD τ sig) → Buf (Elt F) ℓ) (c : Dev nD) :
    after (RunP.ops (F := F)) (launchContents m c) (Proc.devRef .tc main_arg2) = m ((c.tc : Thread nD τ).loc main_arg2) := by
  after_results_simp <;> rfl
set_option maxHeartbeats 8000000 in
theorem ref_arg3 (m : (ℓ : Loc nD τ sig) → Buf (Elt F) ℓ) (c : Dev nD) :
    after (RunP.ops (F := F)) (launchContents m c) (Proc.devRef .tc main_arg3) = m ((c.tc : Thread nD τ).loc main_arg3) := by
  after_results_simp <;> rfl
set_option maxHeartbeats 8000000 in
theorem ref_arg4 (m : (ℓ : Loc nD τ sig) → Buf (Elt F) ℓ) (c : Dev nD) :
    after (RunP.ops (F := F)) (launchContents m c) (Proc.devRef .tc main_arg4) = m ((c.tc : Thread nD τ).loc main_arg4) := by
  after_results_simp <;> rfl
set_option maxHeartbeats 8000000 in
theorem ref_arg5 (m : (ℓ : Loc nD τ sig) → Buf (Elt F) ℓ) (c : Dev nD) :
    after (RunP.ops (F := F)) (launchContents m c) (Proc.devRef .tc main_arg5) = m ((c.tc : Thread nD τ).loc main_arg5) := by
  after_results_simp <;> rfl
set_option maxHeartbeats 8000000 in
theorem ref_arg6 (m : (ℓ : Loc nD τ sig) → Buf (Elt F) ℓ) (c : Dev nD) :
    after (RunP.ops (F := F)) (launchContents m c) (Proc.devRef .tc main_arg6) = m ((c.tc : Thread nD τ).loc main_arg6) := by
  after_results_simp <;> rfl
set_option maxHeartbeats 8000000 in
theorem ref_arg7 (m : (ℓ : Loc nD τ sig) → Buf (Elt F) ℓ) (c : Dev nD) :
    after (RunP.ops (F := F)) (launchContents m c) (Proc.devRef .tc main_arg7) = m ((c.tc : Thread nD τ).loc main_arg7) := by
  after_results_simp <;> rfl
set_option maxHeartbeats 8000000 in
theorem ref_arg8 (m : (ℓ : Loc nD τ sig) → Buf (Elt F) ℓ) (c : Dev nD) :
    after (RunP.ops (F := F)) (launchContents m c) (Proc.devRef .tc main_arg8) = m ((c.tc : Thread nD τ).loc main_arg8) := by
  after_results_simp <;> rfl

end Cert.ReferenceIdeal.RefValue

end
-- ==== Proof.Frames.lean ====
import proofs.«182046_j72232759984565_1_alg».proof.Defs
import proofs.«182046_j72232759984565_1_alg».proof.Proof.IdealRun
import proofs.«182046_j72232759984565_1_alg».proof.Proof.BitsRun
import proofs.«182046_j72232759984565_1_alg».proof.Proof.RefValue
import proofs.«182046_j72232759984565_1_alg».proof.Proof.Gen.Pre_finite_inputs

/-!
# The three frames

Each program runs to the end without a fault and leaves its nine arguments as launched.  For the two kernel
programs this is read off the run of the items (no host operation and no region writes an argument, so the contents
at the end, walked back item by item, are the launch contents); for the reference, a straight line of host
operations, off the fold of its operations over the launch memory.  None of them uses the precondition.
-/

noncomputable section

namespace Cert.Proof.Frames

open Idealize.ShloMosaic Idealize.ShloMosaic.TcCoe Idealize.SL.Sem

theorem frame_kernel : Cert.frame_Kernel := fun m ρ _ =>
  (θ_run Cert.Kernel.defs _ _).mono (fun r h c =>
    ⟨(h c _ (Cert.Kernel.Layers.mem_uc Cert.Kernel.main_arg0 (by decide))).trans (Cert.Kernel.Gen.V18_main_arg0 m (Cert.Kernel.Layers.outs m) c),
      (h c _ (Cert.Kernel.Layers.mem_uc Cert.Kernel.main_arg1 (by decide))).trans (Cert.Kernel.Gen.V18_main_arg1 m (Cert.Kernel.Layers.outs m) c),
      (h c _ (Cert.Kernel.Layers.mem_uc Cert.Kernel.main_arg2 (by decide))).trans (Cert.Kernel.Gen.V18_main_arg2 m (Cert.Kernel.Layers.outs m) c),
      (h c _ (Cert.Kernel.Layers.mem_uc Cert.Kernel.main_arg3 (by decide))).trans (Cert.Kernel.Gen.V18_main_arg3 m (Cert.Kernel.Layers.outs m) c),
      (h c _ (Cert.Kernel.Layers.mem_uc Cert.Kernel.main_arg4 (by decide))).trans (Cert.Kernel.Gen.V18_main_arg4 m (Cert.Kernel.Layers.outs m) c),
      (h c _ (Cert.Kernel.Layers.mem_uc Cert.Kernel.main_arg5 (by decide))).trans (Cert.Kernel.Gen.V18_main_arg5 m (Cert.Kernel.Layers.outs m) c),
      (h c _ (Cert.Kernel.Layers.mem_uc Cert.Kernel.main_arg6 (by decide))).trans (Cert.Kernel.Gen.V18_main_arg6 m (Cert.Kernel.Layers.outs m) c),
      (h c _ (Cert.Kernel.Layers.mem_uc Cert.Kernel.main_arg7 (by decide))).trans (Cert.Kernel.Gen.V18_main_arg7 m (Cert.Kernel.Layers.outs m) c),
      (h c _ (Cert.Kernel.Layers.mem_uc Cert.Kernel.main_arg8 (by decide))).trans (Cert.Kernel.Gen.V18_main_arg8 m (Cert.Kernel.Layers.outs m) c)⟩)
    (Cert.Kernel.Layers.run_all (F := Bits) m ρ)

theorem frame_kernelIdeal : Cert.frame_KernelIdeal := fun m ρ _ =>
  (θ_run Cert.KernelIdeal.defs _ _).mono (fun r h c =>
    ⟨(h c _ (Cert.KernelIdeal.Layers.mem_uc Cert.KernelIdeal.main_arg0 (by decide))).trans (Cert.KernelIdeal.Gen.V18_main_arg0 m (Cert.KernelIdeal.Layers.outs m) c),
      (h c _ (Cert.KernelIdeal.Layers.mem_uc Cert.KernelIdeal.main_arg1 (by decide))).trans (Cert.KernelIdeal.Gen.V18_main_arg1 m (Cert.KernelIdeal.Layers.outs m) c),
      (h c _ (Cert.KernelIdeal.Layers.mem_uc Cert.KernelIdeal.main_arg2 (by decide))).trans (Cert.KernelIdeal.Gen.V18_main_arg2 m (Cert.KernelIdeal.Layers.outs m) c),
      (h c _ (Cert.KernelIdeal.Layers.mem_uc Cert.KernelIdeal.main_arg3 (by decide))).trans (Cert.KernelIdeal.Gen.V18_main_arg3 m (Cert.KernelIdeal.Layers.outs m) c),
      (h c _ (Cert.KernelIdeal.Layers.mem_uc Cert.KernelIdeal.main_arg4 (by decide))).trans (Cert.KernelIdeal.Gen.V18_main_arg4 m (Cert.KernelIdeal.Layers.outs m) c),
      (h c _ (Cert.KernelIdeal.Layers.mem_uc Cert.KernelIdeal.main_arg5 (by decide))).trans (Cert.KernelIdeal.Gen.V18_main_arg5 m (Cert.KernelIdeal.Layers.outs m) c),
      (h c _ (Cert.KernelIdeal.Layers.mem_uc Cert.KernelIdeal.main_arg6 (by decide))).trans (Cert.KernelIdeal.Gen.V18_main_arg6 m (Cert.KernelIdeal.Layers.outs m) c),
      (h c _ (Cert.KernelIdeal.Layers.mem_uc Cert.KernelIdeal.main_arg7 (by decide))).trans (Cert.KernelIdeal.Gen.V18_main_arg7 m (Cert.KernelIdeal.Layers.outs m) c),
      (h c _ (Cert.KernelIdeal.Layers.mem_uc Cert.KernelIdeal.main_arg8 (by decide))).trans (Cert.KernelIdeal.Gen.V18_main_arg8 m (Cert.KernelIdeal.Layers.outs m) c)⟩)
    (Cert.KernelIdeal.Layers.run_all (F := Ideal) m ρ)

open Cert.ReferenceIdeal Cert.ReferenceIdeal.Gen Idealize.ShloMosaic.StableHlo in
theorem frame_reference : Cert.frame_ReferenceIdeal := fun m ρ _ =>
  (θ_run Cert.ReferenceIdeal.defs _ _).mono (fun _ h c =>
    ⟨(h c main_arg0).trans (Cert.ReferenceIdeal.RefValue.ref_arg0 m c),
      (h c main_arg1).trans (Cert.ReferenceIdeal.RefValue.ref_arg1 m c),
      (h c main_arg2).trans (Cert.ReferenceIdeal.RefValue.ref_arg2 m c),
      (h c main_arg3).trans (Cert.ReferenceIdeal.RefValue.ref_arg3 m c),
      (h c main_arg4).trans (Cert.ReferenceIdeal.RefValue.ref_arg4 m c),
      (h c main_arg5).trans (Cert.ReferenceIdeal.RefValue.ref_arg5 m c),
      (h c main_arg6).trans (Cert.ReferenceIdeal.RefValue.ref_arg6 m c),
      (h c main_arg7).trans (Cert.ReferenceIdeal.RefValue.ref_arg7 m c),
      (h c main_arg8).trans (Cert.ReferenceIdeal.RefValue.ref_arg8 m c)⟩)
    (Cert.ReferenceIdeal.RunP.run_raw (F := Ideal) m ρ)

end Cert.Proof.Frames

end
-- ==== Proof.LibMatmulCols.lean ====
/-
  A matrix product that contracts BOTH operands' leading axes, read at one entry.

  For dimension numbers that contract the left operand's first axis with the right operand's first axis — the left
  operand [n, a], the right operand [n, b], the result [a, b], no batch axes: the product of the left operand's
  transpose with the right operand, no transpose formed — the entry (p, q) of the product is the sum over k of
  left (k, p) times right (k, q).

  `matmul_zero_cols`   a `tpu.matmul` into the zero accumulator at the ideal instance.
-/
import Idealize.ShloMosaic.PureOps.Ideal.Laws
import Idealize.ShloMosaic.Lib.ValueIdx

noncomputable section

open scoped BigOperators

namespace Cert.Lib.MatmulCols

open Idealize.ShloMosaic Idealize.ShloMosaic.ValueIdx

variable {a n b : ℕ}

/-- A `tpu.matmul` of an [n, a] by an [n, b] operand contracting the two leading axes, into the zero accumulator, at
    the ideal instance, read at `(p, q)`: the sum over `k` of left `(k, p)` times right `(k, q)`. -/
theorem matmul_zero_cols {φ₁ φ₂ : FTy}
    (w : DotDims.WF ⟨2, ![n, a]⟩ ⟨2, ![n, b]⟩ ⟨2, ![a, b]⟩ [0] [0] [1] [1] [] [])
    (prec : Option ContractPrecision) (l : FVec Ideal ⟨2, ![n, a]⟩ φ₁) (r : FVec Ideal ⟨2, ![n, b]⟩ φ₂)
    (p : Fin a) (q : Fin b) :
    matmul (⟨[0], [0], [1], [1], [], [], w⟩ : DotDims ⟨2, ![n, a]⟩ ⟨2, ![n, b]⟩ ⟨2, ![a, b]⟩) prec l r
        (constant ⟨2, ![a, b]⟩ .f32 0x00000000#32) (ix2 p q)
      = ∑ k : Fin n, l (ix2 k p) * r (ix2 k q) := by
  refine (Ideal.matmul_constant_zero_apply (⟨[0], [0], [1], [1], [], [], w⟩ : DotDims ⟨2, ![n, a]⟩ ⟨2, ![n, b]⟩ ⟨2, ![a, b]⟩) prec l r (ix2 p q)).trans ?_
  rw [← Equiv.sum_comp (contrEquiv1 (⟨[0], [0], [1], [1], [], [], w⟩ : DotDims ⟨2, ![n, a]⟩ ⟨2, ![n, b]⟩ ⟨2, ![a, b]⟩) n rfl rfl).symm]
  refine Finset.sum_congr rfl fun k _ => ?_
  have c2 := contrEquiv1_symm_val
    (⟨[0], [0], [1], [1], [], [], w⟩ : DotDims ⟨2, ![n, a]⟩ ⟨2, ![n, b]⟩ ⟨2, ![a, b]⟩) n rfl rfl k
  have l2 : (⟨[0], [0], [1], [1], [], [], w⟩ : DotDims ⟨2, ![n, a]⟩ ⟨2, ![n, b]⟩ ⟨2, ![a, b]⟩).lhsIdx (ix2 p q)
      ((contrEquiv1 _ n rfl rfl).symm k) = ix2 k p := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![n, a]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

/-- The plain product of an [a, n] by an [n, b] operand as a `tpu.matmul` into the zero accumulator, at the ideal
    instance, read at `(p, q)`: the sum over `k` of left `(p, k)` times right `(k, q)`. -/
theorem matmul_zero_plain {φ₁ φ₂ : FTy}
    (w : DotDims.WF ⟨2, ![a, n]⟩ ⟨2, ![n, b]⟩ ⟨2, ![a, b]⟩ [1] [0] [0] [1] [] [])
    (prec : Option ContractPrecision) (l : FVec Ideal ⟨2, ![a, n]⟩ φ₁) (r : FVec Ideal ⟨2, ![n, b]⟩ φ₂)
    (p : Fin a) (q : Fin b) :
    matmul (⟨[1], [0], [0], [1], [], [], w⟩ : DotDims ⟨2, ![a, n]⟩ ⟨2, ![n, b]⟩ ⟨2, ![a, b]⟩) prec l r
        (constant ⟨2, ![a, b]⟩ .f32 0x00000000#32) (ix2 p q)
      = ∑ k : Fin n, l (ix2 p k) * r (ix2 k q) := by
  refine (Ideal.matmul_constant_zero_apply (⟨[1], [0], [0], [1], [], [], w⟩ : DotDims ⟨2, ![a, n]⟩ ⟨2, ![n, b]⟩ ⟨2, ![a, b]⟩) prec l r (ix2 p q)).trans ?_
  rw [← Equiv.sum_comp (contrEquiv1 (⟨[1], [0], [0], [1], [], [], w⟩ : DotDims ⟨2, ![a, n]⟩ ⟨2, ![n, b]⟩ ⟨2, ![a, b]⟩) n rfl rfl).symm]
  refine Finset.sum_congr rfl fun k _ => ?_
  have c2 := contrEquiv1_symm_val
    (⟨[1], [0], [0], [1], [], [], w⟩ : DotDims ⟨2, ![a, n]⟩ ⟨2, ![n, b]⟩ ⟨2, ![a, b]⟩) n rfl rfl k
  have l2 : (⟨[1], [0], [0], [1], [], [], w⟩ : DotDims ⟨2, ![a, n]⟩ ⟨2, ![n, b]⟩ ⟨2, ![a, b]⟩).lhsIdx (ix2 p q)
      ((contrEquiv1 _ n rfl rfl).symm k) = ix2 p k := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, n]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

end Cert.Lib.MatmulCols

end
-- ==== Proof.IdealTile.lean ====
import proofs.«182046_j72232759984565_1_alg».proof.Proof.Gen.KernelIdeal.Skeleton
import proofs.«182046_j72232759984565_1_alg».proof.Proof.LibMatmulCols
import Idealize.ShloMosaic.PureOps.Ideal.Laws
import Idealize.ShloMosaic.Lib.ValueIdx
import Idealize.ShloMosaic.Lib.ValueLayout
import Idealize.ShloMosaic.Lib.Pipeline.Value

/-!
# One layer's value on a tile, entry by entry, over the extended reals

Over the extended reals a narrowing of the float format is the identity, a matrix product into the zero
accumulator is the sum of the products along the contracted axis, a sum, a maximum and a broadcast read entry by
entry, and a reshape to the same shape is the identity.  So the value the body of either region stores, on a tile
a of 256 rows of the adjacency matrix, the feature matrix x, the tile's own rows xs of x, the weights w and the
bias row b, is at row p and column q

  max ((sum over k of ((sum over j of a(p,j) x(j,k)) + xs(p,k)) w(k,q)) + b(0,q)) 0.
-/

set_option maxRecDepth 16384

noncomputable section

open scoped BigOperators

namespace Cert.KernelIdeal.Tile

open Cert.KernelIdeal Cert.KernelIdeal.Gen
open Idealize.ShloMosaic Idealize.ShloMosaic.TcCoe Idealize.ShloMosaic.ValueIdx
open Facts₀

/-- The product of a 256 by 8192 tile with an 8192 by 64 matrix into the zero accumulator, at row p and column q:
    the sum over j of l(p,j) r(j,q). -/
theorem prod_adj (l : FVec Ideal S256x8192 .bf16) (r : FVec Ideal S8192x64 .bf16) (p : Fin 256) (q : Fin 64) :
    matmul dot_S256x8192_S8192x64_S256x64_1_0_0_1_n_n none l r (constant (F := Ideal) S256x64 .f32 0x00000000#32) (ix2 p q)
      = ∑ j : Fin 8192, l (ix2 p j) * r (ix2 j q) :=
  Cert.Lib.MatmulCols.matmul_zero_plain (a := 256) (n := 8192) (b := 64)
    Facts₀.dot_S256x8192_S8192x64_S256x64_1_0_0_1_n_n_wf none l r p q

/-- The product of a 256 by 64 tile with the 64 by 64 weights into the zero accumulator, at row p and column q:
    the sum over k of l(p,k) r(k,q). -/
theorem prod_w (l : FVec Ideal S256x64 .bf16) (r : FVec Ideal S64x64 .bf16) (p : Fin 256) (q : Fin 64) :
    matmul dot_S256x64_S64x64_S256x64_1_0_0_1_n_n none l r (constant (F := Ideal) S256x64 .f32 0x00000000#32) (ix2 p q)
      = ∑ k : Fin 64, l (ix2 p k) * r (ix2 k q) :=
  Cert.Lib.MatmulCols.matmul_zero_plain (a := 256) (n := 64) (b := 64)
    Facts₀.dot_S256x64_S64x64_S256x64_1_0_0_1_n_n_wf none l r p q

/-- Region 0's stored value at row p and column q of the tile. -/
theorem k0_pay1_at (a : Vec Ideal S256x8192 .f32) (x : Vec Ideal S8192x64 .f32) (xs : Vec Ideal S256x64 .f32)
    (w : Vec Ideal S64x64 .f32) (b : Vec Ideal S1x64 .f32) (p : Fin 256) (q : Fin 64) :
    k0_pay1 (F := Ideal) a x xs w b (ix2 p q)
      = max ((∑ k : Fin 64, (∑ j : Fin 8192, a (ix2 p j) * x (ix2 j k) + xs (ix2 p k)) * w (ix2 k q))
          + b (ix2 (0 : Fin 1) q)) 0 := by
  unfold k0_pay1
  simp only [maximumf_apply, addf_apply, broadcast_apply, prod_w, prod_adj, truncf_apply, shapeCast_self,
    broadcastTo_1b_ab_apply]
  exact congrArg (max _) Ideal.ofBits_zero_f32

/-- Region 1's stored value at row p and column q of the tile: the same expression (the two extra reshapes are to
    the shapes their operands already have). -/
theorem k1_pay1_at (a : Vec Ideal S256x8192 .f32) (x : Vec Ideal S8192x64 .f32) (xs : Vec Ideal S256x64 .f32)
    (w : Vec Ideal S64x64 .f32) (b : Vec Ideal S1x64 .f32) (p : Fin 256) (q : Fin 64) :
    k1_pay1 (F := Ideal) a x xs w b (ix2 p q)
      = max ((∑ k : Fin 64, (∑ j : Fin 8192, a (ix2 p j) * x (ix2 j k) + xs (ix2 p k)) * w (ix2 k q))
          + b (ix2 (0 : Fin 1) q)) 0 := by
  unfold k1_pay1
  simp only [maximumf_apply, addf_apply, broadcast_apply, prod_w, prod_adj, truncf_apply, shapeCast_self,
    broadcastTo_1b_ab_apply]
  exact congrArg (max _) Ideal.ofBits_zero_f32

end Cert.KernelIdeal.Tile

end
-- ==== Proof.GinSpec.lean ====
/- The shared specification of one graph-convolution layer over the extended reals, and its algebra.

   A layer takes an adjacency matrix `adj`, node features `x`, a weight matrix `W` and a bias `b` and returns
     relu ((adj · x + x) · W + b).
   The reference program writes the aggregation as `(adj + I) · x + 0 · x`. On the extended reals the product does
   not distribute over a sum at the infinities, so the two spellings agree only where the entries of `adj` and of `x`
   are finite (`layerRef_eq`). A layer of finite inputs has finite entries (`layer_real`), which is what lets the
   second layer use the same step. -/
import Mathlib.Data.EReal.Inv
import Mathlib.Algebra.BigOperators.Group.Finset.Basic

namespace Cert.Gin

/-- One layer: `relu ((adj · x + x) · W + b)`, entry `(p, q)`. -/
noncomputable def layer (adj : Fin 8192 → Fin 8192 → EReal) (x : Fin 8192 → Fin 64 → EReal)
    (W : Fin 64 → Fin 64 → EReal) (b : Fin 64 → EReal) : Fin 8192 → Fin 64 → EReal :=
  fun p q => max ((∑ k : Fin 64, (∑ j : Fin 8192, adj p j * x j k + x p k) * W k q) + b q) 0

/-- The same layer as the reference spells it: `relu (((adj + I) · x + 0 · x) · W + b)`. -/
noncomputable def layerRef (adj : Fin 8192 → Fin 8192 → EReal) (x : Fin 8192 → Fin 64 → EReal)
    (W : Fin 64 → Fin 64 → EReal) (b : Fin 64 → EReal) : Fin 8192 → Fin 64 → EReal :=
  fun p q => max ((∑ k : Fin 64, (∑ j : Fin 8192, (adj p j + (if p = j then (1 : EReal) else 0)) * x j k
    + 0 * x p k) * W k q) + b q) 0

/-- An extended real that is a real number. -/
def IsReal (z : EReal) : Prop := ∃ r : ℝ, z = (r : EReal)

theorem isReal_zero : IsReal 0 := ⟨0, EReal.coe_zero.symm⟩

theorem isReal_one : IsReal 1 := ⟨1, EReal.coe_one.symm⟩

theorem IsReal.add {y z : EReal} (hy : IsReal y) (hz : IsReal z) : IsReal (y + z) := by
  obtain ⟨r, rfl⟩ := hy
  obtain ⟨s, rfl⟩ := hz
  exact ⟨r + s, (EReal.coe_add r s).symm⟩

theorem IsReal.mul {y z : EReal} (hy : IsReal y) (hz : IsReal z) : IsReal (y * z) := by
  obtain ⟨r, rfl⟩ := hy
  obtain ⟨s, rfl⟩ := hz
  exact ⟨r * s, (EReal.coe_mul r s).symm⟩

theorem IsReal.max {y z : EReal} (hy : IsReal y) (hz : IsReal z) : IsReal (max y z) := by
  rcases max_choice y z with h | h
  · rw [h]; exact hy
  · rw [h]; exact hz

/-- A finite sum of reals is a real. -/
theorem isReal_sum {ι : Type} (s : Finset ι) (f : ι → EReal) (h : ∀ i ∈ s, IsReal (f i)) :
    IsReal (∑ i ∈ s, f i) :=
  Finset.sum_induction f IsReal (fun _ _ ha hb => ha.add hb) isReal_zero h

/-- Where the adjacency entry and the feature are real, the product distributes over the added diagonal term:
    `(a + δ) · c = a · c + δ · c` with `δ` the Kronecker delta. Off the diagonal nothing is needed. -/
theorem add_delta_mul {a c : EReal} (ha : IsReal a) (hc : IsReal c) (d : Prop) [Decidable d] :
    (a + (if d then (1 : EReal) else 0)) * c = a * c + (if d then c else 0) := by
  obtain ⟨r, rfl⟩ := ha
  obtain ⟨s, rfl⟩ := hc
  by_cases h : d
  · rw [if_pos h, if_pos h, ← EReal.coe_one, ← EReal.coe_add, ← EReal.coe_mul, ← EReal.coe_mul, ← EReal.coe_add,
      add_mul, one_mul]
  · rw [if_neg h, if_neg h, add_zero, add_zero]

/-- The aggregation step: `(adj + I) · x + 0 · x = adj · x + x` at finite entries. -/
theorem agg_eq {adj : Fin 8192 → Fin 8192 → EReal} {x : Fin 8192 → Fin 64 → EReal}
    (hadj : ∀ p j, ∃ r : ℝ, adj p j = (r : EReal)) (hx : ∀ j k, ∃ r : ℝ, x j k = (r : EReal))
    (p : Fin 8192) (k : Fin 64) :
    (∑ j : Fin 8192, (adj p j + (if p = j then (1 : EReal) else 0)) * x j k) + 0 * x p k
      = ∑ j : Fin 8192, adj p j * x j k + x p k := by
  rw [zero_mul, add_zero,
    Finset.sum_congr rfl (fun j _ => add_delta_mul (hadj p j) (hx j k) (p = j)),
    Finset.sum_add_distrib, Finset.sum_ite_eq, if_pos (Finset.mem_univ p)]

theorem layerRef_eq {adj : Fin 8192 → Fin 8192 → EReal} {x : Fin 8192 → Fin 64 → EReal}
    {W : Fin 64 → Fin 64 → EReal} {b : Fin 64 → EReal}
    (hadj : ∀ p j, ∃ r : ℝ, adj p j = (r : EReal)) (hx : ∀ j k, ∃ r : ℝ, x j k = (r : EReal)) :
    layerRef adj x W b = layer adj x W b := by
  funext p q
  show max ((∑ k : Fin 64, (∑ j : Fin 8192, (adj p j + (if p = j then (1 : EReal) else 0)) * x j k
      + 0 * x p k) * W k q) + b q) 0
    = max ((∑ k : Fin 64, (∑ j : Fin 8192, adj p j * x j k + x p k) * W k q) + b q) 0
  rw [Finset.sum_congr rfl (fun k _ => congrArg (· * W k q) (agg_eq hadj hx p k))]

/-- A layer of real inputs has real entries. -/
theorem layer_real {adj : Fin 8192 → Fin 8192 → EReal} {x : Fin 8192 → Fin 64 → EReal}
    {W : Fin 64 → Fin 64 → EReal} {b : Fin 64 → EReal}
    (hadj : ∀ p j, ∃ r : ℝ, adj p j = (r : EReal)) (hx : ∀ j k, ∃ r : ℝ, x j k = (r : EReal))
    (hW : ∀ k q, ∃ r : ℝ, W k q = (r : EReal)) (hb : ∀ q, ∃ r : ℝ, b q = (r : EReal)) :
    ∀ p q, ∃ r : ℝ, layer adj x W b p q = (r : EReal) := by
  intro p q
  refine IsReal.max (IsReal.add (isReal_sum _ _ fun k _ => IsReal.mul (IsReal.add ?_ (hx p k)) (hW k q)) (hb q))
    isReal_zero
  exact isReal_sum _ _ fun j _ => IsReal.mul (hadj p j) (hx j k)

end Cert.Gin
-- ==== Proof.IdealFinal.lean ====
import proofs.«182046_j72232759984565_1_alg».proof.Proof.IdealLayers
import proofs.«182046_j72232759984565_1_alg».proof.Proof.IdealTile
import proofs.«182046_j72232759984565_1_alg».proof.Proof.GinSpec
import Idealize.ShloMosaic.Lib.Pipeline.Value
import Idealize.ShloMosaic.Lib.ValueIdx

/-!
# From the 32 tiles to the whole array: each region leaves one layer of its arrays

At grid point t a region's output tile is rows 256 t to 256 t + 255 of its result array, and the tile's entry at
row p and column q is the layer's expression on the blocks the point holds: rows 256 t .. of the adjacency matrix,
all of the feature matrix, rows 256 t .. of the feature matrix again, the weights and the bias row.  Read where
they sit in their arrays, that is the layer's value at row 256 t + p and column q of the whole arrays.  Row r of
the result is covered by point r / 256, so after the 32 points the result array holds the layer of the region's
arrays as the region found them.
-/

set_option maxRecDepth 16384

noncomputable section

open scoped BigOperators

namespace Cert.KernelIdeal.Final

open Cert.KernelIdeal Cert.KernelIdeal.Gen Cert.KernelIdeal.Layers Cert.KernelIdeal.Tile
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of a whole-buffer rectangle, however spelt. -/
theorem hz : (![0, 0] : Fin 2 → Nat) = fun _ => 0 := funext fun a => by fin_cases a <;> rfl

/-! ## Region 0 -/

/-- The block index of each window at each grid point: the adjacency tile, the feature rows and the output tile
    move down one block of rows per point; the other windows stay at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The region's layer of its arrays as it finds them, index by index. -/
def G0 (c : Dev nD) : S8192x64.Idx → Elt Ideal .f32 := fun i =>
  Cert.Gin.layer (fun p j => (V c main_arg1 : S8192x8192.Idx → Elt Ideal .f32) (ix2 p j))
    (fun j k => (V c main_arg0 : S8192x64.Idx → Elt Ideal .f32) (ix2 j k))
    (fun k q => (V c main_arg3 : S64x64.Idx → Elt Ideal .f32) (ix2 k q))
    (fun q => (V c main_v0 : S1x64.Idx → Elt Ideal .f32) (ix2 (0 : Fin 1) q)) (i 0) (i 1)

theorem G0_ix2 (c : Dev nD) (r : Fin 8192) (q : Fin 64) :
    G0 V c (ix2 r q) = Cert.Gin.layer (fun p j => (V c main_arg1 : S8192x8192.Idx → Elt Ideal .f32) (ix2 p j))
      (fun j k => (V c main_arg0 : S8192x64.Idx → Elt Ideal .f32) (ix2 j k))
      (fun k q => (V c main_arg3 : S64x64.Idx → Elt Ideal .f32) (ix2 k q))
      (fun q => (V c main_v0 : S1x64.Idx → Elt Ideal .f32) (ix2 (0 : Fin 1) q)) r q := rfl

/-- The adjacency tile at point t, row p, is row 256 t + p of the adjacency matrix. -/
theorem iblk0_0_at (c : Dev nD) (t : Fin cfg0.N) (p : Fin 256) (j : Fin 8192) (r : Fin 8192)
    (hr : r.val = t.val * 256 + p.val) :
    (iblk0 V c 0 t : Vec Ideal S256x8192 .f32) (ix2 p j) = (V c main_arg1 : S8192x8192.Idx → Elt Ideal .f32) (ix2 r j) := by
  obtain ⟨e0, e1, -⟩ := idx_facts0 t
  unfold iblk0
  rw [View.read_apply]
  show V c main_arg1 _ = V c main_arg1 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 8192 + 1 * j.val = j.val; rw [e1]; omega

/-- The window on all of the feature matrix holds the feature matrix. -/
theorem iblk0_1_at (c : Dev nD) (t : Fin cfg0.N) (j : Fin 8192) (k : Fin 64) :
    (iblk0 V c 1 t : Vec Ideal S8192x64 .f32) (ix2 j k) = (V c main_arg0 : S8192x64.Idx → Elt Ideal .f32) (ix2 j k) := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 8192 + 1 * j.val = j.val; rw [e0]; omega
  | ⟨1, _⟩ => show win0_1.index t (1 : Fin 2) * 64 + 1 * k.val = k.val; rw [e1]; omega

/-- The tile's own feature rows at point t, row p, are row 256 t + p of the feature matrix. -/
theorem iblk0_2_at (c : Dev nD) (t : Fin cfg0.N) (p : Fin 256) (k : Fin 64) (r : Fin 8192)
    (hr : r.val = t.val * 256 + p.val) :
    (iblk0 V c 2 t : Vec Ideal S256x64 .f32) (ix2 p k) = (V c main_arg0 : S8192x64.Idx → Elt Ideal .f32) (ix2 r k) := by
  obtain ⟨-, -, -, -, e0, e1, -⟩ := idx_facts0 t
  unfold iblk0
  rw [View.read_apply]
  show V c main_arg0 _ = V c main_arg0 _
  congr 1
  funext a
  apply Fin.ext
  match a with
  | ⟨0, _⟩ => show win0_2.index t (0 : Fin 2) * 256 + 1 * p.val = r.val; rw [e0, hr]; omega
  | ⟨1, _⟩ => show win0_2.index t (1 : Fin 2) * 64 + 1 * k.val = k.val; rw [e1]; omega

/-- The weights' window holds the weights. -/
theorem iblk0_3_at (c : Dev nD) (t : Fin cfg0.N) (k : Fin 64) (q : Fin 64) :
    (iblk0 V c 3 t : Vec Ideal S64x64 .f32) (ix2 k q) = (V c main_arg3 : S64x64.Idx → Elt Ideal .f32) (ix2 k q) := by
  obtain ⟨-, -, -, -, -, -, e0, e1, -⟩ := idx_facts0 t
  unfold iblk0
  rw [View.read_apply]
  show V c main_arg3 _ = V c main_arg3 _
  congr 1
  funext a
  apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega

/-- The bias row's window holds the bias row. -/
theorem iblk0_4_at (c : Dev nD) (t : Fin cfg0.N) (z : Fin 1) (q : Fin 64) :
    (iblk0 V c 4 t : Vec Ideal S1x64 .f32) (ix2 z q) = (V c main_v0 : S1x64.Idx → Elt Ideal .f32) (ix2 z q) := by
  obtain ⟨-, -, -, -, -, -, -, -, e0, e1, -⟩ := idx_facts0 t
  unfold iblk0
  rw [View.read_apply]
  show V c main_v0 _ = V c main_v0 _
  congr 1
  funext a
  apply Fin.ext
  match a with
  | ⟨0, _⟩ => show win0_4.index t (0 : Fin 2) * 1 + 1 * z.val = z.val; rw [e0]; omega
  | ⟨1, _⟩ => show win0_4.index t (1 : Fin 2) * 64 + 1 * q.val = q.val; rw [e1]; omega

/-- What point t writes back is block t of the layer of the region's arrays. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [dat0_after_5]
  unfold tile0
  rw [View.canon_unit_zero hz]
  simp only [View.ld_unit_zero (S := S256x8192) hz, View.ld_unit_zero (S := S8192x64) hz,
    View.ld_unit_zero (S := S256x64) hz, View.ld_unit_zero (S := S64x64) hz, View.ld_unit_zero (S := S1x64) hz]
  funext y
  obtain ⟨p, q, rfl⟩ : ∃ (p : Fin 256) (q : Fin 64), y = ix2 p q := ⟨y 0, y 1, eq_ix2 y⟩
  have hN : t.val < 32 := lt_of_lt_of_eq t.isLt N_0
  have hp : p.val < 256 := p.isLt
  have hr : t.val * 256 + p.val < 8192 := by omega
  have hemb : ((cfg0.win 5).blk t).view.emb (ix2 p q) = ix2 (⟨t.val * 256 + p.val, hr⟩ : Fin 8192) q := by
    obtain ⟨-, -, -, -, -, -, -, -, -, -, e0, e1⟩ := idx_facts0 t
    funext a
    apply Fin.ext
    match a with
    | ⟨0, _⟩ => show win0_5.index t (0 : Fin 2) * 256 + 1 * p.val = t.val * 256 + p.val; rw [e0]; omega
    | ⟨1, _⟩ => show win0_5.index t (1 : Fin 2) * 64 + 1 * q.val = q.val; rw [e1]; omega
  show k0_pay1 (iblk0 V c 0 t) (iblk0 V c 1 t) (iblk0 V c 2 t) (iblk0 V c 3 t) (iblk0 V c 4 t) (ix2 p q)
    = G0 V c (((cfg0.win 5).blk t).view.emb (ix2 p q))
  refine ((k0_pay1_at _ _ _ _ _ p q).trans ?_).trans (congrArg (G0 V c) hemb).symm
  rw [G0_ix2]
  unfold Cert.Gin.layer
  simp only [iblk0_0_at V c t p _ ⟨t.val * 256 + p.val, hr⟩ rfl, iblk0_1_at V c t, iblk0_2_at V c t p _ ⟨t.val * 256 + p.val, hr⟩ rfl,
    iblk0_3_at V c t, iblk0_4_at V c t]

/-- An index of the result array is in point t's block iff each coordinate is in the block's range on its axis. -/
theorem mem_blk0 (t : Fin cfg0.N) (i : S8192x64.Idx) :
    i ∈ ((cfg0.win 5).blk t).view.set ↔ ∀ a : Fin 2, win0_5.index t a * S256x64.size a ≤ (i a).val
      ∧ (i a).val < win0_5.index t a * S256x64.size a + S256x64.size a := by
  show i ∈ ((View.whole main_v1).slice (win0_5.rect t)).set ↔ _
  rw [View.set_slice_whole, Rect.mem_set_unit]
  exact Iff.rfl

/-- Row r of the result array is in the block of point r / 256. -/
theorem cover0 (i : S8192x64.Idx) :
    ∃ t : Fin cfg0.N, (cfg0.win 5).flush t = true ∧ i ∈ ((cfg0.win 5).blk t).view.set := by
  have hi0 : (i 0).val < 8192 := idx2_lt0 i
  have hi1 : (i 1).val < 64 := idx2_lt1 i
  have ht : (i 0).val / 256 < cfg0.N := by rw [show cfg0.N = 32 from N_0]; omega
  obtain ⟨-, -, -, -, -, -, -, -, -, -, e0, e1⟩ := idx_facts0 ⟨(i 0).val / 256, ht⟩
  refine ⟨⟨(i 0).val / 256, ht⟩, flush0_5 _, ?_⟩
  rw [mem_blk0]
  intro a
  match a with
  | ⟨0, _⟩ =>
    show win0_5.index ⟨(i 0).val / 256, ht⟩ (0 : Fin 2) * 256 ≤ (i 0).val
      ∧ (i 0).val < win0_5.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, ht⟩ (1 : Fin 2) * 64 ≤ (i 1).val
      ∧ (i 1).val < win0_5.index ⟨(i 0).val / 256, ht⟩ (1 : Fin 2) * 64 + 64
    rw [e1]; omega

/-- After region 0 its result array holds the layer of its arrays as it found them. -/
theorem final0 (c : Dev nD) : (dat0 V c).arrAt 5 cfg0.N = G0 V c :=
  (dat0 V c).arrAt_eq_of_cover 5 (G0 V c) (fun t _ => flushed0_eq V c t) cover0

/-! ## Region 1 -/

/-- The block index of each window at each grid point, as in region 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The region's layer of its arrays as it finds them, index by index. -/
def G1 (c : Dev nD) : S8192x64.Idx → Elt Ideal .f32 := fun i =>
  Cert.Gin.layer (fun p j => (V c main_arg1 : S8192x8192.Idx → Elt Ideal .f32) (ix2 p j))
    (fun j k => (V c main_v1 : S8192x64.Idx → Elt Ideal .f32) (ix2 j k))
    (fun k q => (V c main_arg5 : S64x64.Idx → Elt Ideal .f32) (ix2 k q))
    (fun q => (V c main_v2 : S1x64.Idx → Elt Ideal .f32) (ix2 (0 : Fin 1) q)) (i 0) (i 1)

theorem G1_ix2 (c : Dev nD) (r : Fin 8192) (q : Fin 64) :
    G1 V c (ix2 r q) = Cert.Gin.layer (fun p j => (V c main_arg1 : S8192x8192.Idx → Elt Ideal .f32) (ix2 p j))
      (fun j k => (V c main_v1 : S8192x64.Idx → Elt Ideal .f32) (ix2 j k))
      (fun k q => (V c main_arg5 : S64x64.Idx → Elt Ideal .f32) (ix2 k q))
      (fun q => (V c main_v2 : S1x64.Idx → Elt Ideal .f32) (ix2 (0 : Fin 1) q)) r q := rfl

/-- The adjacency tile at point t, row p, is row 256 t + p of the adjacency matrix. -/
theorem iblk1_0_at (c : Dev nD) (t : Fin cfg1.N) (p : Fin 256) (j : Fin 8192) (r : Fin 8192)
    (hr : r.val = t.val * 256 + p.val) :
    (iblk1 V c 0 t : Vec Ideal S256x8192 .f32) (ix2 p j) = (V c main_arg1 : S8192x8192.Idx → Elt Ideal .f32) (ix2 r j) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 256 + 1 * p.val = r.val; rw [e0, hr]; omega
  | ⟨1, _⟩ => show win1_0.index t (1 : Fin 2) * 8192 + 1 * j.val = j.val; rw [e1]; omega

/-- The window on all of the feature matrix holds the feature matrix. -/
theorem iblk1_1_at (c : Dev nD) (t : Fin cfg1.N) (j : Fin 8192) (k : Fin 64) :
    (iblk1 V c 1 t : Vec Ideal S8192x64 .f32) (ix2 j k) = (V c main_v1 : S8192x64.Idx → Elt Ideal .f32) (ix2 j k) := by
  obtain ⟨-, -, e0, e1, -⟩ := idx_facts1 t
  unfold iblk1
  rw [View.read_apply]
  show V c main_v1 _ = V c main_v1 _
  congr 1
  funext a
  apply Fin.ext
  match a with
  | ⟨0, _⟩ => show win1_1.index t (0 : Fin 2) * 8192 + 1 * j.val = j.val; rw [e0]; omega
  | ⟨1, _⟩ => show win1_1.index t (1 : Fin 2) * 64 + 1 * k.val = k.val; rw [e1]; omega

/-- The tile's own feature rows at point t, row p, are row 256 t + p of the feature matrix. -/
theorem iblk1_2_at (c : Dev nD) (t : Fin cfg1.N) (p : Fin 256) (k : Fin 64) (r : Fin 8192)
    (hr : r.val = t.val * 256 + p.val) :
    (iblk1 V c 2 t : Vec Ideal S256x64 .f32) (ix2 p k) = (V c main_v1 : S8192x64.Idx → Elt Ideal .f32) (ix2 r k) := by
  obtain ⟨-, -, -, -, e0, e1, -⟩ := idx_facts1 t
  unfold iblk1
  rw [View.read_apply]
  show V c main_v1 _ = V c main_v1 _
  congr 1
  funext a
  apply Fin.ext
  match a with
  | ⟨0, _⟩ => show win1_2.index t (0 : Fin 2) * 256 + 1 * p.val = r.val; rw [e0, hr]; omega
  | ⟨1, _⟩ => show win1_2.index t (1 : Fin 2) * 64 + 1 * k.val = k.val; rw [e1]; omega

/-- The weights' window holds the weights. -/
theorem iblk1_3_at (c : Dev nD) (t : Fin cfg1.N) (k : Fin 64) (q : Fin 64) :
    (iblk1 V c 3 t : Vec Ideal S64x64 .f32) (ix2 k q) = (V c main_arg5 : S64x64.Idx → Elt Ideal .f32) (ix2 k q) := by
  obtain ⟨-, -, -, -, -, -, e0, e1, -⟩ := idx_facts1 t
  unfold iblk1
  rw [View.read_apply]
  show V c main_arg5 _ = V c main_arg5 _
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- The bias row's window holds the bias row. -/
theorem iblk1_4_at (c : Dev nD) (t : Fin cfg1.N) (z : Fin 1) (q : Fin 64) :
    (iblk1 V c 4 t : Vec Ideal S1x64 .f32) (ix2 z q) = (V c main_v2 : S1x64.Idx → Elt Ideal .f32) (ix2 z q) := by
  obtain ⟨-, -, -, -, -, -, -, -, e0, e1, -⟩ := idx_facts1 t
  unfold iblk1
  rw [View.read_apply]
  show V c main_v2 _ = V c main_v2 _
  congr 1
  funext a
  apply Fin.ext
  match a with
  | ⟨0, _⟩ => show win1_4.index t (0 : Fin 2) * 1 + 1 * z.val = z.val; rw [e0]; omega
  | ⟨1, _⟩ => show win1_4.index t (1 : Fin 2) * 64 + 1 * q.val = q.val; rw [e1]; omega

/-- What point t writes back is block t of the layer of the region's arrays. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [dat1_after_5]
  unfold tile1
  rw [View.canon_unit_zero hz]
  simp only [View.ld_unit_zero (S := S256x8192) hz, View.ld_unit_zero (S := S8192x64) hz,
    View.ld_unit_zero (S := S256x64) hz, View.ld_unit_zero (S := S64x64) hz, View.ld_unit_zero (S := S1x64) hz]
  funext y
  obtain ⟨p, q, rfl⟩ : ∃ (p : Fin 256) (q : Fin 64), y = ix2 p q := ⟨y 0, y 1, eq_ix2 y⟩
  have hN : t.val < 32 := lt_of_lt_of_eq t.isLt N_1
  have hp : p.val < 256 := p.isLt
  have hr : t.val * 256 + p.val < 8192 := by omega
  have hemb : ((cfg1.win 5).blk t).view.emb (ix2 p q) = ix2 (⟨t.val * 256 + p.val, hr⟩ : Fin 8192) q := by
    obtain ⟨-, -, -, -, -, -, -, -, -, -, e0, e1⟩ := idx_facts1 t
    funext a
    apply Fin.ext
    match a with
    | ⟨0, _⟩ => show win1_5.index t (0 : Fin 2) * 256 + 1 * p.val = t.val * 256 + p.val; rw [e0]; omega
    | ⟨1, _⟩ => show win1_5.index t (1 : Fin 2) * 64 + 1 * q.val = q.val; rw [e1]; omega
  show k1_pay1 (iblk1 V c 0 t) (iblk1 V c 1 t) (iblk1 V c 2 t) (iblk1 V c 3 t) (iblk1 V c 4 t) (ix2 p q)
    = G1 V c (((cfg1.win 5).blk t).view.emb (ix2 p q))
  refine ((k1_pay1_at _ _ _ _ _ p q).trans ?_).trans (congrArg (G1 V c) hemb).symm
  rw [G1_ix2]
  unfold Cert.Gin.layer
  simp only [iblk1_0_at V c t p _ ⟨t.val * 256 + p.val, hr⟩ rfl, iblk1_1_at V c t, iblk1_2_at V c t p _ ⟨t.val * 256 + p.val, hr⟩ rfl,
    iblk1_3_at V c t, iblk1_4_at V c t]

/-- An index of the result array is in point t's block iff each coordinate is in the block's range on its axis. -/
theorem mem_blk1 (t : Fin cfg1.N) (i : S8192x64.Idx) :
    i ∈ ((cfg1.win 5).blk t).view.set ↔ ∀ a : Fin 2, win1_5.index t a * S256x64.size a ≤ (i a).val
      ∧ (i a).val < win1_5.index t a * S256x64.size a + S256x64.size a := by
  show i ∈ ((View.whole main_v3).slice (win1_5.rect t)).set ↔ _
  rw [View.set_slice_whole, Rect.mem_set_unit]
  exact Iff.rfl

/-- Row r of the result array is in the block of point r / 256. -/
theorem cover1 (i : S8192x64.Idx) :
    ∃ t : Fin cfg1.N, (cfg1.win 5).flush t = true ∧ i ∈ ((cfg1.win 5).blk t).view.set := by
  have hi0 : (i 0).val < 8192 := idx2_lt0 i
  have hi1 : (i 1).val < 64 := idx2_lt1 i
  have ht : (i 0).val / 256 < cfg1.N := by rw [show cfg1.N = 32 from N_1]; omega
  obtain ⟨-, -, -, -, -, -, -, -, -, -, e0, e1⟩ := idx_facts1 ⟨(i 0).val / 256, ht⟩
  refine ⟨⟨(i 0).val / 256, ht⟩, flush1_5 _, ?_⟩
  rw [mem_blk1]
  intro a
  match a with
  | ⟨0, _⟩ =>
    show win1_5.index ⟨(i 0).val / 256, ht⟩ (0 : Fin 2) * 256 ≤ (i 0).val
      ∧ (i 0).val < win1_5.index ⟨(i 0).val / 256, ht⟩ (0 : Fin 2) * 256 + 256
    rw [e0]; show (i 0).val / 256 * 256 ≤ (i 0).val ∧ (i 0).val < (i 0).val / 256 * 256 + 256; omega
  | ⟨1, _⟩ =>
    show win1_5.index ⟨(i 0).val / 256, ht⟩ (1 : Fin 2) * 64 ≤ (i 1).val
      ∧ (i 1).val < win1_5.index ⟨(i 0).val / 256, ht⟩ (1 : Fin 2) * 64 + 64
    rw [e1]; omega

/-- After region 1 its result array holds the layer of its arrays as it found them. -/
theorem final1 (c : Dev nD) : (dat1 V c).arrAt 5 cfg1.N = G1 V c :=
  (dat1 V c).arrAt_eq_of_cover 5 (G1 V c) (fun t _ => flushed1_eq V c t) cover1

end Cert.KernelIdeal.Final

end
-- ==== Proof.RefLayers.lean ====
/- The reference's two layers are the specification's layer, applied twice.

   The reference builds the identity matrix as "row number = column number" converted to a float, adds it to the
   adjacency matrix, multiplies by the features, adds zero times the features, multiplies by the weights, adds the bias
   and takes the maximum with zero: read at an index this is `Cert.Gin.layerRef`. Its second layer is the same chain of
   operations applied to the first layer's result. At finite inputs `layerRef` is `layer` (`Cert.Gin.layerRef_eq`), and
   the first layer's result is finite again (`Cert.Gin.layer_real`). -/
import proofs.«182046_j72232759984565_1_alg».proof.Proof.ReadP
import proofs.«182046_j72232759984565_1_alg».proof.Proof.GinSpec

noncomputable section

namespace Cert.RefLayers

open Idealize.ShloMosaic Idealize.ShloMosaic.ValueIdx Cert.ReferenceIdeal Cert.ReferenceIdeal.ReadP

/-! ## The identity matrix -/

/-- "Row number plus zero equals column number", converted to a float: the Kronecker delta. -/
theorem delta_word (a b : Nat) (ha : a < 2 ^ 32) (hb : b < 2 ^ 32) :
    (FloatOps.uitofp (F := Ideal) .f32 (IntOp.cmpi .eq (IntOp.addi (BitVec.ofNat 32 a) 0#32) (BitVec.ofNat 32 b)) : EReal)
      = if a = b then 1 else 0 := by
  have hadd : IntOp.addi (BitVec.ofNat 32 a) 0#32 = BitVec.ofNat 32 a := BitVec.add_zero _
  rw [hadd]
  by_cases h : a = b
  · subst h
    rw [if_pos rfl, IntOp.cmpi_eq.2 rfl]
    show (((1#1 : BitVec 1).toNat : ℝ) : EReal) = 1
    simp
  · have hne : ¬ BitVec.ofNat 32 a = BitVec.ofNat 32 b := by
      intro e
      have e' := congrArg BitVec.toNat e
      rw [BitVec.toNat_ofNat, BitVec.toNat_ofNat, Nat.mod_eq_of_lt ha, Nat.mod_eq_of_lt hb] at e'
      exact h e'
    rw [if_neg h, eq_zero_of_ne_one (fun e => hne (IntOp.cmpi_eq.1 e))]
    show (((0#1 : BitVec 1).toNat : ℝ) : EReal) = 0
    simp

/-- The identity matrix at row `p`, column `j`. -/
theorem v5_ix2 (p j : Fin 8192) :
    val_main_v5 (F := Ideal) (ix2 p j) = if p = j then (1 : EReal) else 0 := by
  rw [val_main_v5_apply, val_main_v4_apply, val_main_v3_apply, val_main_v2_apply, val_main_c_apply, val_main_v0_apply,
    val_main_v1_apply]
  refine (delta_word p.val j.val (by have := p.isLt; omega) (by have := j.isLt; omega)).trans ?_
  by_cases h : p = j
  · rw [if_pos h, if_pos (congrArg Fin.val h)]
  · rw [if_neg h, if_neg (fun e => h (Fin.ext e))]

/-! ## The operand indices of the two products and of the bias, by coordinates -/

theorem l7 (p : Fin 8192) (q : Fin 64) (j : Fin 8192) : lidx_main_v7 (ix2 p q) j = ix2 p j := by
  funext a; match a with | ⟨0, _⟩ => rfl | ⟨1, _⟩ => rfl

theorem r7 (p : Fin 8192) (q : Fin 64) (j : Fin 8192) : ridx_main_v7 (ix2 p q) j = ix2 j q := by
  funext a; match a with | ⟨0, _⟩ => rfl | ⟨1, _⟩ => rfl

theorem l11 (p : Fin 8192) (q k : Fin 64) : lidx_main_v11 (ix2 p q) k = ix2 p k := by
  funext a; match a with | ⟨0, _⟩ => rfl | ⟨1, _⟩ => rfl

theorem r11 (p : Fin 8192) (q k : Fin 64) : ridx_main_v11 (ix2 p q) k = ix2 k q := by
  funext a; match a with | ⟨0, _⟩ => rfl | ⟨1, _⟩ => rfl

theorem i13 (p : Fin 8192) (q : Fin 64) : idx_main_v12 (idx_main_v13 (ix2 p q)) = ix1 q := by
  funext a; match a with | ⟨0, _⟩ => rfl

/-! ## One layer of the reference, read at an index -/

section layer

variable (x0 : (⟨S8192x64, .f32⟩ : BufTy).Contents (Elt Ideal)) (x1 : (⟨S8192x8192, .f32⟩ : BufTy).Contents (Elt Ideal))
  (x3 : (⟨S64x64, .f32⟩ : BufTy).Contents (Elt Ideal)) (x4 : (⟨S64, .f32⟩ : BufTy).Contents (Elt Ideal))

/-- The adjacency matrix plus the identity. -/
theorem v6_ix2 (p j : Fin 8192) :
    val_main_v6 (F := Ideal) x1 (ix2 p j) = (x1 (ix2 p j) : EReal) + (if p = j then (1 : EReal) else 0) := by
  rw [val_main_v6_apply, v5_ix2, Ideal.addf_def]

/-- Its product with the features. -/
theorem v7_ix2 (p : Fin 8192) (q : Fin 64) :
    val_main_v7 (F := Ideal) x0 x1 (ix2 p q)
      = ∑ j : Fin 8192, ((x1 (ix2 p j) : EReal) + (if p = j then (1 : EReal) else 0)) * (x0 (ix2 j q) : EReal) := by
  rw [val_main_v7_apply]
  refine Finset.sum_congr rfl fun j _ => ?_
  rw [l7, r7, v6_ix2]

/-- … plus zero times the features. -/
theorem v10_ix2 (p : Fin 8192) (q : Fin 64) :
    val_main_v10 (F := Ideal) x0 x1 (ix2 p q)
      = (∑ j : Fin 8192, ((x1 (ix2 p j) : EReal) + (if p = j then (1 : EReal) else 0)) * (x0 (ix2 j q) : EReal))
        + (0 : EReal) * (x0 (ix2 p q) : EReal) := by
  rw [val_main_v10_apply, v7_ix2, val_main_v9_apply, val_main_v8_apply, val_main_cst_apply, Ideal.ofBits_def,
    Ideal.ofBits_zero_f32, Ideal.mulf_def, Ideal.addf_def]

/-- … times the weights. -/
theorem v11_ix2 (p : Fin 8192) (q : Fin 64) :
    val_main_v11 (F := Ideal) x0 x1 x3 (ix2 p q)
      = ∑ k : Fin 64, ((∑ j : Fin 8192, ((x1 (ix2 p j) : EReal) + (if p = j then (1 : EReal) else 0)) * (x0 (ix2 j k) : EReal))
          + (0 : EReal) * (x0 (ix2 p k) : EReal)) * (x3 (ix2 k q) : EReal) := by
  rw [val_main_v11_apply]
  refine Finset.sum_congr rfl fun k _ => ?_
  rw [l11, r11, v10_ix2]

/-- The bias, broadcast along the rows. -/
theorem v13_ix2 (p : Fin 8192) (q : Fin 64) : val_main_v13 (F := Ideal) x4 (ix2 p q) = x4 (ix1 q) := by
  rw [val_main_v13_apply, val_main_v12_apply, i13]

/-- The layer as the reference spells it. -/
theorem v15_ix2 (p : Fin 8192) (q : Fin 64) :
    val_main_v15 (F := Ideal) x0 x1 x3 x4 (ix2 p q)
      = Cert.Gin.layerRef (fun p j => x1 (ix2 p j)) (fun j k => x0 (ix2 j k)) (fun k q => x3 (ix2 k q))
          (fun q => x4 (ix1 q)) p q := by
  rw [val_main_v15_apply, val_main_v14_apply, v11_ix2, v13_ix2, val_main_call0_v0_apply, val_main_call0_cst_apply,
    Ideal.ofBits_def, Ideal.ofBits_zero_f32, Ideal.maximumf_def, Ideal.addf_def]
  rfl

/-- At finite adjacency and features the reference's layer is the specification's. -/
theorem v15_layer (h0 : ∀ i, ∃ r : ℝ, x0 i = (r : EReal)) (h1 : ∀ i, ∃ r : ℝ, x1 i = (r : EReal))
    (p : Fin 8192) (q : Fin 64) :
    val_main_v15 (F := Ideal) x0 x1 x3 x4 (ix2 p q)
      = Cert.Gin.layer (fun p j => x1 (ix2 p j)) (fun j k => x0 (ix2 j k)) (fun k q => x3 (ix2 k q))
          (fun q => x4 (ix1 q)) p q := by
  rw [v15_ix2, Cert.Gin.layerRef_eq (fun p j => h1 (ix2 p j)) (fun j k => h0 (ix2 j k))]

/-- At finite inputs the layer's result is finite. -/
theorem v15_real (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal))
    (i : S8192x64.Idx) : ∃ r : ℝ, val_main_v15 (F := Ideal) x0 x1 x3 x4 i = (r : EReal) := by
  obtain ⟨j, k, rfl⟩ : ∃ (j : Fin 8192) (k : Fin 64), i = ix2 j k := ⟨i 0, i 1, eq_ix2 i⟩
  rw [v15_layer x0 x1 x3 x4 h0 h1]
  exact Cert.Gin.layer_real (fun p j => h1 (ix2 p j)) (fun j k => h0 (ix2 j k)) (fun k q => h3 (ix2 k q))
    (fun q => h4 (ix1 q)) j k

end layer

/-! ## The two layers -/

/-- The reference's second layer is the same chain of operations as its first, applied to the first layer's result. -/
theorem v24_eq (x0 : (⟨S8192x64, .f32⟩ : BufTy).Contents (Elt Ideal)) (x1 : (⟨S8192x8192, .f32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v24 (F := Ideal) x0 x1 x3 x4 x5 x6
      = val_main_v15 (F := Ideal) (val_main_v15 (F := Ideal) x0 x1 x3 x4) x1 x5 x6 := rfl

theorem ref_layers_ix2 (x0 : (⟨S8192x64, .f32⟩ : BufTy).Contents (Elt Ideal)) (x1 : (⟨S8192x8192, .f32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal)) (p : Fin 8192) (q : Fin 64) :
    val_main_v24 (F := Ideal) x0 x1 x3 x4 x5 x6 (ix2 p q)
      = Cert.Gin.layer (fun p j => x1 (ix2 p j))
          (fun j k => Cert.Gin.layer (fun p j => x1 (ix2 p j)) (fun j k => x0 (ix2 j k)) (fun k q => x3 (ix2 k q))
            (fun q => x4 (ix1 q)) j k)
          (fun k q => x5 (ix2 k q)) (fun q => x6 (ix1 q)) p q := by
  have hH := v15_real x0 x1 x3 x4 h0 h1 h3 h4
  have e : (fun (j : Fin 8192) (k : Fin 64) => (val_main_v15 (F := Ideal) x0 x1 x3 x4 (ix2 j k) : EReal))
      = fun j k => Cert.Gin.layer (fun p j => x1 (ix2 p j)) (fun j k => x0 (ix2 j k)) (fun k q => x3 (ix2 k q))
          (fun q => x4 (ix1 q)) j k :=
    funext fun j => funext fun k => v15_layer x0 x1 x3 x4 h0 h1 j k
  refine (congrFun (v24_eq x0 x1 x3 x4 x5 x6) (ix2 p q)).trans
    ((v15_layer (val_main_v15 (F := Ideal) x0 x1 x3 x4) x1 x5 x6 hH h1 p q).trans ?_)
  exact congrArg (fun X => Cert.Gin.layer (fun p j => x1 (ix2 p j)) X (fun k q => x5 (ix2 k q)) (fun q => x6 (ix1 q)) p q) e

/-- The reference's value after its two layers: the specification's layer applied twice. -/
theorem ref_layers (x0 : (⟨S8192x64, .f32⟩ : BufTy).Contents (Elt Ideal)) (x1 : (⟨S8192x8192, .f32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal)) :
    val_main_v24 (F := Ideal) x0 x1 x3 x4 x5 x6
      = fun i => Cert.Gin.layer (fun p j => x1 (ix2 p j))
          (fun j k => Cert.Gin.layer (fun p j => x1 (ix2 p j)) (fun j k => x0 (ix2 j k)) (fun k q => x3 (ix2 k q))
            (fun q => x4 (ix1 q)) j k)
          (fun k q => x5 (ix2 k q)) (fun q => x6 (ix1 q)) (i 0) (i 1) := by
  funext i
  obtain ⟨p, q, rfl⟩ : ∃ (p : Fin 8192) (q : Fin 64), i = ix2 p q := ⟨i 0, i 1, eq_ix2 i⟩
  exact ref_layers_ix2 x0 x1 x3 x4 x5 x6 h0 h1 h3 h4 p q

end Cert.RefLayers

end
-- ==== Proof.IdealValue.lean ====
import proofs.«182046_j72232759984565_1_alg».proof.Proof.IdealRun
import proofs.«182046_j72232759984565_1_alg».proof.Proof.IdealFinal
import proofs.«182046_j72232759984565_1_alg».proof.Proof.RefLayers
import Idealize.ShloMosaic.Lib.StableHlo.Run
import Idealize.ShloMosaic.Lib.ValueIdx
import Idealize.ShloMosaic.Lib.ValueLayout

/-!
# What the two regions leave, in terms of the launch memory

Region 0 finds the adjacency matrix, the features and the first weights as launched and the first bias laid out as
a row; its result is one layer of them.  Region 1 finds the adjacency matrix and the second weights as launched, the
second bias as a row, and region 0's result as its features; its result is a layer of a layer.  For inputs that are
real numbers this is the reference's own value of its second layer, which is written with the identity matrix added
to the adjacency matrix and a zero multiple of the features added to the product.
-/

set_option maxRecDepth 16384

noncomputable section

namespace Cert.KernelIdeal.Bridge

open Cert.KernelIdeal Cert.KernelIdeal.Gen Cert.KernelIdeal.Layers Cert.KernelIdeal.Final
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## Region 0's entry -/

theorem in0_adj : In0 m c main_arg1 = m ((c.tc : Thread nD τ).loc main_arg1) := V1_of m c main_arg1 (by decide)
theorem in0_x : In0 m c main_arg0 = m ((c.tc : Thread nD τ).loc main_arg0) := V1_of m c main_arg0 (by decide)
theorem in0_w : In0 m c main_arg3 = m ((c.tc : Thread nD τ).loc main_arg3) := V1_of m c main_arg3 (by decide)

/-- The first bias, reshaped to a row, read at a column. -/
theorem in0_b (q : Fin 64) : In0 m c main_v0 (ix2 (0 : Fin 1) q) = m ((c.tc : Thread nD τ).loc main_arg4) (ix1 q) := by
  have e : V1 m c main_v0 = fun i => shapeCast S1x64 (m ((c.tc : Thread nD τ).loc main_arg4)) shapeCasts_S64_S1x64 i := by
    show StableHlo.after hostOps0 (V0 m c) (Proc.devRef .tc main_v0) = _
    after_results
    rfl
  show V1 m c main_v0 (ix2 (0 : Fin 1) q) = _
  rw [e]
  exact shapeCast_a_1a_apply _ _ 0 q

/-- Region 0's result: one layer of the launch contents. -/
theorem res0_eq : res0 m c = fun i => Cert.Gin.layer (fun p j => m ((c.tc : Thread nD τ).loc main_arg1) (ix2 p j))
    (fun j k => m ((c.tc : Thread nD τ).loc main_arg0) (ix2 j k)) (fun k q => m ((c.tc : Thread nD τ).loc main_arg3) (ix2 k q))
    (fun q => m ((c.tc : Thread nD τ).loc main_arg4) (ix1 q)) (i 0) (i 1) := by
  refine (final0 (In0 m) c).trans (funext fun i => ?_)
  have hA : (fun (p j : Fin 8192) => (In0 m c main_arg1 : S8192x8192.Idx → Elt Ideal .f32) (ix2 p j))
      = fun p j => m ((c.tc : Thread nD τ).loc main_arg1) (ix2 p j) := funext fun p => funext fun j => by rw [in0_adj]
  have hX : (fun (j : Fin 8192) (k : Fin 64) => (In0 m c main_arg0 : S8192x64.Idx → Elt Ideal .f32) (ix2 j k))
      = fun j k => m ((c.tc : Thread nD τ).loc main_arg0) (ix2 j k) := funext fun j => funext fun k => by rw [in0_x]
  have hW : (fun (k q : Fin 64) => (In0 m c main_arg3 : S64x64.Idx → Elt Ideal .f32) (ix2 k q))
      = fun k q => m ((c.tc : Thread nD τ).loc main_arg3) (ix2 k q) := funext fun k => funext fun q => by rw [in0_w]
  have hB : (fun (q : Fin 64) => (In0 m c main_v0 : S1x64.Idx → Elt Ideal .f32) (ix2 (0 : Fin 1) q))
      = fun q => m ((c.tc : Thread nD τ).loc main_arg4) (ix1 q) := funext fun q => in0_b m c q
  show Cert.Gin.layer (fun (p j : Fin 8192) => (In0 m c main_arg1 : S8192x8192.Idx → Elt Ideal .f32) (ix2 p j))
    (fun (j : Fin 8192) (k : Fin 64) => (In0 m c main_arg0 : S8192x64.Idx → Elt Ideal .f32) (ix2 j k))
    (fun (k q : Fin 64) => (In0 m c main_arg3 : S64x64.Idx → Elt Ideal .f32) (ix2 k q))
    (fun (q : Fin 64) => (In0 m c main_v0 : S1x64.Idx → Elt Ideal .f32) (ix2 (0 : Fin 1) q)) (i 0) (i 1) = _
  rw [hA, hX, hW, hB]

/-! ## Region 1's entry -/

theorem in1_adj : In1 m c main_arg1 = m ((c.tc : Thread nD τ).loc main_arg1) :=
  (V3_of m (outs0 m) c main_arg1 (by decide)).trans ((V2_of m (outs0 m) c main_arg1 (by decide)).trans (V1_of m c main_arg1 (by decide)))
theorem in1_w : In1 m c main_arg5 = m ((c.tc : Thread nD τ).loc main_arg5) :=
  (V3_of m (outs0 m) c main_arg5 (by decide)).trans ((V2_of m (outs0 m) c main_arg5 (by decide)).trans (V1_of m c main_arg5 (by decide)))
/-- Region 1's features are region 0's result. -/
theorem in1_x : In1 m c main_v1 = res0 m c := by
  refine (V3_of m (outs0 m) c main_v1 (by decide)).trans ?_
  show Function.update (V1 m c) main_v1 (Function.update (V1 m c) main_v1 (res0 m c) main_v1) main_v1 = _
  rw [Function.update_self, Function.update_self]

/-- The second bias, reshaped to a row, read at a column. -/
theorem in1_b (q : Fin 64) : In1 m c main_v2 (ix2 (0 : Fin 1) q) = m ((c.tc : Thread nD τ).loc main_arg6) (ix1 q) := by
  have e : V3 m (outs0 m) c main_v2 = fun i => shapeCast S1x64 (V2 m (outs0 m) c main_arg6) shapeCasts_S64_S1x64 i := by
    show StableHlo.after hostOps1 (V2 m (outs0 m) c) (Proc.devRef .tc main_v2) = _
    after_results
    rfl
  have e6 : V2 m (outs0 m) c main_arg6 = m ((c.tc : Thread nD τ).loc main_arg6) :=
    (V2_of m (outs0 m) c main_arg6 (by decide)).trans (V1_of m c main_arg6 (by decide))
  show V3 m (outs0 m) c main_v2 (ix2 (0 : Fin 1) q) = _
  rw [e, e6]
  exact shapeCast_a_1a_apply _ _ 0 q

/-- Region 1's result: a layer of a layer of the launch contents. -/
theorem res1_eq : res1 m c = fun i => Cert.Gin.layer (fun p j => m ((c.tc : Thread nD τ).loc main_arg1) (ix2 p j))
    (fun j k => Cert.Gin.layer (fun p j => m ((c.tc : Thread nD τ).loc main_arg1) (ix2 p j))
      (fun j k => m ((c.tc : Thread nD τ).loc main_arg0) (ix2 j k)) (fun k q => m ((c.tc : Thread nD τ).loc main_arg3) (ix2 k q))
      (fun q => m ((c.tc : Thread nD τ).loc main_arg4) (ix1 q)) j k)
    (fun k q => m ((c.tc : Thread nD τ).loc main_arg5) (ix2 k q)) (fun q => m ((c.tc : Thread nD τ).loc main_arg6) (ix1 q)) (i 0) (i 1) := by
  refine (final1 (In1 m) c).trans (funext fun i => ?_)
  have hA : (fun (p j : Fin 8192) => (In1 m c main_arg1 : S8192x8192.Idx → Elt Ideal .f32) (ix2 p j))
      = fun p j => m ((c.tc : Thread nD τ).loc main_arg1) (ix2 p j) := funext fun p => funext fun j => by rw [in1_adj]
  have hX : (fun (j : Fin 8192) (k : Fin 64) => (In1 m c main_v1 : S8192x64.Idx → Elt Ideal .f32) (ix2 j k))
      = fun j k => Cert.Gin.layer (fun p j => m ((c.tc : Thread nD τ).loc main_arg1) (ix2 p j))
          (fun j k => m ((c.tc : Thread nD τ).loc main_arg0) (ix2 j k)) (fun k q => m ((c.tc : Thread nD τ).loc main_arg3) (ix2 k q))
          (fun q => m ((c.tc : Thread nD τ).loc main_arg4) (ix1 q)) j k :=
    funext fun j => funext fun k => by rw [in1_x, res0_eq]; rfl
  have hW : (fun (k q : Fin 64) => (In1 m c main_arg5 : S64x64.Idx → Elt Ideal .f32) (ix2 k q))
      = fun k q => m ((c.tc : Thread nD τ).loc main_arg5) (ix2 k q) := funext fun k => funext fun q => by rw [in1_w]
  have hB : (fun (q : Fin 64) => (In1 m c main_v2 : S1x64.Idx → Elt Ideal .f32) (ix2 (0 : Fin 1) q))
      = fun q => m ((c.tc : Thread nD τ).loc main_arg6) (ix1 q) := funext fun q => in1_b m c q
  show Cert.Gin.layer (fun (p j : Fin 8192) => (In1 m c main_arg1 : S8192x8192.Idx → Elt Ideal .f32) (ix2 p j))
    (fun (j : Fin 8192) (k : Fin 64) => (In1 m c main_v1 : S8192x64.Idx → Elt Ideal .f32) (ix2 j k))
    (fun (k q : Fin 64) => (In1 m c main_arg5 : S64x64.Idx → Elt Ideal .f32) (ix2 k q))
    (fun (q : Fin 64) => (In1 m c main_v2 : S1x64.Idx → Elt Ideal .f32) (ix2 (0 : Fin 1) q)) (i 0) (i 1) = _
  rw [hA, hX, hW, hB]

/-- For real inputs, what region 1 leaves in its result array is the reference's value of its second layer. -/
theorem second_layer
    (h0 : ∀ i, ∃ r : ℝ, m ((c.tc : Thread nD τ).loc main_arg0) i = (r : EReal))
    (h1 : ∀ i, ∃ r : ℝ, m ((c.tc : Thread nD τ).loc main_arg1) i = (r : EReal))
    (h3 : ∀ i, ∃ r : ℝ, m ((c.tc : Thread nD τ).loc main_arg3) i = (r : EReal))
    (h4 : ∀ i, ∃ r : ℝ, m ((c.tc : Thread nD τ).loc main_arg4) i = (r : EReal)) :
    V4 m (outs m) c main_v3 = Cert.ReferenceIdeal.ReadP.val_main_v24 (F := Ideal) (m ((c.tc : Thread nD τ).loc main_arg0))
      (m ((c.tc : Thread nD τ).loc main_arg1)) (m ((c.tc : Thread nD τ).loc main_arg3)) (m ((c.tc : Thread nD τ).loc main_arg4))
      (m ((c.tc : Thread nD τ).loc main_arg5)) (m ((c.tc : Thread nD τ).loc main_arg6)) := by
  have e : V4 m (outs m) c main_v3 = res1 m c := by
    show Function.update (V3 m (outs m) c) main_v3 (outs m 4 main_v3 c) main_v3 = _
    rw [Function.update_self, outs_4]
  rw [e, res1_eq]
  exact (Cert.RefLayers.ref_layers _ _ _ _ _ _ h0 h1 h3 h4).symm

end Cert.KernelIdeal.Bridge

end
-- ==== Proof.IdealTail.lean ====
/- The kernel program's pooling tail is the reference's, operation for operation.

   After its two layers the kernel program runs, on the host, the same operations as the reference runs after its own two
   layers: a segment sum, then five rounds of "normalize, gather per node, weight, segment-sum again", then the
   singular value, the projection onto the classes and the log-softmax. Each stretch of host operations reads a few
   buffers written before it (the previous stretch's result, the layers' result, the segment ids, and at the end the
   classifier's weights and bias) and is a fixed composition of array operations of those. The reference's stage
   functions are the same compositions, so once the layers' results agree, every later buffer agrees, stretch by
   stretch. No stretch's term is ever unfolded into the next: each is proved over an arbitrary valuation from what it
   reads. -/
import proofs.«182046_j72232759984565_1_alg».proof.Proof.Gen.KernelIdeal.Regions
import proofs.«182046_j72232759984565_1_alg».proof.Proof.ReadP
import Idealize.ShloMosaic.Lib.StableHlo.Run

set_option maxRecDepth 1444

noncomputable section

namespace Cert.IdealTail

open Idealize.ShloMosaic Idealize.ShloMosaic.TcCoe Idealize.SL.Sem Idealize.ShloMosaic.StableHlo
open Cert.KernelIdeal Cert.KernelIdeal.Gen Cert.ReferenceIdeal.ReadP

variable {F : FTy → Type} [FloatOps F]

/-! ## Each stretch, over an arbitrary valuation, from the buffers it reads -/

section stretches

variable (x0 : (⟨Cert.ReferenceIdeal.S8192x64, .f32⟩ : BufTy).Contents (Elt F))
  (x1 : (⟨Cert.ReferenceIdeal.S8192x8192, .f32⟩ : BufTy).Contents (Elt F))
  (x2 : (⟨Cert.ReferenceIdeal.S8192, .i32⟩ : BufTy).Contents (Elt F))
  (x3 : (⟨Cert.ReferenceIdeal.S64x64, .f32⟩ : BufTy).Contents (Elt F))
  (x4 : (⟨Cert.ReferenceIdeal.S64, .f32⟩ : BufTy).Contents (Elt F))
  (x5 : (⟨Cert.ReferenceIdeal.S64x64, .f32⟩ : BufTy).Contents (Elt F))
  (x6 : (⟨Cert.ReferenceIdeal.S64, .f32⟩ : BufTy).Contents (Elt F))
  (x7 : (⟨Cert.ReferenceIdeal.S64x10, .f32⟩ : BufTy).Contents (Elt F))
  (x8 : (⟨Cert.ReferenceIdeal.S10, .f32⟩ : BufTy).Contents (Elt F))
  (W : Valuation τ sig (Elt F))

/-- The first segment sum of the layers' result. -/
theorem st0 (h2 : W (Proc.devRef .tc main_arg2) = x2)
    (h3 : W (Proc.devRef .tc main_v3) = val_main_v24 (F := F) x0 x1 x3 x4 x5 x6) :
    StableHlo.after hostOps2 W (Proc.devRef .tc main_v6) = val_main_v27 (F := F) x0 x1 x2 x3 x4 x5 x6 := by
  after_results
  rw [h2, h3]
  rfl

/-- The row norms of the first segment sum. -/
theorem st1 (h6 : W (Proc.devRef .tc main_v6) = val_main_v27 (F := F) x0 x1 x2 x3 x4 x5 x6) :
    StableHlo.after hostOps2_1 W (Proc.devRef .tc main_v7) = val_main_v28 (F := F) x0 x1 x2 x3 x4 x5 x6 := by
  after_results
  rw [h6]
  rfl

/-- Round 1: normalize, gather per node, weight the layers' result, segment-sum. -/
theorem st2 (h2 : W (Proc.devRef .tc main_arg2) = x2)
    (h3 : W (Proc.devRef .tc main_v3) = val_main_v24 (F := F) x0 x1 x3 x4 x5 x6)
    (h6 : W (Proc.devRef .tc main_v6) = val_main_v27 (F := F) x0 x1 x2 x3 x4 x5 x6)
    (h7 : W (Proc.devRef .tc main_v7) = val_main_v28 (F := F) x0 x1 x2 x3 x4 x5 x6) :
    StableHlo.after hostOps2_2 W (Proc.devRef .tc main_v26) = val_main_v47 (F := F) x0 x1 x2 x3 x4 x5 x6 := by
  after_results_simp
  rw [h2, h3, h6, h7]
  rfl

/-- The row norms after round 1. -/
theorem st3 (h26 : W (Proc.devRef .tc main_v26) = val_main_v47 (F := F) x0 x1 x2 x3 x4 x5 x6) :
    StableHlo.after hostOps2_3 W (Proc.devRef .tc main_v27) = val_main_v48 (F := F) x0 x1 x2 x3 x4 x5 x6 := by
  after_results
  rw [h26]
  rfl

/-- Round 2. -/
theorem st4 (h2 : W (Proc.devRef .tc main_arg2) = x2)
    (h3 : W (Proc.devRef .tc main_v3) = val_main_v24 (F := F) x0 x1 x3 x4 x5 x6)
    (h26 : W (Proc.devRef .tc main_v26) = val_main_v47 (F := F) x0 x1 x2 x3 x4 x5 x6)
    (h27 : W (Proc.devRef .tc main_v27) = val_main_v48 (F := F) x0 x1 x2 x3 x4 x5 x6) :
    StableHlo.after hostOps2_4 W (Proc.devRef .tc main_v46) = val_main_v67 (F := F) x0 x1 x2 x3 x4 x5 x6 := by
  after_results_simp
  rw [h2, h3, h26, h27]
  rfl

/-- The row norms after round 2. -/
theorem st5 (h46 : W (Proc.devRef .tc main_v46) = val_main_v67 (F := F) x0 x1 x2 x3 x4 x5 x6) :
    StableHlo.after hostOps2_5 W (Proc.devRef .tc main_v47) = val_main_v68 (F := F) x0 x1 x2 x3 x4 x5 x6 := by
  after_results
  rw [h46]
  rfl

/-- Round 3. -/
theorem st6 (h2 : W (Proc.devRef .tc main_arg2) = x2)
    (h3 : W (Proc.devRef .tc main_v3) = val_main_v24 (F := F) x0 x1 x3 x4 x5 x6)
    (h46 : W (Proc.devRef .tc main_v46) = val_main_v67 (F := F) x0 x1 x2 x3 x4 x5 x6)
    (h47 : W (Proc.devRef .tc main_v47) = val_main_v68 (F := F) x0 x1 x2 x3 x4 x5 x6) :
    StableHlo.after hostOps2_6 W (Proc.devRef .tc main_v66) = val_main_v87 (F := F) x0 x1 x2 x3 x4 x5 x6 := by
  after_results_simp
  rw [h2, h3, h46, h47]
  rfl

/-- The row norms after round 3. -/
theorem st7 (h66 : W (Proc.devRef .tc main_v66) = val_main_v87 (F := F) x0 x1 x2 x3 x4 x5 x6) :
    StableHlo.after hostOps2_7 W (Proc.devRef .tc main_v67) = val_main_v88 (F := F) x0 x1 x2 x3 x4 x5 x6 := by
  after_results
  rw [h66]
  rfl

/-- Round 4. -/
theorem st8 (h2 : W (Proc.devRef .tc main_arg2) = x2)
    (h3 : W (Proc.devRef .tc main_v3) = val_main_v24 (F := F) x0 x1 x3 x4 x5 x6)
    (h66 : W (Proc.devRef .tc main_v66) = val_main_v87 (F := F) x0 x1 x2 x3 x4 x5 x6)
    (h67 : W (Proc.devRef .tc main_v67) = val_main_v88 (F := F) x0 x1 x2 x3 x4 x5 x6) :
    StableHlo.after hostOps2_8 W (Proc.devRef .tc main_v86) = val_main_v107 (F := F) x0 x1 x2 x3 x4 x5 x6 := by
  after_results_simp
  rw [h2, h3, h66, h67]
  rfl

/-- The row norms after round 4. -/
theorem st9 (h86 : W (Proc.devRef .tc main_v86) = val_main_v107 (F := F) x0 x1 x2 x3 x4 x5 x6) :
    StableHlo.after hostOps2_9 W (Proc.devRef .tc main_v87) = val_main_v108 (F := F) x0 x1 x2 x3 x4 x5 x6 := by
  after_results
  rw [h86]
  rfl

/-- Round 5. -/
theorem st10 (h2 : W (Proc.devRef .tc main_arg2) = x2)
    (h3 : W (Proc.devRef .tc main_v3) = val_main_v24 (F := F) x0 x1 x3 x4 x5 x6)
    (h86 : W (Proc.devRef .tc main_v86) = val_main_v107 (F := F) x0 x1 x2 x3 x4 x5 x6)
    (h87 : W (Proc.devRef .tc main_v87) = val_main_v108 (F := F) x0 x1 x2 x3 x4 x5 x6) :
    StableHlo.after hostOps2_10 W (Proc.devRef .tc main_v106) = val_main_v127 (F := F) x0 x1 x2 x3 x4 x5 x6 := by
  after_results_simp
  rw [h2, h3, h86, h87]
  rfl

/-- The row norms after round 5. -/
theorem st11 (h106 : W (Proc.devRef .tc main_v106) = val_main_v127 (F := F) x0 x1 x2 x3 x4 x5 x6) :
    StableHlo.after hostOps2_11 W (Proc.devRef .tc main_v107) = val_main_v128 (F := F) x0 x1 x2 x3 x4 x5 x6 := by
  after_results
  rw [h106]
  rfl

/-- The singular value, the pooled features and their projection onto the classes. -/
theorem st12 (h2 : W (Proc.devRef .tc main_arg2) = x2)
    (h3 : W (Proc.devRef .tc main_v3) = val_main_v24 (F := F) x0 x1 x3 x4 x5 x6)
    (h106 : W (Proc.devRef .tc main_v106) = val_main_v127 (F := F) x0 x1 x2 x3 x4 x5 x6)
    (h107 : W (Proc.devRef .tc main_v107) = val_main_v128 (F := F) x0 x1 x2 x3 x4 x5 x6)
    (h7 : W (Proc.devRef .tc main_arg7) = x7) (h8 : W (Proc.devRef .tc main_arg8) = x8) :
    StableHlo.after hostOps2_12 W (Proc.devRef .tc main_v134)
      = val_main_v155 (F := F) x0 x1 x2 x3 x4 x5 x6 x7 x8 := by
  after_results_simp
  rw [h2, h3, h106, h107, h7, h8]
  rfl

/-- The log-softmax. -/
theorem st13 (h134 : W (Proc.devRef .tc main_v134) = val_main_v155 (F := F) x0 x1 x2 x3 x4 x5 x6 x7 x8) :
    StableHlo.after hostOps2_13 W (Proc.devRef .tc main_v135)
      = val_main_v156 (F := F) x0 x1 x2 x3 x4 x5 x6 x7 x8 := by
  after_results
  rw [h134]
  rfl

end stretches

/-! ## What the stretches read, carried along the items -/

section chain

variable (m : (ℓ : Loc nD τ sig) → Buf (Elt F) ℓ) (outs : Outs (F := F)) (c : Dev nD)

/-- The segment ids are never written. -/
theorem arg2_4 : V4 m outs c main_arg2 = m ((c.tc : Thread nD τ).loc main_arg2) :=
  (V4_of m outs c main_arg2 (by decide)).trans <| (V3_of m outs c main_arg2 (by decide)).trans <|
    (V2_of m outs c main_arg2 (by decide)).trans <| (V1_of m c main_arg2 (by decide)).trans rfl
theorem arg2_6 : V6 m outs c main_arg2 = m ((c.tc : Thread nD τ).loc main_arg2) :=
  (V6_of m outs c main_arg2 (by decide)).trans <| (V5_of m outs c main_arg2 (by decide)).trans (arg2_4 m outs c)
theorem arg2_8 : V8 m outs c main_arg2 = m ((c.tc : Thread nD τ).loc main_arg2) :=
  (V8_of m outs c main_arg2 (by decide)).trans <| (V7_of m outs c main_arg2 (by decide)).trans (arg2_6 m outs c)
theorem arg2_10 : V10 m outs c main_arg2 = m ((c.tc : Thread nD τ).loc main_arg2) :=
  (V10_of m outs c main_arg2 (by decide)).trans <| (V9_of m outs c main_arg2 (by decide)).trans (arg2_8 m outs c)
theorem arg2_12 : V12 m outs c main_arg2 = m ((c.tc : Thread nD τ).loc main_arg2) :=
  (V12_of m outs c main_arg2 (by decide)).trans <| (V11_of m outs c main_arg2 (by decide)).trans (arg2_10 m outs c)
theorem arg2_14 : V14 m outs c main_arg2 = m ((c.tc : Thread nD τ).loc main_arg2) :=
  (V14_of m outs c main_arg2 (by decide)).trans <| (V13_of m outs c main_arg2 (by decide)).trans (arg2_12 m outs c)
theorem arg2_16 : V16 m outs c main_arg2 = m ((c.tc : Thread nD τ).loc main_arg2) :=
  (V16_of m outs c main_arg2 (by decide)).trans <| (V15_of m outs c main_arg2 (by decide)).trans (arg2_14 m outs c)

/-- Nor are the classifier's weights … -/
theorem arg7_16 : V16 m outs c main_arg7 = m ((c.tc : Thread nD τ).loc main_arg7) :=
  (V16_of m outs c main_arg7 (by decide)).trans <| (V15_of m outs c main_arg7 (by decide)).trans <|
    (V14_of m outs c main_arg7 (by decide)).trans <| (V13_of m outs c main_arg7 (by decide)).trans <|
    (V12_of m outs c main_arg7 (by decide)).trans <| (V11_of m outs c main_arg7 (by decide)).trans <|
    (V10_of m outs c main_arg7 (by decide)).trans <| (V9_of m outs c main_arg7 (by decide)).trans <|
    (V8_of m outs c main_arg7 (by decide)).trans <| (V7_of m outs c main_arg7 (by decide)).trans <|
    (V6_of m outs c main_arg7 (by decide)).trans <| (V5_of m outs c main_arg7 (by decide)).trans <|
    (V4_of m outs c main_arg7 (by decide)).trans <| (V3_of m outs c main_arg7 (by decide)).trans <|
    (V2_of m outs c main_arg7 (by decide)).trans <| (V1_of m c main_arg7 (by decide)).trans rfl

/-- … and bias. -/
theorem arg8_16 : V16 m outs c main_arg8 = m ((c.tc : Thread nD τ).loc main_arg8) :=
  (V16_of m outs c main_arg8 (by decide)).trans <| (V15_of m outs c main_arg8 (by decide)).trans <|
    (V14_of m outs c main_arg8 (by decide)).trans <| (V13_of m outs c main_arg8 (by decide)).trans <|
    (V12_of m outs c main_arg8 (by decide)).trans <| (V11_of m outs c main_arg8 (by decide)).trans <|
    (V10_of m outs c main_arg8 (by decide)).trans <| (V9_of m outs c main_arg8 (by decide)).trans <|
    (V8_of m outs c main_arg8 (by decide)).trans <| (V7_of m outs c main_arg8 (by decide)).trans <|
    (V6_of m outs c main_arg8 (by decide)).trans <| (V5_of m outs c main_arg8 (by decide)).trans <|
    (V4_of m outs c main_arg8 (by decide)).trans <| (V3_of m outs c main_arg8 (by decide)).trans <|
    (V2_of m outs c main_arg8 (by decide)).trans <| (V1_of m c main_arg8 (by decide)).trans rfl

/-- No host stretch writes the layers' result. -/
theorem v3_6 : V6 m outs c main_v3 = V4 m outs c main_v3 :=
  (V6_of m outs c main_v3 (by decide)).trans (V5_of m outs c main_v3 (by decide))
theorem v3_8 : V8 m outs c main_v3 = V4 m outs c main_v3 :=
  (V8_of m outs c main_v3 (by decide)).trans <| (V7_of m outs c main_v3 (by decide)).trans (v3_6 m outs c)
theorem v3_10 : V10 m outs c main_v3 = V4 m outs c main_v3 :=
  (V10_of m outs c main_v3 (by decide)).trans <| (V9_of m outs c main_v3 (by decide)).trans (v3_8 m outs c)
theorem v3_12 : V12 m outs c main_v3 = V4 m outs c main_v3 :=
  (V12_of m outs c main_v3 (by decide)).trans <| (V11_of m outs c main_v3 (by decide)).trans (v3_10 m outs c)
theorem v3_14 : V14 m outs c main_v3 = V4 m outs c main_v3 :=
  (V14_of m outs c main_v3 (by decide)).trans <| (V13_of m outs c main_v3 (by decide)).trans (v3_12 m outs c)
theorem v3_16 : V16 m outs c main_v3 = V4 m outs c main_v3 :=
  (V16_of m outs c main_v3 (by decide)).trans <| (V15_of m outs c main_v3 (by decide)).trans (v3_14 m outs c)

/-! ## The tail -/

/-- Once the kernel's two layers leave what the reference's leave, the kernel's result is the reference's. -/
theorem tail_eq
    (hH : V4 m outs c main_v3
      = val_main_v24 (F := F) (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6))) :
    V18 m outs c main_v135
      = val_main_v156 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  have L5 := st0 _ _ _ _ _ _ _ (V4 m outs c) (arg2_4 m outs c) hH
  have L6 := st1 _ _ _ _ _ _ _ (V5 m outs c) L5
  have L7 := st2 _ _ _ _ _ _ _ (V6 m outs c) (arg2_6 m outs c) ((v3_6 m outs c).trans hH)
    ((V6_of m outs c main_v6 (by decide)).trans L5) L6
  have L8 := st3 _ _ _ _ _ _ _ (V7 m outs c) L7
  have L9 := st4 _ _ _ _ _ _ _ (V8 m outs c) (arg2_8 m outs c) ((v3_8 m outs c).trans hH)
    ((V8_of m outs c main_v26 (by decide)).trans L7) L8
  have L10 := st5 _ _ _ _ _ _ _ (V9 m outs c) L9
  have L11 := st6 _ _ _ _ _ _ _ (V10 m outs c) (arg2_10 m outs c) ((v3_10 m outs c).trans hH)
    ((V10_of m outs c main_v46 (by decide)).trans L9) L10
  have L12 := st7 _ _ _ _ _ _ _ (V11 m outs c) L11
  have L13 := st8 _ _ _ _ _ _ _ (V12 m outs c) (arg2_12 m outs c) ((v3_12 m outs c).trans hH)
    ((V12_of m outs c main_v66 (by decide)).trans L11) L12
  have L14 := st9 _ _ _ _ _ _ _ (V13 m outs c) L13
  have L15 := st10 _ _ _ _ _ _ _ (V14 m outs c) (arg2_14 m outs c) ((v3_14 m outs c).trans hH)
    ((V14_of m outs c main_v86 (by decide)).trans L13) L14
  have L16 := st11 _ _ _ _ _ _ _ (V15 m outs c) L15
  have L17 := st12 _ _ _ _ _ _ _ _ _ (V16 m outs c) (arg2_16 m outs c) ((v3_16 m outs c).trans hH)
    ((V16_of m outs c main_v106 (by decide)).trans L15) L16 (arg7_16 m outs c) (arg8_16 m outs c)
  exact st13 _ _ _ _ _ _ _ _ _ (V17 m outs c) L17

end chain

end Cert.IdealTail

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.Finite.lean ====
/- From the precondition to finiteness. The precondition is the conjunction of eight tests "every entry of the array has
   absolute value below +∞", one per float argument, and says the conjunction is 1. Over the extended reals an entry whose
   absolute value is below +∞ is a real number. So under the precondition every entry of every float argument is a real. -/
import proofs.«182046_j72232759984565_1_alg».proof.Pre_finite_inputs
import proofs.«182046_j72232759984565_1_alg».proof.Proof.LibFinite
import Idealize.ShloMosaic.Lib.ReduceAll
import Idealize.ShloMosaic.Lib.ValueIdx

noncomputable section

namespace Cert.Finite

open Idealize.ShloMosaic Cert.Pre_finite_inputs Cert.Lib.Finite

/-- One test "all entries have absolute value below +∞" that came out 1: every entry of `x` is a real. -/
theorem real_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi (cmpf .olt (Host.absf x) (broadcastInDim s ![] bc (constant S_ .f32 0x7F800000#32)))
          (constantI S_ 1 1#1) hr hu ValueIdx.ix0 = 1#1) (i : s.Idx) : ∃ r : ℝ, x i = (r : EReal) := by
  have h := Host.reduce_andi_all _ _ hr hu ValueIdx.ix0 e i
  exact real_of_cmp (x i) h

variable [Facts]

/-- Under the precondition every entry of every float argument is a real. -/
theorem reals_of_pre (a0 : FVec Ideal S8192x64 .f32) (a1 : FVec Ideal S8192x8192 .f32) (a2 : IVec S8192 32)
    (a3 : FVec Ideal S64x64 .f32) (a4 : FVec Ideal S64 .f32) (a5 : FVec Ideal S64x64 .f32) (a6 : FVec Ideal S64 .f32)
    (a7 : FVec Ideal S64x10 .f32) (a8 : FVec Ideal S10 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) := by
  have h0 := congrFun h ValueIdx.ix0
  dsimp only [fn, fn_part1, fn_part2, andi] at h0
  simp only [IntOp.andi_eq_one] at h0
  obtain ⟨⟨⟨⟨⟨⟨⟨e0, e1⟩, e3⟩, e4⟩, e5⟩, e6⟩, e7⟩, e8⟩ := h0
  exact ⟨real_of_all a0 _ _ _ e0, real_of_all a1 _ _ _ e1, real_of_all a3 _ _ _ e3, real_of_all a4 _ _ _ e4,
    real_of_all a5 _ _ _ e5, real_of_all a6 _ _ _ e6, real_of_all a7 _ _ _ e7, real_of_all a8 _ _ _ e8⟩

end Cert.Finite

end
-- ==== Proof.lean ====
/-
  The claim: the kernel program, its reading at the extended reals, and the reference all run to the end leaving
  their nine arguments as launched; the reading at the extended reals rewrites nothing (so there is nothing to
  preserve); and, for finite inputs, the kernel's result equals the reference's, entry by entry.

  The mathematics.  Both programs compute two graph-convolution layers
      h1 = relu ((adj x + x) W1 + b1),   h2 = relu ((adj h1 + h1) W2 + b2)
  and then one and the same pooling tail of h2 (segment sums, five power iterations, a product with the last
  weights, a log-softmax).  The kernel computes a layer tile by tile, 256 rows at a time, as adj x + x; the reference
  as (adj + I) x + 0 x.  Over the extended reals the two agree when adj and x are real numbers: then
  (adj + I) x = adj x + x by distributivity, which fails at infinities, and 0 x = 0.  The first layer of real inputs
  is real, so the second layers agree as well; this is where the precondition is used.  The tail is not opened:
  operation by operation the kernel's tail applies the reference's operation to the reference's value, so equal
  second layers give equal results.
-/
import proofs.«182046_j72232759984565_1_alg».proof.Defs
import proofs.«182046_j72232759984565_1_alg».proof.Proof.Gen.Kernel
import proofs.«182046_j72232759984565_1_alg».proof.Proof.Gen.KernelIdeal
import proofs.«182046_j72232759984565_1_alg».proof.Proof.Gen.ReferenceIdeal
import proofs.«182046_j72232759984565_1_alg».proof.Proof.Gen.Pre_finite_inputs
import proofs.«182046_j72232759984565_1_alg».proof.Proof.Frames
import proofs.«182046_j72232759984565_1_alg».proof.Proof.IdealValue
import proofs.«182046_j72232759984565_1_alg».proof.Proof.IdealTail
import proofs.«182046_j72232759984565_1_alg».proof.Proof.RefValue
import proofs.«182046_j72232759984565_1_alg».proof.Proof.Finite
import Idealize.ShloMosaic.Adequacy
import Idealize.ShloMosaic.Init

noncomputable section

namespace Cert.Proof

open Idealize.ShloMosaic Idealize.ShloMosaic.TcCoe Idealize.SL.Sem

/-- For finite inputs the kernel's result, read at the extended reals, is the reference's: both end at the
    reference's last stage of the nine arguments. -/
theorem algebraic : Cert.algebraic_KernelIdeal_ReferenceIdeal := by
  intro m ρ m' ρ' hpre hagree
  refine ⟨fun c => Cert.ReferenceIdeal.ReadP.val_main_v156 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)), ?_, ?_⟩
  · -- the kernel: the run of its items; the second region's result is the reference's second layer, then the tail
    refine (θ_run Cert.KernelIdeal.defs _ _).mono (fun r h c => ?_) (Cert.KernelIdeal.Layers.run_all (F := Ideal) m ρ)
    obtain ⟨h0, h1, h3, h4, -⟩ := Cert.Finite.reals_of_pre _ _ _ _ _ _ _ _ _ (hpre c)
    exact ⟨(h c _ (Cert.KernelIdeal.Layers.mem_uc Cert.KernelIdeal.main_v135 (by decide))).trans
        (Cert.IdealTail.tail_eq m (Cert.KernelIdeal.Layers.outs m) c (Cert.KernelIdeal.Bridge.second_layer m c h0 h1 h3 h4)),
      (h c _ (Cert.KernelIdeal.Layers.mem_uc Cert.KernelIdeal.main_arg0 (by decide))).trans (Cert.KernelIdeal.Gen.V18_main_arg0 m (Cert.KernelIdeal.Layers.outs m) c),
      (h c _ (Cert.KernelIdeal.Layers.mem_uc Cert.KernelIdeal.main_arg1 (by decide))).trans (Cert.KernelIdeal.Gen.V18_main_arg1 m (Cert.KernelIdeal.Layers.outs m) c),
      (h c _ (Cert.KernelIdeal.Layers.mem_uc Cert.KernelIdeal.main_arg2 (by decide))).trans (Cert.KernelIdeal.Gen.V18_main_arg2 m (Cert.KernelIdeal.Layers.outs m) c),
      (h c _ (Cert.KernelIdeal.Layers.mem_uc Cert.KernelIdeal.main_arg3 (by decide))).trans (Cert.KernelIdeal.Gen.V18_main_arg3 m (Cert.KernelIdeal.Layers.outs m) c),
      (h c _ (Cert.KernelIdeal.Layers.mem_uc Cert.KernelIdeal.main_arg4 (by decide))).trans (Cert.KernelIdeal.Gen.V18_main_arg4 m (Cert.KernelIdeal.Layers.outs m) c),
      (h c _ (Cert.KernelIdeal.Layers.mem_uc Cert.KernelIdeal.main_arg5 (by decide))).trans (Cert.KernelIdeal.Gen.V18_main_arg5 m (Cert.KernelIdeal.Layers.outs m) c),
      (h c _ (Cert.KernelIdeal.Layers.mem_uc Cert.KernelIdeal.main_arg6 (by decide))).trans (Cert.KernelIdeal.Gen.V18_main_arg6 m (Cert.KernelIdeal.Layers.outs m) c),
      (h c _ (Cert.KernelIdeal.Layers.mem_uc Cert.KernelIdeal.main_arg7 (by decide))).trans (Cert.KernelIdeal.Gen.V18_main_arg7 m (Cert.KernelIdeal.Layers.outs m) c),
      (h c _ (Cert.KernelIdeal.Layers.mem_uc Cert.KernelIdeal.main_arg8 (by decide))).trans (Cert.KernelIdeal.Gen.V18_main_arg8 m (Cert.KernelIdeal.Layers.outs m) c)⟩
  · -- the reference: its own frame, and its result stage by stage, at arguments that agree with the kernel's
    refine (θ_run Cert.ReferenceIdeal.defs _ _).mono (fun r h c => ?_) (Cert.ReferenceIdeal.RunP.run_raw (F := Ideal) m' ρ')
    have e := (h c Cert.ReferenceIdeal.main_v156).trans (Cert.ReferenceIdeal.RefValue.ref_value m' c)
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2] at e
    exact ⟨e,
      (h c Cert.ReferenceIdeal.main_arg0).trans (Cert.ReferenceIdeal.RefValue.ref_arg0 m' c),
      (h c Cert.ReferenceIdeal.main_arg1).trans (Cert.ReferenceIdeal.RefValue.ref_arg1 m' c),
      (h c Cert.ReferenceIdeal.main_arg2).trans (Cert.ReferenceIdeal.RefValue.ref_arg2 m' c),
      (h c Cert.ReferenceIdeal.main_arg3).trans (Cert.ReferenceIdeal.RefValue.ref_arg3 m' c),
      (h c Cert.ReferenceIdeal.main_arg4).trans (Cert.ReferenceIdeal.RefValue.ref_arg4 m' c),
      (h c Cert.ReferenceIdeal.main_arg5).trans (Cert.ReferenceIdeal.RefValue.ref_arg5 m' c),
      (h c Cert.ReferenceIdeal.main_arg6).trans (Cert.ReferenceIdeal.RefValue.ref_arg6 m' c),
      (h c Cert.ReferenceIdeal.main_arg7).trans (Cert.ReferenceIdeal.RefValue.ref_arg7 m' c),
      (h c Cert.ReferenceIdeal.main_arg8).trans (Cert.ReferenceIdeal.RefValue.ref_arg8 m' c)⟩

theorem claim : Cert.Claim := ⟨Cert.Kernel.Gen.facts, Cert.KernelIdeal.Gen.facts, Cert.ReferenceIdeal.Gen.facts, Cert.Pre_finite_inputs.Gen.facts,
  Cert.Proof.Frames.frame_kernel, Cert.Proof.Frames.frame_kernelIdeal, Cert.Proof.Frames.frame_reference, trivial, algebraic⟩

end Cert.Proof

end
